-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S10000x128 : Shape := ⟨2, ![10000, 128]⟩
abbrev S10000x1 : Shape := ⟨2, ![10000, 1]⟩
abbrev S1700000x128 : Shape := ⟨2, ![1700000, 128]⟩
abbrev S1x128 : Shape := ⟨2, ![1, 128]⟩
abbrev S100000x64 : Shape := ⟨2, ![100000, 64]⟩
abbrev S10000x64 : Shape := ⟨2, ![10000, 64]⟩
abbrev S1700000x64 : Shape := ⟨2, ![1700000, 64]⟩
abbrev S1x64 : Shape := ⟨2, ![1, 64]⟩
abbrev S10000 : Shape := ⟨1, ![10000]⟩

abbrev nBuf : Space → Nat
  | .hbm => 52
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S100000x1, .f32⟩
  | .hbm, ⟨21, _⟩ => ⟨S100000x128, .f32⟩
  | .hbm, ⟨22, _⟩ => ⟨S_, .i32⟩
  | .hbm, ⟨23, _⟩ => ⟨S1700000, .i32⟩
  | .hbm, ⟨24, _⟩ => ⟨S1700000, .i1⟩
  | .hbm, ⟨25, _⟩ => ⟨S_, .i32⟩
  | .hbm, ⟨26, _⟩ => ⟨S1700000, .i32⟩
  | .hbm, ⟨27, _⟩ => ⟨S1700000, .i32⟩
  | .hbm, ⟨28, _⟩ => ⟨S1700000, .i32⟩
  | .hbm, ⟨29, _⟩ => ⟨S1700000x1, .i32⟩
  | .hbm, ⟨30, _⟩ => ⟨S1700000x128, .f32⟩
  | .hbm, ⟨31, _⟩ => ⟨S_, .f32⟩
  | .hbm, ⟨32, _⟩ => ⟨S100000x128, .f32⟩
  | .hbm, ⟨33, _⟩ => ⟨S1700000x1, .i32⟩
  | .hbm, ⟨34, _⟩ => ⟨S100000x128, .f32⟩
  | .hbm, ⟨35, _⟩ => ⟨S1x128, .f32⟩
  | .hbm, ⟨36, _⟩ => ⟨S100000x64, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000x64, .f32⟩
  | .hbm, ⟨46, _⟩ => ⟨S_, .f32⟩
  | .hbm, ⟨47, _⟩ => ⟨S100000x64, .f32⟩
  | .hbm, ⟨48, _⟩ => ⟨S1700000x1, .i32⟩
  | .hbm, ⟨49, _⟩ => ⟨S100000x64, .f32⟩
  | .hbm, ⟨50, _⟩ => ⟨S1x64, .f32⟩
  | .hbm, ⟨51, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x1, .f32⟩
  | .local _ .vmem, ⟨4, _⟩ => ⟨S10000x1, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S1x128, .f32⟩
  | .local _ .vmem, ⟨10, _⟩ => ⟨S128x64, .f32⟩
  | .local _ .vmem, ⟨11, _⟩ => ⟨S10000x1, .f32⟩
  | .local _ .vmem, ⟨12, _⟩ => ⟨S10000x1, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x1, .f32⟩
  | .local _ .vmem, ⟨19, _⟩ => ⟨S10000x1, .f32⟩
  | .local _ .vmem, ⟨20, _⟩ => ⟨S10000x64, .f32⟩
  | .local _ .vmem, ⟨21, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_3 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  broadcasts_S10000x1_S10000x64 : S10000x1.Broadcasts S10000x64
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  reduces_S10000x64_S10000 : S10000x64.Reduces [1] S10000
  shapeCasts_S10000_S10000x1 : S10000.ShapeCasts S10000x1
  scatter_S100000_S1700000x1_S1700000_n_0_0_1_wf : ScatterDims.WF S100000 S1700000x1 S1700000 [] [0] [0] 1
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x1.size a ≤ S100000x1.size a
  hwx1_3 : ∀ i : grid1.Coords, EltTy.bits .f32 = 32 ∨ (Rect.block (s := S100000x1) S10000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S10000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v25) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v35) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v12) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v37) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩

abbrev nBuf : Space → Nat
  | .hbm => 116
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S100000x128, .f32⟩
  | .hbm, ⟨21, _⟩ => ⟨S_, .i32⟩
  | .hbm, ⟨22, _⟩ => ⟨S1700000, .i32⟩
  | .hbm, ⟨23, _⟩ => ⟨S1700000, .i1⟩
  | .hbm, ⟨24, _⟩ => ⟨S_, .i32⟩
  | .hbm, ⟨25, _⟩ => ⟨S1700000, .i32⟩
  | .hbm, ⟨26, _⟩ => ⟨S1700000, .i32⟩
  | .hbm, ⟨27, _⟩ => ⟨S1700000, .i32⟩
  | .hbm, ⟨28, _⟩ => ⟨S1700000x1, .i32⟩
  | .hbm, ⟨29, _⟩ => ⟨S1700000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x128, .f32⟩
  | .hbm, ⟨49, _⟩ => ⟨S1700000x1, .f32⟩
  | .hbm, ⟨50, _⟩ => ⟨S1700000x128, .f32⟩
  | .hbm, ⟨51, _⟩ => ⟨S1700000x128, .f32⟩
  | .hbm, ⟨52, _⟩ => ⟨S_, .f32⟩
  | .hbm, ⟨53, _⟩ => ⟨S100000x128, .f32⟩
  | .hbm, ⟨54, _⟩ => ⟨S1700000x1, .i32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S100000x128, .f32⟩
  | .hbm, ⟨61, _⟩ => ⟨S100000x128, .f32⟩
  | .hbm, ⟨62, _⟩ => ⟨S100000x64, .f32⟩
  | .hbm, ⟨63, _⟩ => ⟨S_, .i32⟩
  | .hbm, ⟨64, _⟩ => ⟨S1700000, .i32⟩
  | .hbm, ⟨65, _⟩ => ⟨S1700000, .i1⟩
  | .hbm, ⟨66, _⟩ => ⟨S_, .i32⟩
  | .hbm, ⟨67, _⟩ => ⟨S1700000, .i32⟩
  | .hbm, ⟨68, _⟩ => ⟨S1700000, .i32⟩
  | .hbm, ⟨69, _⟩ => ⟨S1700000, .i32⟩
  | .hbm, ⟨70, _⟩ => ⟨S1700000x1, .i32⟩
  | .hbm, ⟨71, _⟩ => ⟨S1700000, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000, .f32⟩
  | .hbm, ⟨81, _⟩ => ⟨S1700000, .f32⟩
  | .hbm, ⟨82, _⟩ => ⟨S_, .i32⟩
  | .hbm, ⟨83, _⟩ => ⟨S1700000, .i32⟩
  | .hbm, ⟨84, _⟩ => ⟨S1700000, .i1⟩
  | .hbm, ⟨85, _⟩ => ⟨S_, .i32⟩
  | .hbm, ⟨86, _⟩ => ⟨S1700000, .i32⟩
  | .hbm, ⟨87, _⟩ => ⟨S1700000, .i32⟩
  | .hbm, ⟨88, _⟩ => ⟨S1700000, .i32⟩
  | .hbm, ⟨89, _⟩ => ⟨S1700000x1, .i32⟩
  | .hbm, ⟨90, _⟩ => ⟨S1700000x64, .f32⟩
  | .hbm, ⟨91, _⟩ => ⟨S1700000x1, .f32⟩
  | .hbm, ⟨92, _⟩ => ⟨S1700000x64, .f32⟩
  | .hbm, ⟨93, _⟩ => ⟨S1700000x64, .f32⟩
  | .hbm, ⟨94, _⟩ => ⟨S_, .f32⟩
  | .hbm, ⟨95, _⟩ => ⟨S100000x64, .f32⟩
  | .hbm, ⟨96, _⟩ => ⟨S1700000x1, .i32⟩
  | .hbm, ⟨97, _⟩ => ⟨S100000x64, .f32⟩
  | .hbm, ⟨98, _⟩ => ⟨S1x64, .f32⟩
  | .hbm, ⟨99, _⟩ => ⟨S100000x64, .f32⟩
  | .hbm, ⟨100, _⟩ => ⟨S100000x64, .f32⟩
  | .hbm, ⟨101, _⟩ => ⟨S_, .f32⟩
  | .hbm, ⟨102, _⟩ => ⟨S100000, .f32⟩
  | .hbm, ⟨103, _⟩ => ⟨S_, .f32⟩
  | .hbm, ⟨104, _⟩ => ⟨S100000, .f32⟩
  | .hbm, ⟨105, _⟩ => ⟨S100000, .f32⟩
  | .hbm, ⟨106, _⟩ => ⟨S100000x1, .f32⟩
  | .hbm, ⟨107, _⟩ => ⟨S100000x64, .f32⟩
  | .hbm, ⟨108, _⟩ => ⟨S100000x64, .f32⟩
  | .hbm, ⟨109, _⟩ => ⟨S100000x64, .f32⟩
  | .hbm, ⟨110, _⟩ => ⟨S_, .f32⟩
  | .hbm, ⟨111, _⟩ => ⟨S100000, .f32⟩
  | .hbm, ⟨112, _⟩ => ⟨S100000x1, .f32⟩
  | .hbm, ⟨113, _⟩ => ⟨S100000x1, .f32⟩
  | .hbm, ⟨114, _⟩ => ⟨S100000x64, .f32⟩
  | .hbm, ⟨115, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_9 : Ref sig .tc := ⟨.hbm, 72, rfl⟩
abbrev main_v53 : Ref sig .tc := ⟨.hbm, 73, rfl⟩
abbrev main_v54 : Ref sig .tc := ⟨.hbm, 74, rfl⟩
abbrev main_c_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_11 : Ref sig .tc := ⟨.hbm, 82, rfl⟩
abbrev main_v61 : Ref sig .tc := ⟨.hbm, 83, rfl⟩
abbrev main_v62 : Ref sig .tc := ⟨.hbm, 84, rfl⟩
abbrev main_c_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_13 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_call1_cst : Ref sig .tc := ⟨.hbm, 101, rfl⟩
abbrev main_call1_v0 : Ref sig .tc := ⟨.hbm, 102, rfl⟩
abbrev main_call1_cst_0 : Ref sig .tc := ⟨.hbm, 103, rfl⟩
abbrev main_call1_v1 : Ref sig .tc := ⟨.hbm, 104, rfl⟩
abbrev main_call1_v2 : Ref sig .tc := ⟨.hbm, 105, rfl⟩
abbrev main_call1_v3 : Ref sig .tc := ⟨.hbm, 106, rfl⟩
abbrev main_call1_v4 : Ref sig .tc := ⟨.hbm, 107, rfl⟩
abbrev main_call1_v5 : Ref sig .tc := ⟨.hbm, 108, rfl⟩
abbrev main_call1_v6 : Ref sig .tc := ⟨.hbm, 109, rfl⟩
abbrev main_call1_cst_1 : Ref sig .tc := ⟨.hbm, 110, rfl⟩
abbrev main_call1_v7 : Ref sig .tc := ⟨.hbm, 111, rfl⟩
abbrev main_call1_v8 : Ref sig .tc := ⟨.hbm, 112, rfl⟩
abbrev main_call1_v9 : Ref sig .tc := ⟨.hbm, 113, rfl⟩
abbrev main_call1_v10 : Ref sig .tc := ⟨.hbm, 114, rfl⟩
abbrev main_v77 : Ref sig .tc := ⟨.hbm, 115, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  scatter_S100000_S1700000x1_S1700000_n_0_0_1_wf : ScatterDims.WF S100000 S1700000x1 S1700000 [] [0] [0] 1
  dot_S100000x128_S128x128_S100000x128_1_0_0_1_n_n_wf : DotDims.WF S100000x128 S128x128 S100000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KRun.lean ====
/-
  The kernel program's run with its result named. @main is three pipelined regions among stretches of host
  operations; the contents of every unscoped buffer after the last region are the fold `Gen.W6` of the launch
  memory through the stretches and the regions' write-backs. Every weakly fair execution terminates, nothing
  faulting, with the result array at that fold's value and the six argument arrays as launched.
-/
import proofs.«101615_j360777253171_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes
-- unfolding plain definitions in a metavariable's type
set_option backward.isDefEq.respectTransparency.types false in
/-- The run: the result array ends at the last boundary's contents, the arguments as launched. The thread state
    after the last segment holds every unscoped buffer at `Gen.W6`; the final state is read against it. -/
theorem run_named : θ_run defs (onTc (τ := τ) (main (F := F))) ⟨m, fun _ => 0, ρ⟩ (fun r => ∀ c : Dev nD,
      r.2.mem ((c.tc : Thread nD τ).loc main_v37) = W6 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v37 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.RunValue

end
-- ==== Proof.KFold.lean ====
/-
  The kernel program's host side, as array functions, and the contents of the buffers its three regions read.

  Before the first region the host builds, from the edge list, the source and destination columns (each edge, then one
  self-loop per node), the degree of every node (a scatter-add of ones over the destination column), and the column
  of inverse square roots of the degrees. Before each later region it aggregates the previous region's rows: a gather
  by the (wrapped) source column followed by a scatter-add by the destination column into zeros; and it lays a bias
  vector out as a row.
-/
import proofs.«101615_j360777253171_2_alg».proof.Proof.Gen.KernelIdeal.Frame

set_option maxRecDepth 16384

noncomputable section

namespace Cert.KernelIdeal.HostValue

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

/-! ## The host's array functions -/

/-- The source column: row 0 of the edge list, then the nodes themselves (the self-loops). -/
def srcCol (e : (⟨S2x1600000, .i32⟩ : BufTy).Contents (Elt F)) : (⟨S1700000, .i32⟩ : BufTy).Contents (Elt F) :=
  concatenate S1700000 0 [⟨S1600000, shapeCast _ (extractStridedSlice S1x1600000 ![0, 0] e slices_S2x1600000_S1x1600000_0_0) shapeCasts_S1x1600000_S1600000⟩, ⟨S100000, iotaInDim S100000 32 0⟩] concatenates_S1600000_S100000_S1700000_d0
/-- The destination column: row 1 of the edge list, then the nodes themselves. -/
def dstCol (e : (⟨S2x1600000, .i32⟩ : BufTy).Contents (Elt F)) : (⟨S1700000, .i32⟩ : BufTy).Contents (Elt F) :=
  concatenate S1700000 0 [⟨S1600000, shapeCast _ (extractStridedSlice S1x1600000 ![1, 0] e slices_S2x1600000_S1x1600000_1_0) shapeCasts_S1x1600000_S1600000⟩, ⟨S100000, iotaInDim S100000 32 0⟩] concatenates_S1600000_S100000_S1700000_d0
/-- A negative index counts from the end: it is moved up by the number of nodes. -/
def wrap (v : (⟨S1700000, .i32⟩ : BufTy).Contents (Elt F)) : (⟨S1700000, .i32⟩ : BufTy).Contents (Elt F) :=
  select (cmpi .slt v (broadcastInDim S1700000 ![] bcast_S_S1700000 (constantI S_ 32 0#32)))
    (addi v (broadcastInDim S1700000 ![] bcast_S_S1700000 (constantI S_ 32 100000#32))) v
/-- An index vector as the one-column index array the gather and the scatter take. -/
def col (v : (⟨S1700000, .i32⟩ : BufTy).Contents (Elt F)) : (⟨S1700000x1, .i32⟩ : BufTy).Contents (Elt F) :=
  broadcastInDim S1700000x1 ![0] bcast_S1700000_S1700000x1_0 v
/-- The column of node factors: the inverse square root of each node's degree, the degree a scatter-add of ones. -/
def disCol (e : (⟨S2x1600000, .i32⟩ : BufTy).Contents (Elt F)) : (⟨S100000x1, .f32⟩ : BufTy).Contents (Elt F) :=
  shapeCast _ (Host.rsqrt (Host.scatterAdd scatter_S100000_S1700000x1_S1700000_n_0_0_1
      (broadcastInDim S100000 ![] bcast_S_S100000 (constant S_ .f32 0x00000000#32)) (col (dstCol e))
      (broadcastInDim S1700000 ![] bcast_S_S1700000 (constant S_ .f32 0x3F800000#32)))) shapeCasts_S100000_S100000x1
/-- The aggregate of 128-wide rows: gathered by source, summed into zeros by destination. -/
def agg128 (e : (⟨S2x1600000, .i32⟩ : BufTy).Contents (Elt F)) (h : (⟨S100000x128, .f32⟩ : BufTy).Contents (Elt F)) :
    (⟨S100000x128, .f32⟩ : BufTy).Contents (Elt F) :=
  Host.scatterAdd scatter_S100000x128_S1700000x1_S1700000x128_1_0_0_1
    (broadcastInDim S100000x128 ![] bcast_S_S100000x128 (constant S_ .f32 0x00000000#32)) (col (dstCol e))
    (Host.gather gather_S100000x128_S1700000x1_S1700000x128_1_0_n_n_0_1_1128 h (col (wrap (srcCol e))))
/-- The aggregate of 64-wide rows. -/
def agg64 (e : (⟨S2x1600000, .i32⟩ : BufTy).Contents (Elt F)) (h : (⟨S100000x64, .f32⟩ : BufTy).Contents (Elt F)) :
    (⟨S100000x64, .f32⟩ : BufTy).Contents (Elt F) :=
  Host.scatterAdd scatter_S100000x64_S1700000x1_S1700000x64_1_0_0_1
    (broadcastInDim S100000x64 ![] bcast_S_S100000x64 (constant S_ .f32 0x00000000#32)) (col (dstCol e))
    (Host.gather gather_S100000x64_S1700000x1_S1700000x64_1_0_n_n_0_1_164 h (col (wrap (srcCol e))))
/-- A bias vector laid out as a row. -/
def row128 (b : (⟨S128, .f32⟩ : BufTy).Contents (Elt F)) : (⟨S1x128, .f32⟩ : BufTy).Contents (Elt F) := shapeCast _ b shapeCasts_S128_S1x128
def row64 (b : (⟨S64, .f32⟩ : BufTy).Contents (Elt F)) : (⟨S1x64, .f32⟩ : BufTy).Contents (Elt F) := shapeCast _ b shapeCasts_S64_S1x64

variable (m : (ℓ : Loc nD τ sig) → Buf (Elt F) ℓ) (ρ : Dev nD → PrngReg) (c : Dev nD)

/-! ## After the first stretch (the first region's entry) -/

theorem W1_src : W1 m ρ c (Proc.devRef .tc main_v3) = srcCol (F := F) (m ((c : Thread nD τ).loc main_arg1)) := by
  show StableHlo.after hostOps0 (W0 m ρ c) (Proc.devRef .tc main_v3) = _
  after_results; rfl
theorem W1_dst : W1 m ρ c (Proc.devRef .tc main_v6) = dstCol (F := F) (m ((c : Thread nD τ).loc main_arg1)) := by
  show StableHlo.after hostOps0 (W0 m ρ c) (Proc.devRef .tc main_v6) = _
  after_results; rfl
theorem W1_dis : W1 m ρ c (Proc.devRef .tc main_v12) = disCol (F := F) (m ((c : Thread nD τ).loc main_arg1)) := by
  show StableHlo.after hostOps0 (W0 m ρ c) (Proc.devRef .tc main_v12) = _
  after_results; rfl
/-- The first stretch writes no argument. -/
theorem W1_arg (b : Ref sig .tc) (hb : b = main_arg0 ∨ b = main_arg2 ∨ b = main_arg3 ∨ b = main_arg4 ∨ b = main_arg5) :
    W1 m ρ c (Proc.devRef .tc b) = m ((c : Thread nD τ).loc b) := by
  show StableHlo.after hostOps0 (W0 m ρ c) (Proc.devRef .tc b) = _
  rcases hb with rfl | rfl | rfl | rfl | rfl <;> (after_results <;> rfl)

/-! ## Across the first region: it writes only its output array -/

theorem W2_src : W2 m ρ c (Proc.devRef .tc main_v3) = srcCol (F := F) (m ((c : Thread nD τ).loc main_arg1)) :=
  (W2_of_ne m ρ c main_v3 (by decide)).trans (W1_src m ρ c)
theorem W2_dst : W2 m ρ c (Proc.devRef .tc main_v6) = dstCol (F := F) (m ((c : Thread nD τ).loc main_arg1)) :=
  (W2_of_ne m ρ c main_v6 (by decide)).trans (W1_dst m ρ c)
theorem W2_dis : W2 m ρ c (Proc.devRef .tc main_v12) = disCol (F := F) (m ((c : Thread nD τ).loc main_arg1)) :=
  ((W2_arr m ρ c 2).trans (((dat0 (V1 m ρ) c).arrAt_in 2 rfl _).trans (A_eq0 (V1 m ρ) c 2))).trans (W1_dis m ρ c)
theorem W2_arg (b : Ref sig .tc) (hb : b = main_arg3 ∨ b = main_arg4 ∨ b = main_arg5) :
    W2 m ρ c (Proc.devRef .tc b) = m ((c : Thread nD τ).loc b) := by
  rcases hb with rfl | rfl | rfl
  · exact (W2_of_ne m ρ c main_arg3 (by decide)).trans (W1_arg m ρ c main_arg3 (Or.inr (Or.inr (Or.inl rfl))))
  · exact (W2_of_ne m ρ c main_arg4 (by decide)).trans (W1_arg m ρ c main_arg4 (Or.inr (Or.inr (Or.inr (Or.inl rfl)))))
  · exact (W2_of_ne m ρ c main_arg5 (by decide)).trans (W1_arg m ρ c main_arg5 (Or.inr (Or.inr (Or.inr (Or.inr rfl)))))

/-! ## After the second stretch (the second region's entry) -/

/-- The second region's first operand: the aggregate of the first region's rows. -/
theorem W3_agg : W3 m ρ c (Proc.devRef .tc main_v23)
    = agg128 (F := F) (m ((c : Thread nD τ).loc main_arg1)) (W2 m ρ c (Proc.devRef .tc main_v13)) := by
  show StableHlo.after hostOps1 (W2 m ρ c) (Proc.devRef .tc main_v23) = _
  after_results
  rw [W2_src m ρ c, W2_dst m ρ c]
  rfl
theorem W3_bias : W3 m ρ c (Proc.devRef .tc main_v24) = row128 (F := F) (m ((c : Thread nD τ).loc main_arg3)) := by
  show StableHlo.after hostOps1 (W2 m ρ c) (Proc.devRef .tc main_v24) = _
  after_results
  rw [W2_arg m ρ c main_arg3 (Or.inl rfl)]
  rfl
theorem W3_keep (b : Ref sig .tc) (hb : b = main_v3 ∨ b = main_v6 ∨ b = main_v12 ∨ b = main_arg4 ∨ b = main_arg5) :
    W3 m ρ c (Proc.devRef .tc b) = W2 m ρ c (Proc.devRef .tc b) := by
  show StableHlo.after hostOps1 (W2 m ρ c) (Proc.devRef .tc b) = _
  rcases hb with rfl | rfl | rfl | rfl | rfl <;> (after_results <;> rfl)

/-! ## Across the second region -/

theorem W4_src : W4 m ρ c (Proc.devRef .tc main_v3) = srcCol (F := F) (m ((c : Thread nD τ).loc main_arg1)) :=
  (W4_of_ne m ρ c main_v3 (by decide)).trans ((W3_keep m ρ c main_v3 (Or.inl rfl)).trans (W2_src m ρ c))
theorem W4_dst : W4 m ρ c (Proc.devRef .tc main_v6) = dstCol (F := F) (m ((c : Thread nD τ).loc main_arg1)) :=
  (W4_of_ne m ρ c main_v6 (by decide)).trans ((W3_keep m ρ c main_v6 (Or.inr (Or.inl rfl))).trans (W2_dst m ρ c))
theorem W3_dis : W3 m ρ c (Proc.devRef .tc main_v12) = disCol (F := F) (m ((c : Thread nD τ).loc main_arg1)) :=
  (W3_keep m ρ c main_v12 (Or.inr (Or.inr (Or.inl rfl)))).trans (W2_dis m ρ c)
theorem W3_w2 : W3 m ρ c (Proc.devRef .tc main_arg4) = m ((c : Thread nD τ).loc main_arg4) :=
  (W3_keep m ρ c main_arg4 (Or.inr (Or.inr (Or.inr (Or.inl rfl))))).trans (W2_arg m ρ c main_arg4 (Or.inr (Or.inl rfl)))
theorem W4_dis : W4 m ρ c (Proc.devRef .tc main_v12) = disCol (F := F) (m ((c : Thread nD τ).loc main_arg1)) :=
  ((W4_arr m ρ c 3).trans (((dat1 (V3 m ρ) c).arrAt_in 3 rfl _).trans (A_eq1 (V3 m ρ) c 3))).trans (W3_dis m ρ c)
theorem W4_b2 : W4 m ρ c (Proc.devRef .tc main_arg5) = m ((c : Thread nD τ).loc main_arg5) :=
  (W4_of_ne m ρ c main_arg5 (by decide)).trans ((W3_keep m ρ c main_arg5 (Or.inr (Or.inr (Or.inr (Or.inr rfl))))).trans
    (W2_arg m ρ c main_arg5 (Or.inr (Or.inr rfl))))

/-! ## After the third stretch (the third region's entry) -/

theorem W5_agg : W5 m ρ c (Proc.devRef .tc main_v35)
    = agg64 (F := F) (m ((c : Thread nD τ).loc main_arg1)) (W4 m ρ c (Proc.devRef .tc main_v25)) := by
  show StableHlo.after hostOps2 (W4 m ρ c) (Proc.devRef .tc main_v35) = _
  after_results
  rw [W4_src m ρ c, W4_dst m ρ c]
  rfl
theorem W5_bias : W5 m ρ c (Proc.devRef .tc main_v36) = row64 (F := F) (m ((c : Thread nD τ).loc main_arg5)) := by
  show StableHlo.after hostOps2 (W4 m ρ c) (Proc.devRef .tc main_v36) = _
  after_results
  rw [W4_b2 m ρ c]
  rfl
theorem W5_dis : W5 m ρ c (Proc.devRef .tc main_v12) = disCol (F := F) (m ((c : Thread nD τ).loc main_arg1)) := by
  have h : W5 m ρ c (Proc.devRef .tc main_v12) = W4 m ρ c (Proc.devRef .tc main_v12) := by
    show StableHlo.after hostOps2 (W4 m ρ c) (Proc.devRef .tc main_v12) = _
    after_results <;> rfl
  exact h.trans (W4_dis m ρ c)

end Cert.KernelIdeal.HostValue

end
-- ==== Proof.RegionLinear.lean ====
/-
  The first region (a row-blocked matrix product scaled row by row) as ONE function of the arrays it finds:
  row `r`, column `q` of the output array is `(∑ k, x[r,k] · w[k,q]) · s[r,0]`. Written here: the block's
  arithmetic at one entry; each input window's block as rows of its array; what a grid point writes back as the block
  of that function; the ten blocks cover the array; so the array the pipeline leaves is that function.
-/
import proofs.«101615_j360777253171_2_alg».proof.Proof.Gen.KernelIdeal.Frame
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.RegionValue

open Cert.KernelIdeal Idealize.ShloMosaic Idealize.ShloMosaic.TcCoe Idealize.SL.Sem
open Idealize.ShloMosaic.ValueIdx
open Idealize.ShloMosaic.Pipeline (Dat)
open scoped BigOperators

/-- A column `[a, 1]` broadcast along the second axis to `[a, b]` reads, at `(p, c)`, the column's entry of row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The function -/

/-- Row `i 0`, column `i 1`: the row of `x` against the column of `w`, then scaled by the row's entry of the column `s`. -/
def linearRows (x : S100000x128.Idx → EReal) (w : S128x128.Idx → EReal) (s : S100000x1.Idx → EReal) : S100000x128.Idx → EReal :=
  fun i => (∑ k : Fin 128, x (ix2 (i 0 : Fin 100000) k) * w (ix2 k (i 1 : Fin 128))) * s (ix2 (i 0 : Fin 100000) (0 : Fin 1))

/-! ## The block's arithmetic at one entry -/

/-- The matrix unit's left operand index on the row axis is the output's row. -/
private theorem linear_lhs_row (i : S10000x128.Idx) (kk : dot_S10000x128_S128x128_S10000x128_1_0_0_1_n_n.contr.Idx) : (dot_S10000x128_S128x128_S10000x128_1_0_0_1_n_n.lhsIdx i kk 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl
/-- On the contracted axis it is the contraction coordinate. -/
private theorem linear_lhs_contr (i : S10000x128.Idx) (kk : dot_S10000x128_S128x128_S10000x128_1_0_0_1_n_n.contr.Idx) : (dot_S10000x128_S128x128_S10000x128_1_0_0_1_n_n.lhsIdx i kk 1).val = (kk ⟨0, by decide⟩).val :=
  dot_S10000x128_S128x128_S10000x128_1_0_0_1_n_n.lhsIdx_val_of_single rfl i kk
/-- The right operand index on its contracted axis is the contraction coordinate. -/
private theorem linear_rhs_contr (i : S10000x128.Idx) (kk : dot_S10000x128_S128x128_S10000x128_1_0_0_1_n_n.contr.Idx) : (dot_S10000x128_S128x128_S10000x128_1_0_0_1_n_n.rhsIdx i kk 0).val = (kk ⟨0, by decide⟩).val :=
  dot_S10000x128_S128x128_S10000x128_1_0_0_1_n_n.rhsIdx_val_of_single rfl i kk
/-- On the column axis it is the output's column. -/
private theorem linear_rhs_col (i : S10000x128.Idx) (kk : dot_S10000x128_S128x128_S10000x128_1_0_0_1_n_n.contr.Idx) : (dot_S10000x128_S128x128_S10000x128_1_0_0_1_n_n.rhsIdx i kk 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- So at output `(p, q)` and contraction coordinate `k` the left operand is read at `(p, k)` … -/
private theorem linear_lhsIdx (p : Fin 10000) (q : Fin 128) (k : Fin 128) :
    dot_S10000x128_S128x128_S10000x128_1_0_0_1_n_n.lhsIdx (ix2 p q) ((contrEquiv1 dot_S10000x128_S128x128_S10000x128_1_0_0_1_n_n 128 rfl rfl).symm k) = ix2 p k := by
  have hk := contrEquiv1_symm_val dot_S10000x128_S128x128_S10000x128_1_0_0_1_n_n 128 rfl rfl k
  exact funext fun a => Fin.ext (by
    match a with
    | ⟨0, _⟩ => exact linear_lhs_row _ _
    | ⟨1, _⟩ => exact (linear_lhs_contr _ _).trans hk)

/-- … and the right operand at `(k, q)`. -/
private theorem linear_rhsIdx (p : Fin 10000) (q : Fin 128) (k : Fin 128) :
    dot_S10000x128_S128x128_S10000x128_1_0_0_1_n_n.rhsIdx (ix2 p q) ((contrEquiv1 dot_S10000x128_S128x128_S10000x128_1_0_0_1_n_n 128 rfl rfl).symm k) = ix2 k q := by
  have hk := contrEquiv1_symm_val dot_S10000x128_S128x128_S10000x128_1_0_0_1_n_n 128 rfl rfl k
  exact funext fun a => Fin.ext (by
    match a with
    | ⟨0, _⟩ => exact (linear_rhs_contr _ _).trans hk
    | ⟨1, _⟩ => exact linear_rhs_col _ _)

/-- One entry of the first region's block: row `p` of `v0` against column `q` of `v2`, then scaled by row `p`'s entry
    of the column `v5`. -/
theorem linear_payload_apply (v0 : Vec Ideal S10000x128 .f32) (v2 : Vec Ideal S128x128 .f32) (v5 : Vec Ideal S10000x1 .f32)
    (p : Fin 10000) (q : Fin 128) :
    Gen.k0_pay1 v0 v2 v5 (ix2 p q) = (∑ k : Fin 128, v0 (ix2 p k) * v2 (ix2 k q)) * v5 (ix2 p (0 : Fin 1)) := by
  unfold Gen.k0_pay1
  refine (mulf_apply _ _ _).trans ?_
  refine congrArg₂ (· * ·) ?_ ?_
  · refine (Ideal.matmul_constant_zero_apply _ none _ _ (ix2 p q)).trans ?_
    rw [← Equiv.sum_comp (contrEquiv1 dot_S10000x128_S128x128_S10000x128_1_0_0_1_n_n 128 rfl rfl).symm]
    refine Finset.sum_congr rfl fun k _ => ?_
    rw [linear_lhsIdx, linear_rhsIdx]
    rfl
  · rw [shapeCast_self]
    exact broadcastTo_a1_ab_apply v5 _ p q

/-- The block's entry at `y` from blocks that are rows `10000·T + ·` of the arrays `x` and `s` and the whole of `w`:
    the function's value at the array index `i` under `y`. -/
theorem linear_block_apply (x : S100000x128.Idx → EReal) (w : S128x128.Idx → EReal) (s : S100000x1.Idx → EReal)
    (b0 : Vec Ideal S10000x128 .f32) (b1 : Vec Ideal S128x128 .f32) (b2 : Vec Ideal S10000x1 .f32) (T : ℕ)
    (h0 : ∀ (y : S10000x128.Idx) (k : S100000x128.Idx), (k 0).val = 10000 * T + (y 0).val → (k 1).val = (y 1).val → b0 y = x k)
    (h1 : b1 = w)
    (h2 : ∀ (y : S10000x1.Idx) (k : S100000x1.Idx), (k 0).val = 10000 * T + (y 0).val → (k 1).val = (y 1).val → b2 y = s k)
    (y : S10000x128.Idx) (i : S100000x128.Idx) (hi0 : (i 0).val = 10000 * T + (y 0).val) (hi1 : (i 1).val = (y 1).val) :
    Gen.k0_pay1 b0 b1 b2 y = linearRows x w s i := by
  obtain ⟨p, q, rfl⟩ : ∃ (p : Fin 10000) (q : Fin 128), y = ix2 p q := ⟨y 0, y 1, eq_ix2 y⟩
  have hq : (i 1 : Fin 128) = q := Fin.ext hi1
  refine (linear_payload_apply b0 b1 b2 p q).trans ?_
  unfold linearRows
  rw [hq, h1]
  refine congrArg₂ (· * ·) (Finset.sum_congr rfl fun k _ => ?_) ?_
  · exact congrArg (· * w (ix2 k q)) (h0 (ix2 p k) (ix2 (i 0 : Fin 100000) k) hi0 rfl)
  · exact h2 (ix2 p (0 : Fin 1)) (ix2 (i 0 : Fin 100000) (0 : Fin 1)) hi0 rfl

/-! ## The windows' blocks as rows of their arrays -/

section Windows

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the ten points: the three row-blocked windows sit at block row `t`, the
    weight window at its one block. -/
theorem linear_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Window 0's block at point `t` is rows `10000 t …` of the first array. -/
theorem linear_x_block (c : Dev nD) (t : Fin cfg0.N) (y : S10000x128.Idx) (k : S100000x128.Idx)
    (hk0 : (k 0).val = 10000 * t.val + (y 0).val) (hk1 : (k 1).val = (y 1).val) :
    (Gen.iblk0 V c 0 t : Vec Ideal S10000x128 .f32) y = (V c main_arg0 : S100000x128.Idx → EReal) k := by
  obtain ⟨e0, e1, -⟩ := linear_index t
  unfold Gen.iblk0
  rw [View.read_apply]
  show V c main_arg0 _ = V c main_arg0 _
  refine congrArg _ (funext fun a => Fin.ext ?_)
  match a with
  | ⟨0, _⟩ => show win0_0.index t 0 * 10000 + 1 * (y 0).val = (k 0).val; rw [e0, hk0]; omega
  | ⟨1, _⟩ => show win0_0.index t 1 * 128 + 1 * (y 1).val = (k 1).val; rw [e1, hk1]; omega

/-- Window 1's block at every point is the whole weight array. -/
theorem linear_w_block (c : Dev nD) (t : Fin cfg0.N) :
    (Gen.iblk0 V c 1 t : Vec Ideal S128x128 .f32) = (V c main_arg2 : S128x128.Idx → EReal) := by
  obtain ⟨-, -, e0, e1, -⟩ := linear_index t
  funext y
  unfold Gen.iblk0
  rw [View.read_apply]
  show V c main_arg2 _ = V c main_arg2 _
  refine congrArg _ (funext fun a => Fin.ext ?_)
  match a with
  | ⟨0, _⟩ => show win0_1.index t 0 * 128 + 1 * (y 0).val = (y 0).val; rw [e0]; omega
  | ⟨1, _⟩ => show win0_1.index t 1 * 128 + 1 * (y 1).val = (y 1).val; rw [e1]; omega

/-- Window 2's block at point `t` is rows `10000 t …` of the scaling column. -/
theorem linear_s_block (c : Dev nD) (t : Fin cfg0.N) (y : S10000x1.Idx) (k : S100000x1.Idx)
    (hk0 : (k 0).val = 10000 * t.val + (y 0).val) (hk1 : (k 1).val = (y 1).val) :
    (Gen.iblk0 V c 2 t : Vec Ideal S10000x1 .f32) y = (V c main_v12 : S100000x1.Idx → EReal) k := by
  obtain ⟨-, -, -, -, e0, e1, -⟩ := linear_index t
  unfold Gen.iblk0
  rw [View.read_apply]
  show V c main_v12 _ = V c main_v12 _
  refine congrArg _ (funext fun a => Fin.ext ?_)
  match a with
  | ⟨0, _⟩ => show win0_2.index t 0 * 10000 + 1 * (y 0).val = (k 0).val; rw [e0, hk0]; omega
  | ⟨1, _⟩ => show win0_2.index t 1 * 1 + 1 * (y 1).val = (k 1).val; rw [e1, hk1]; omega

/-! ## From blocks to the array -/

/-- WHAT POINT `t` WRITES BACK is block `t` of `linearRows` of the arrays as the region finds them. -/
theorem linear_flushed (c : Dev nD) (t : Fin cfg0.N) :
    (Gen.dat0 (F := Ideal) V c).flushed 3 t
      = ((cfg0.win 3).blk t).view.read (Elt Ideal)
          (linearRows (V c main_arg0 : S100000x128.Idx → EReal) (V c main_arg2 : S128x128.Idx → EReal) (V c main_v12 : S100000x1.Idx → EReal)) := by
  show (cfg0.win 3).cut (grid0.coords t) ((Gen.dat0 V c).after 3 t) = _
  rw [Gen.after0_3]
  unfold Gen.out0_3
  rw [View.canon_unit_zero hz]
  simp only [View.ld_unit_zero (S := S10000x128) hz, View.ld_unit_zero (S := S128x128) hz, View.ld_unit_zero (S := S10000x1) hz]
  obtain ⟨-, -, -, -, -, -, e0, e1⟩ := linear_index t
  funext j
  rw [View.read_apply]
  refine linear_block_apply _ _ _ (Gen.iblk0 V c 0 t) (Gen.iblk0 V c 1 t) (Gen.iblk0 V c 2 t) t.val
    (fun y k hk0 hk1 => linear_x_block V c t y k hk0 hk1) (linear_w_block V c t)
    (fun y k hk0 hk1 => linear_s_block V c t y k hk0 hk1) _ _ ?_ ?_
  · show win0_3.index t 0 * 10000 + 1 * (j 0).val = 10000 * t.val + (j 0).val; rw [e0]; omega
  · show win0_3.index t 1 * 128 + 1 * (j 1).val = (j 1).val; rw [e1]; omega

/-- An index of the output array is in point `t`'s block iff each coordinate is in the block's range on its axis. -/
theorem linear_mem_blk (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v13).slice (win0_3.rect t)).set ↔ _
  rw [View.set_slice_whole, Rect.mem_set_unit]
  exact Iff.rfl

/-- The ten blocks cover the array: row `r` is in the block of point `r / 10000`. -/
theorem linear_cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 10 := Gen.N_0
  have ht : (i 0).val / 10000 < cfg0.N := by rw [hN]; omega
  obtain ⟨-, -, -, -, -, -, e0, e1⟩ := linear_index ⟨(i 0).val / 10000, ht⟩
  refine ⟨⟨(i 0).val / 10000, ht⟩, Gen.flush0_3 _, ?_⟩
  rw [linear_mem_blk]
  intro a
  match a with
  | ⟨0, _⟩ =>
    show win0_3.index ⟨(i 0).val / 10000, ht⟩ 0 * 10000 ≤ (i 0).val ∧ (i 0).val < win0_3.index ⟨(i 0).val / 10000, ht⟩ 0 * 10000 + 10000
    rw [e0]; show (i 0).val / 10000 * 10000 ≤ (i 0).val ∧ (i 0).val < (i 0).val / 10000 * 10000 + 10000; omega
  | ⟨1, _⟩ =>
    show win0_3.index ⟨(i 0).val / 10000, ht⟩ 1 * 128 ≤ (i 1).val ∧ (i 1).val < win0_3.index ⟨(i 0).val / 10000, ht⟩ 1 * 128 + 128
    rw [e1]; omega

/-- THE ARRAY the first region leaves: `linearRows` of the arrays it found. -/
theorem linear_array (c : Dev nD) :
    (Gen.dat0 (F := Ideal) V c).arrAt 3 cfg0.N
      = linearRows (V c main_arg0 : S100000x128.Idx → EReal) (V c main_arg2 : S128x128.Idx → EReal) (V c main_v12 : S100000x1.Idx → EReal) :=
  (Gen.dat0 (F := Ideal) V c).arrAt_eq_of_cover 3 _ (fun t _ => linear_flushed V c t) linear_cover

end Windows

end Cert.KernelIdeal.RegionValue

end
-- ==== Proof.RegionMid.lean ====
/-
  The second region (scale each row, add a bias row, clamp below at zero, multiply by a weight matrix, scale each
  row again) as ONE function of the arrays it finds: row `r`, column `q` of the output array is
  `(∑ k, max (s[r,0] · a[r,k] + b[0,k]) 0 · w[k,q]) · s[r,0]`. Written here: the block's arithmetic at one entry; each
  input window's block as rows of its array; what a grid point writes back as the block of that function; the ten
  blocks cover the array; so the array the pipeline leaves is that function.
-/
import proofs.«101615_j360777253171_2_alg».proof.Proof.Gen.KernelIdeal.Frame
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.RegionValue

open Cert.KernelIdeal Idealize.ShloMosaic Idealize.ShloMosaic.TcCoe Idealize.SL.Sem
open Idealize.ShloMosaic.ValueIdx
open Idealize.ShloMosaic.Pipeline (Dat)
open scoped BigOperators

/-- A column `[a, 1]` broadcast along the second axis to `[a, b]` reads, at `(p, c)`, the column's entry of row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The function -/

/-- Row `i 0`, column `i 1`: the row's clamped logits `max (s[r,0] · a[r,k] + b[0,k]) 0` against the column of `w`, then
    scaled by the row's entry of the column `s`. -/
def midRows (a : S100000x128.Idx → EReal) (b : S1x128.Idx → EReal) (w : S128x64.Idx → EReal) (s : S100000x1.Idx → EReal) :
    S100000x64.Idx → EReal :=
  fun i => (∑ k : Fin 128,
      max (s (ix2 (i 0 : Fin 100000) (0 : Fin 1)) * a (ix2 (i 0 : Fin 100000) k) + b (ix2 (0 : Fin 1) k)) 0
        * w (ix2 k (i 1 : Fin 64)))
    * s (ix2 (i 0 : Fin 100000) (0 : Fin 1))

/-! ## The block's arithmetic at one entry -/

/-- The matrix unit's left operand index on the row axis is the output's row. -/
private theorem mid_lhs_row (i : S10000x64.Idx) (kk : dot_S10000x128_S128x64_S10000x64_1_0_0_1_n_n.contr.Idx) : (dot_S10000x128_S128x64_S10000x64_1_0_0_1_n_n.lhsIdx i kk 0).val = (i 0).val := by
  unfold DotDims.lhsIdx
  rw [dif_neg (show ¬(0 : Fin S10000x128.rank) ∈ dot_S10000x128_S128x64_S10000x64_1_0_0_1_n_n.lhsBatch by decide),
    dif_pos (show (0 : Fin S10000x128.rank) ∈ dot_S10000x128_S128x64_S10000x64_1_0_0_1_n_n.lhsNonContracting by decide)]
  rfl
/-- On the contracted axis it is the contraction coordinate. -/
private theorem mid_lhs_contr (i : S10000x64.Idx) (kk : dot_S10000x128_S128x64_S10000x64_1_0_0_1_n_n.contr.Idx) : (dot_S10000x128_S128x64_S10000x64_1_0_0_1_n_n.lhsIdx i kk 1).val = (kk ⟨0, by decide⟩).val :=
  dot_S10000x128_S128x64_S10000x64_1_0_0_1_n_n.lhsIdx_val_of_single rfl i kk
/-- The right operand index on its contracted axis is the contraction coordinate. -/
private theorem mid_rhs_contr (i : S10000x64.Idx) (kk : dot_S10000x128_S128x64_S10000x64_1_0_0_1_n_n.contr.Idx) : (dot_S10000x128_S128x64_S10000x64_1_0_0_1_n_n.rhsIdx i kk 0).val = (kk ⟨0, by decide⟩).val :=
  dot_S10000x128_S128x64_S10000x64_1_0_0_1_n_n.rhsIdx_val_of_single rfl i kk
/-- On the column axis it is the output's column. -/
private theorem mid_rhs_col (i : S10000x64.Idx) (kk : dot_S10000x128_S128x64_S10000x64_1_0_0_1_n_n.contr.Idx) : (dot_S10000x128_S128x64_S10000x64_1_0_0_1_n_n.rhsIdx i kk 1).val = (i 1).val := by
  unfold DotDims.rhsIdx
  rw [dif_neg (show ¬(1 : Fin S128x64.rank) ∈ dot_S10000x128_S128x64_S10000x64_1_0_0_1_n_n.rhsBatch by decide),
    dif_pos (show (1 : Fin S128x64.rank) ∈ dot_S10000x128_S128x64_S10000x64_1_0_0_1_n_n.rhsNonContracting by decide)]
  rfl

/-- So at output `(p, q)` and contraction coordinate `k` the left operand is read at `(p, k)` … -/
private theorem mid_lhsIdx (p : Fin 10000) (q : Fin 64) (k : Fin 128) :
    dot_S10000x128_S128x64_S10000x64_1_0_0_1_n_n.lhsIdx (ix2 p q) ((contrEquiv1 dot_S10000x128_S128x64_S10000x64_1_0_0_1_n_n 128 rfl rfl).symm k) = ix2 p k := by
  have hk := contrEquiv1_symm_val dot_S10000x128_S128x64_S10000x64_1_0_0_1_n_n 128 rfl rfl k
  exact funext fun a => Fin.ext (by
    match a with
    | ⟨0, _⟩ => exact mid_lhs_row _ _
    | ⟨1, _⟩ => exact (mid_lhs_contr _ _).trans hk)

/-- … and the right operand at `(k, q)`. -/
private theorem mid_rhsIdx (p : Fin 10000) (q : Fin 64) (k : Fin 128) :
    dot_S10000x128_S128x64_S10000x64_1_0_0_1_n_n.rhsIdx (ix2 p q) ((contrEquiv1 dot_S10000x128_S128x64_S10000x64_1_0_0_1_n_n 128 rfl rfl).symm k) = ix2 k q := by
  have hk := contrEquiv1_symm_val dot_S10000x128_S128x64_S10000x64_1_0_0_1_n_n 128 rfl rfl k
  exact funext fun a => Fin.ext (by
    match a with
    | ⟨0, _⟩ => exact (mid_rhs_contr _ _).trans hk
    | ⟨1, _⟩ => exact mid_rhs_col _ _)

/-- One entry of the second region's block: row `p`'s clamped logits against column `q` of `v13`, then scaled by row `p`'s
    entry of the column `v16`. -/
theorem mid_payload_apply (v0 : Vec Ideal S10000x1 .f32) (v2 : Vec Ideal S10000x128 .f32) (v6 : Vec Ideal S1x128 .f32)
    (v13 : Vec Ideal S128x64 .f32) (v16 : Vec Ideal S10000x1 .f32) (p : Fin 10000) (q : Fin 64) :
    Gen.k1_pay1 v0 v2 v6 v13 v16 (ix2 p q)
      = (∑ k : Fin 128, max (v0 (ix2 p (0 : Fin 1)) * v2 (ix2 p k) + v6 (ix2 (0 : Fin 1) k)) 0 * v13 (ix2 k q))
        * v16 (ix2 p (0 : Fin 1)) := by
  unfold Gen.k1_pay1
  simp only [shapeCast_self]
  refine (mulf_apply _ _ _).trans ?_
  refine congrArg₂ (· * ·) ?_ (broadcastTo_a1_ab_apply v16 _ p q)
  refine (Ideal.matmul_constant_zero_apply _ none _ _ (ix2 p q)).trans ?_
  rw [← Equiv.sum_comp (contrEquiv1 dot_S10000x128_S128x64_S10000x64_1_0_0_1_n_n 128 rfl rfl).symm]
  refine Finset.sum_congr rfl fun k _ => ?_
  rw [mid_lhsIdx, mid_rhsIdx]
  refine congrArg₂ (· * ·) ?_ rfl
  refine (truncf_apply (ψ := .bf16) _ Gen.bitsLt_bf16_f32 (ix2 p k)).trans ((maximumf_apply _ _ _).trans ?_)
  refine congrArg₂ max ?_ Ideal.ofBits_zero_f32
  refine (addf_apply _ _ _).trans (congrArg₂ (· + ·) ?_ (broadcastTo_1b_ab_apply v6 _ p k))
  exact (mulf_apply _ _ _).trans (congrArg (· * v2 (ix2 p k)) (broadcastTo_a1_ab_apply v0 _ p k))

/-- The block's entry at `y` from blocks that are rows `10000·T + ·` of the arrays `a` and `s` and the whole of the bias
    row `b` and of the weights `w`: the function's value at the array index `i` under `y`. -/
theorem mid_block_apply (a : S100000x128.Idx → EReal) (b : S1x128.Idx → EReal) (w : S128x64.Idx → EReal) (s : S100000x1.Idx → EReal)
    (ba : Vec Ideal S10000x128 .f32) (bb : Vec Ideal S1x128 .f32) (bw : Vec Ideal S128x64 .f32) (bs : Vec Ideal S10000x1 .f32) (T : ℕ)
    (ha : ∀ (y : S10000x128.Idx) (k : S100000x128.Idx), (k 0).val = 10000 * T + (y 0).val → (k 1).val = (y 1).val → ba y = a k)
    (hb : bb = b) (hw : bw = w)
    (hs : ∀ (y : S10000x1.Idx) (k : S100000x1.Idx), (k 0).val = 10000 * T + (y 0).val → (k 1).val = (y 1).val → bs y = s k)
    (y : S10000x64.Idx) (i : S100000x64.Idx) (hi0 : (i 0).val = 10000 * T + (y 0).val) (hi1 : (i 1).val = (y 1).val) :
    Gen.k1_pay1 bs ba bb bw bs y = midRows a b w s i := by
  obtain ⟨p, q, rfl⟩ : ∃ (p : Fin 10000) (q : Fin 64), y = ix2 p q := ⟨y 0, y 1, eq_ix2 y⟩
  have hq : (i 1 : Fin 64) = q := Fin.ext hi1
  have hsp : bs (ix2 p (0 : Fin 1)) = s (ix2 (i 0 : Fin 100000) (0 : Fin 1)) :=
    hs (ix2 p (0 : Fin 1)) (ix2 (i 0 : Fin 100000) (0 : Fin 1)) hi0 rfl
  refine (mid_payload_apply bs ba bb bw bs p q).trans ?_
  unfold midRows
  rw [hq, hb, hw, hsp]
  refine congrArg (· * s (ix2 (i 0 : Fin 100000) (0 : Fin 1))) (Finset.sum_congr rfl fun k _ => ?_)
  exact congrArg (fun u : EReal => max (s (ix2 (i 0 : Fin 100000) (0 : Fin 1)) * u + b (ix2 (0 : Fin 1) k)) 0 * w (ix2 k q))
    (ha (ix2 p k) (ix2 (i 0 : Fin 100000) k) hi0 rfl)

/-! ## The windows' blocks as rows of their arrays -/

section Windows

variable (V : (c : Dev nD) → (b : Ref sig .tc) → Buf (Elt Ideal) ((c : Thread nD τ).loc b))

private theorem hz : (![0, 0] : Fin 2 → Nat) = fun _ => 0 := funext fun a => by fin_cases a <;> rfl

/-- The printed index maps, decided over the ten points: the row-blocked windows sit at block row `t`, a window that
    holds a whole array at its one block. -/
theorem mid_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Window 0's block at point `t` is rows `10000 t …` of the array of activations. -/
theorem mid_a_block (c : Dev nD) (t : Fin cfg1.N) (y : S10000x128.Idx) (k : S100000x128.Idx)
    (hk0 : (k 0).val = 10000 * t.val + (y 0).val) (hk1 : (k 1).val = (y 1).val) :
    (Gen.iblk1 V c 0 t : Vec Ideal S10000x128 .f32) y = (V c main_v23 : S100000x128.Idx → EReal) k := by
  obtain ⟨e0, e1, -⟩ := mid_index t
  unfold Gen.iblk1
  rw [View.read_apply]
  show V c main_v23 _ = V c main_v23 _
  refine congrArg _ (funext fun a => Fin.ext ?_)
  match a with
  | ⟨0, _⟩ => show win1_0.index t 0 * 10000 + 1 * (y 0).val = (k 0).val; rw [e0, hk0]; omega
  | ⟨1, _⟩ => show win1_0.index t 1 * 128 + 1 * (y 1).val = (k 1).val; rw [e1, hk1]; omega

/-- Window 1's block at every point is the whole of the bias row. -/
theorem mid_b_block (c : Dev nD) (t : Fin cfg1.N) :
    (Gen.iblk1 V c 1 t : Vec Ideal S1x128 .f32) = (V c main_v24 : S1x128.Idx → EReal) := by
  obtain ⟨-, -, e0, e1, -⟩ := mid_index t
  funext y
  unfold Gen.iblk1
  rw [View.read_apply]
  show V c main_v24 _ = V c main_v24 _
  refine congrArg _ (funext fun a => Fin.ext ?_)
  match a with
  | ⟨0, _⟩ => show win1_1.index t 0 * 1 + 1 * (y 0).val = (y 0).val; rw [e0]; omega
  | ⟨1, _⟩ => show win1_1.index t 1 * 128 + 1 * (y 1).val = (y 1).val; rw [e1]; omega

/-- Window 2's block at every point is the whole of the weight array. -/
theorem mid_w_block (c : Dev nD) (t : Fin cfg1.N) :
    (Gen.iblk1 V c 2 t : Vec Ideal S128x64 .f32) = (V c main_arg4 : S128x64.Idx → EReal) := by
  obtain ⟨-, -, -, -, e0, e1, -⟩ := mid_index t
  funext y
  unfold Gen.iblk1
  rw [View.read_apply]
  show V c main_arg4 _ = V c main_arg4 _
  refine congrArg _ (funext fun a => Fin.ext ?_)
  match a with
  | ⟨0, _⟩ => show win1_2.index t 0 * 128 + 1 * (y 0).val = (y 0).val; rw [e0]; omega
  | ⟨1, _⟩ => show win1_2.index t 1 * 64 + 1 * (y 1).val = (y 1).val; rw [e1]; omega

/-- Window 3's block at point `t` is rows `10000 t …` of the scaling column. -/
theorem mid_s_block (c : Dev nD) (t : Fin cfg1.N) (y : S10000x1.Idx) (k : S100000x1.Idx)
    (hk0 : (k 0).val = 10000 * t.val + (y 0).val) (hk1 : (k 1).val = (y 1).val) :
    (Gen.iblk1 V c 3 t : Vec Ideal S10000x1 .f32) y = (V c main_v12 : S100000x1.Idx → EReal) k := by
  obtain ⟨-, -, -, -, -, -, e0, e1, -⟩ := mid_index t
  unfold Gen.iblk1
  rw [View.read_apply]
  show V c main_v12 _ = V c main_v12 _
  refine congrArg _ (funext fun a => Fin.ext ?_)
  match a with
  | ⟨0, _⟩ => show win1_3.index t 0 * 10000 + 1 * (y 0).val = (k 0).val; rw [e0, hk0]; omega
  | ⟨1, _⟩ => show win1_3.index t 1 * 1 + 1 * (y 1).val = (k 1).val; rw [e1, hk1]; omega

/-! ## From blocks to the array -/

/-- WHAT POINT `t` WRITES BACK is block `t` of `midRows` of the arrays as the region finds them. -/
theorem mid_flushed (c : Dev nD) (t : Fin cfg1.N) :
    (Gen.dat1 (F := Ideal) V c).flushed 4 t
      = ((cfg1.win 4).blk t).view.read (Elt Ideal)
          (midRows (V c main_v23 : S100000x128.Idx → EReal) (V c main_v24 : S1x128.Idx → EReal) (V c main_arg4 : S128x64.Idx → EReal) (V c main_v12 : S100000x1.Idx → EReal)) := by
  show (cfg1.win 4).cut (grid1.coords t) ((Gen.dat1 V c).after 4 t) = _
  rw [Gen.after1_4]
  unfold Gen.out1_4
  rw [View.canon_unit_zero hz]
  simp only [View.ld_unit_zero (S := S10000x1) hz, View.ld_unit_zero (S := S10000x128) hz, View.ld_unit_zero (S := S1x128) hz, View.ld_unit_zero (S := S128x64) hz, View.ld_unit_zero (S := S10000x64) hz]
  obtain ⟨-, -, -, -, -, -, -, -, e0, e1⟩ := mid_index t
  funext j
  rw [View.read_apply]
  refine mid_block_apply _ _ _ _ (Gen.iblk1 V c 0 t) (Gen.iblk1 V c 1 t) (Gen.iblk1 V c 2 t) (Gen.iblk1 V c 3 t) t.val
    (fun y k hk0 hk1 => mid_a_block V c t y k hk0 hk1)
    (mid_b_block V c t)
    (mid_w_block V c t)
    (fun y k hk0 hk1 => mid_s_block V c t y k hk0 hk1) _ _ ?_ ?_
  · show win1_4.index t 0 * 10000 + 1 * (j 0).val = 10000 * t.val + (j 0).val; rw [e0]; omega
  · show win1_4.index t 1 * 64 + 1 * (j 1).val = (j 1).val; rw [e1]; omega

/-- An index of the output array is in point `t`'s block iff each coordinate is in the block's range on its axis. -/
theorem mid_mem_blk (t : Fin cfg1.N) (i : S100000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v25).slice (win1_4.rect t)).set ↔ _
  rw [View.set_slice_whole, Rect.mem_set_unit]
  exact Iff.rfl

/-- The ten blocks cover the array: row `r` is in the block of point `r / 10000`. -/
theorem mid_cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 10 := Gen.N_1
  have ht : (i 0).val / 10000 < cfg1.N := by rw [hN]; omega
  obtain ⟨-, -, -, -, -, -, -, -, e0, e1⟩ := mid_index ⟨(i 0).val / 10000, ht⟩
  refine ⟨⟨(i 0).val / 10000, ht⟩, Gen.flush1_4 _, ?_⟩
  rw [mid_mem_blk]
  intro a
  match a with
  | ⟨0, _⟩ =>
    show win1_4.index ⟨(i 0).val / 10000, ht⟩ 0 * 10000 ≤ (i 0).val ∧ (i 0).val < win1_4.index ⟨(i 0).val / 10000, ht⟩ 0 * 10000 + 10000
    rw [e0]; show (i 0).val / 10000 * 10000 ≤ (i 0).val ∧ (i 0).val < (i 0).val / 10000 * 10000 + 10000; omega
  | ⟨1, _⟩ =>
    show win1_4.index ⟨(i 0).val / 10000, ht⟩ 1 * 64 ≤ (i 1).val ∧ (i 1).val < win1_4.index ⟨(i 0).val / 10000, ht⟩ 1 * 64 + 64
    rw [e1]; omega

/-- THE ARRAY the region leaves: `midRows` of the arrays it found. -/
theorem mid_array (c : Dev nD) :
    (Gen.dat1 (F := Ideal) V c).arrAt 4 cfg1.N
      = midRows (V c main_v23 : S100000x128.Idx → EReal) (V c main_v24 : S1x128.Idx → EReal) (V c main_arg4 : S128x64.Idx → EReal) (V c main_v12 : S100000x1.Idx → EReal) :=
  (Gen.dat1 (F := Ideal) V c).arrAt_eq_of_cover 4 _ (fun t _ => mid_flushed V c t) mid_cover

end Windows

end Cert.KernelIdeal.RegionValue

end
-- ==== Proof.RegionFinal.lean ====
/-
  The third region (scale each row, add a bias row, then a log-softmax along the row) as ONE function of the
  arrays it finds: row `r` of the output is the log-softmax of the 64 logits `z j = s[r,0] · a[r,j] + b[0,j]`, the
  row's maximum taken as the fold of `max` from the accumulator's start value and subtracted before the exponentials.
  Written here: the block's arithmetic at one entry; each input window's block as rows of its array; what a grid point
  writes back as the block of that function; the ten blocks cover the array; so the array the pipeline leaves is that
  function.
-/
import proofs.«101615_j360777253171_2_alg».proof.Proof.Gen.KernelIdeal.Frame
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.RegionValue

open Cert.KernelIdeal Idealize.ShloMosaic Idealize.ShloMosaic.TcCoe Idealize.SL.Sem
open Idealize.ShloMosaic.ValueIdx
open Idealize.ShloMosaic.Pipeline (Dat)
open scoped BigOperators

/-- A column `[a, 1]` broadcast along the second axis to `[a, b]` reads, at `(p, c)`, the column's entry of row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The function -/

/-- A row's maximum as the lane reduction takes it: the fold of `max` over the 64 lanes from the accumulator's start value. -/
def rowMax64 (z : Fin 64 → EReal) : EReal :=
  (Finset.univ : Finset (Fin 64)).fold max (Ideal.ofBits .f32 0xFF800000#32) z

/-- The log-softmax of a row of 64 logits at lane `q`, the maximum subtracted first: `(z q - max) - log (∑ exp (z j - max))`. -/
def logSoftmax64 (z : Fin 64 → EReal) (q : Fin 64) : EReal :=
  (z q - rowMax64 z) - Ideal.log (∑ j : Fin 64, Ideal.exp (z j - rowMax64 z))

/-- Row `i 0`, column `i 1`: the log-softmax of the row's logits `s[r,0] · a[r,j] + b[0,j]`. -/
def finalRows (a : S100000x64.Idx → EReal) (b : S1x64.Idx → EReal) (s : S100000x1.Idx → EReal) : S100000x64.Idx → EReal :=
  fun i => logSoftmax64
    (fun j => s (ix2 (i 0 : Fin 100000) (0 : Fin 1)) * a (ix2 (i 0 : Fin 100000) j) + b (ix2 (0 : Fin 1) j)) (i 1 : Fin 64)

/-! ## The layout operations and the lane reductions at an entry -/

/-- A vector `[a]` cast to the column `[a, 1]` reads, at `(i, u)`, the vector at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]; omega)

/-- The index the lane reduction reads at row `p`, lane `k`, is `(p, k)`. -/
private theorem lift_row (h : S10000x64.Reduces [1] S10000) (p : Fin 10000) (k : Fin 64) :
    h.lift (ix1 p) k = ix2 p k :=
  funext fun a => Fin.ext (by match a with | ⟨0, _⟩ => rfl | ⟨1, _⟩ => rfl)

/-- The lane maximum of a block at row `p`: the fold of `max` over the row. -/
private theorem rowMax_apply (src : FVec Ideal S10000x64 .f32) (h : S10000x64.Reduces [1] S10000) (p : Fin 10000) :
    multiReduction (F := Ideal) .maximumf [1] S10000 src 0xFF800000#32 h (.inl rfl) rfl (ix1 p)
      = rowMax64 (fun k => src (ix2 p k)) := by
  refine (Ideal.multiReduction_maximumf_single src 0xFF800000#32 h (.inl rfl) rfl (ix1 p)).trans ?_
  unfold rowMax64
  refine congrArg (fun f : Fin 64 → EReal => (Finset.univ : Finset (Fin 64)).fold max (Ideal.ofBits .f32 0xFF800000#32) f)
    (funext fun k => congrArg src (lift_row h p k))

/-- The lane sum of a block at row `p`: the sum over the row. -/
private theorem rowSum_apply (src : FVec Ideal S10000x64 .f32) (h : S10000x64.Reduces [1] S10000) (p : Fin 10000) :
    multiReduction (F := Ideal) .add [1] S10000 src 0x00000000#32 h (.inl rfl) rfl (ix1 p) = ∑ k : Fin 64, src (ix2 p k) := by
  refine (Ideal.multiReduction_add_single src 0x00000000#32 h (.inl rfl) rfl (ix1 p)).trans ?_
  exact Finset.sum_congr rfl fun k _ => congrArg src (lift_row h p k)

/-! ## The block's arithmetic at one entry -/

/-- The log-softmax part of the body, for any block `Z` of logits: at `(p, q)` it is the log-softmax of row `p` of `Z`. -/
private theorem final_tail_apply (Z : FVec Ideal S10000x64 .f32) (hr : S10000x64.Reduces [1] S10000)
    (hc : S10000.ShapeCasts S10000x1) (hb : S10000x1.Broadcasts S10000x64) (p : Fin 10000) (q : Fin 64) :
    subf
      (subf Z (broadcastTo S10000x64 (shapeCast S10000x1 (multiReduction (F := Ideal) .maximumf [1] S10000 Z 0xFF800000#32 hr (.inl rfl) rfl) hc) hb))
      (broadcastTo S10000x64
        (log (shapeCast S10000x1
          (multiReduction (F := Ideal) .add [1] S10000
            (exp (subf Z (broadcastTo S10000x64 (shapeCast S10000x1 (multiReduction (F := Ideal) .maximumf [1] S10000 Z 0xFF800000#32 hr (.inl rfl) rfl) hc) hb)))
            0x00000000#32 hr (.inl rfl) rfl) hc)) hb)
      (ix2 p q)
    = logSoftmax64 (fun j => Z (ix2 p j)) q := by
  have hmax : ∀ j : Fin 64,
      broadcastTo S10000x64 (shapeCast S10000x1 (multiReduction (F := Ideal) .maximumf [1] S10000 Z 0xFF800000#32 hr (.inl rfl) rfl) hc) hb (ix2 p j)
        = rowMax64 (fun k => Z (ix2 p k)) := fun j =>
    (broadcastTo_a1_ab_apply _ hb p j).trans ((shapeCast_a_a1_apply _ hc p (0 : Fin 1)).trans (rowMax_apply Z hr p))
  have hsub : ∀ j : Fin 64,
      subf Z (broadcastTo S10000x64 (shapeCast S10000x1 (multiReduction (F := Ideal) .maximumf [1] S10000 Z 0xFF800000#32 hr (.inl rfl) rfl) hc) hb) (ix2 p j)
        = Z (ix2 p j) - rowMax64 (fun k => Z (ix2 p k)) := fun j =>
    (subf_apply _ _ _).trans (congrArg (Z (ix2 p j) - ·) (hmax j))
  refine (subf_apply _ _ _).trans ?_
  unfold logSoftmax64
  refine congrArg₂ (· - ·) (hsub q) ?_
  refine (broadcastTo_a1_ab_apply _ hb p q).trans ?_
  refine congrArg Ideal.log ((shapeCast_a_a1_apply _ hc p (0 : Fin 1)).trans ((rowSum_apply _ hr p).trans
    (Finset.sum_congr rfl fun j _ => ?_)))
  exact congrArg Ideal.exp (hsub j)

/-- One entry of the third region's block: the log-softmax of row `p`'s logits `v0[p,0] · v2[p,j] + v6[0,j]` at lane `q`. -/
theorem final_payload_apply (v0 : Vec Ideal S10000x1 .f32) (v2 : Vec Ideal S10000x64 .f32) (v6 : Vec Ideal S1x64 .f32)
    (p : Fin 10000) (q : Fin 64) :
    Gen.k2_pay1 v0 v2 v6 (ix2 p q)
      = logSoftmax64 (fun j => v0 (ix2 p (0 : Fin 1)) * v2 (ix2 p j) + v6 (ix2 (0 : Fin 1) j)) q := by
  unfold Gen.k2_pay1
  simp only [shapeCast_self]
  refine (final_tail_apply _ _ _ _ p q).trans ?_
  refine congrArg (fun z : Fin 64 → EReal => logSoftmax64 z q) (funext fun j => ?_)
  refine (addf_apply _ _ _).trans (congrArg₂ (· + ·) ?_ (broadcastTo_1b_ab_apply v6 _ p j))
  exact (mulf_apply _ _ _).trans (congrArg (· * v2 (ix2 p j)) (broadcastTo_a1_ab_apply v0 _ p j))

/-- The block's entry at `y` from blocks that are rows `10000·T + ·` of the arrays `a` and `s` and the whole of the bias
    row `b`: the function's value at the array index `i` under `y`. -/
theorem final_block_apply (a : S100000x64.Idx → EReal) (b : S1x64.Idx → EReal) (s : S100000x1.Idx → EReal)
    (ba : Vec Ideal S10000x64 .f32) (bb : Vec Ideal S1x64 .f32) (bs : Vec Ideal S10000x1 .f32) (T : ℕ)
    (ha : ∀ (y : S10000x64.Idx) (k : S100000x64.Idx), (k 0).val = 10000 * T + (y 0).val → (k 1).val = (y 1).val → ba y = a k)
    (hb : bb = b)
    (hs : ∀ (y : S10000x1.Idx) (k : S100000x1.Idx), (k 0).val = 10000 * T + (y 0).val → (k 1).val = (y 1).val → bs y = s k)
    (y : S10000x64.Idx) (i : S100000x64.Idx) (hi0 : (i 0).val = 10000 * T + (y 0).val) (hi1 : (i 1).val = (y 1).val) :
    Gen.k2_pay1 bs ba bb y = finalRows a b s i := by
  obtain ⟨p, q, rfl⟩ : ∃ (p : Fin 10000) (q : Fin 64), y = ix2 p q := ⟨y 0, y 1, eq_ix2 y⟩
  have hq : (i 1 : Fin 64) = q := Fin.ext hi1
  refine (final_payload_apply bs ba bb p q).trans ?_
  unfold finalRows
  rw [hq, hb]
  refine congrArg (fun z : Fin 64 → EReal => logSoftmax64 z q) (funext fun j => ?_)
  exact congrArg₂ (· + ·)
    (congrArg₂ (· * ·) (hs (ix2 p (0 : Fin 1)) (ix2 (i 0 : Fin 100000) (0 : Fin 1)) hi0 rfl)
      (ha (ix2 p j) (ix2 (i 0 : Fin 100000) j) hi0 rfl)) rfl

/-! ## The windows' blocks as rows of their arrays -/

section Windows

variable (V : (c : Dev nD) → (b : Ref sig .tc) → Buf (Elt Ideal) ((c : Thread nD τ).loc b))

private theorem hz : (![0, 0] : Fin 2 → Nat) = fun _ => 0 := funext fun a => by fin_cases a <;> rfl

/-- The printed index maps, decided over the ten points: the row-blocked windows sit at block row `t`, a window that
    holds a whole array at its one block. -/
theorem final_index : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Window 0's block at point `t` is rows `10000 t …` of the array of activations. -/
theorem final_a_block (c : Dev nD) (t : Fin cfg2.N) (y : S10000x64.Idx) (k : S100000x64.Idx)
    (hk0 : (k 0).val = 10000 * t.val + (y 0).val) (hk1 : (k 1).val = (y 1).val) :
    (Gen.iblk2 V c 0 t : Vec Ideal S10000x64 .f32) y = (V c main_v35 : S100000x64.Idx → EReal) k := by
  obtain ⟨e0, e1, -⟩ := final_index t
  unfold Gen.iblk2
  rw [View.read_apply]
  show V c main_v35 _ = V c main_v35 _
  refine congrArg _ (funext fun a => Fin.ext ?_)
  match a with
  | ⟨0, _⟩ => show win2_0.index t 0 * 10000 + 1 * (y 0).val = (k 0).val; rw [e0, hk0]; omega
  | ⟨1, _⟩ => show win2_0.index t 1 * 64 + 1 * (y 1).val = (k 1).val; rw [e1, hk1]; omega

/-- Window 1's block at every point is the whole of the bias row. -/
theorem final_b_block (c : Dev nD) (t : Fin cfg2.N) :
    (Gen.iblk2 V c 1 t : Vec Ideal S1x64 .f32) = (V c main_v36 : S1x64.Idx → EReal) := by
  obtain ⟨-, -, e0, e1, -⟩ := final_index t
  funext y
  unfold Gen.iblk2
  rw [View.read_apply]
  show V c main_v36 _ = V c main_v36 _
  refine congrArg _ (funext fun a => Fin.ext ?_)
  match a with
  | ⟨0, _⟩ => show win2_1.index t 0 * 1 + 1 * (y 0).val = (y 0).val; rw [e0]; omega
  | ⟨1, _⟩ => show win2_1.index t 1 * 64 + 1 * (y 1).val = (y 1).val; rw [e1]; omega

/-- Window 2's block at point `t` is rows `10000 t …` of the scaling column. -/
theorem final_s_block (c : Dev nD) (t : Fin cfg2.N) (y : S10000x1.Idx) (k : S100000x1.Idx)
    (hk0 : (k 0).val = 10000 * t.val + (y 0).val) (hk1 : (k 1).val = (y 1).val) :
    (Gen.iblk2 V c 2 t : Vec Ideal S10000x1 .f32) y = (V c main_v12 : S100000x1.Idx → EReal) k := by
  obtain ⟨-, -, -, -, e0, e1, -⟩ := final_index t
  unfold Gen.iblk2
  rw [View.read_apply]
  show V c main_v12 _ = V c main_v12 _
  refine congrArg _ (funext fun a => Fin.ext ?_)
  match a with
  | ⟨0, _⟩ => show win2_2.index t 0 * 10000 + 1 * (y 0).val = (k 0).val; rw [e0, hk0]; omega
  | ⟨1, _⟩ => show win2_2.index t 1 * 1 + 1 * (y 1).val = (k 1).val; rw [e1, hk1]; omega

/-! ## From blocks to the array -/

/-- WHAT POINT `t` WRITES BACK is block `t` of `finalRows` of the arrays as the region finds them. -/
theorem final_flushed (c : Dev nD) (t : Fin cfg2.N) :
    (Gen.dat2 (F := Ideal) V c).flushed 3 t
      = ((cfg2.win 3).blk t).view.read (Elt Ideal)
          (finalRows (V c main_v35 : S100000x64.Idx → EReal) (V c main_v36 : S1x64.Idx → EReal) (V c main_v12 : S100000x1.Idx → EReal)) := by
  show (cfg2.win 3).cut (grid2.coords t) ((Gen.dat2 V c).after 3 t) = _
  rw [Gen.after2_3]
  unfold Gen.out2_3
  rw [View.canon_unit_zero hz]
  simp only [View.ld_unit_zero (S := S10000x1) hz, View.ld_unit_zero (S := S10000x64) hz, View.ld_unit_zero (S := S1x64) hz]
  obtain ⟨-, -, -, -, -, -, e0, e1⟩ := final_index t
  funext j
  rw [View.read_apply]
  refine final_block_apply _ _ _ (Gen.iblk2 V c 0 t) (Gen.iblk2 V c 1 t) (Gen.iblk2 V c 2 t) t.val
    (fun y k hk0 hk1 => final_a_block V c t y k hk0 hk1)
    (final_b_block V c t)
    (fun y k hk0 hk1 => final_s_block V c t y k hk0 hk1) _ _ ?_ ?_
  · show win2_3.index t 0 * 10000 + 1 * (j 0).val = 10000 * t.val + (j 0).val; rw [e0]; omega
  · show win2_3.index t 1 * 64 + 1 * (j 1).val = (j 1).val; rw [e1]; omega

/-- An index of the output array is in point `t`'s block iff each coordinate is in the block's range on its axis. -/
theorem final_mem_blk (t : Fin cfg2.N) (i : S100000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v37).slice (win2_3.rect t)).set ↔ _
  rw [View.set_slice_whole, Rect.mem_set_unit]
  exact Iff.rfl

/-- The ten blocks cover the array: row `r` is in the block of point `r / 10000`. -/
theorem final_cover (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 10 := Gen.N_2
  have ht : (i 0).val / 10000 < cfg2.N := by rw [hN]; omega
  obtain ⟨-, -, -, -, -, -, e0, e1⟩ := final_index ⟨(i 0).val / 10000, ht⟩
  refine ⟨⟨(i 0).val / 10000, ht⟩, Gen.flush2_3 _, ?_⟩
  rw [final_mem_blk]
  intro a
  match a with
  | ⟨0, _⟩ =>
    show win2_3.index ⟨(i 0).val / 10000, ht⟩ 0 * 10000 ≤ (i 0).val ∧ (i 0).val < win2_3.index ⟨(i 0).val / 10000, ht⟩ 0 * 10000 + 10000
    rw [e0]; show (i 0).val / 10000 * 10000 ≤ (i 0).val ∧ (i 0).val < (i 0).val / 10000 * 10000 + 10000; omega
  | ⟨1, _⟩ =>
    show win2_3.index ⟨(i 0).val / 10000, ht⟩ 1 * 64 ≤ (i 1).val ∧ (i 1).val < win2_3.index ⟨(i 0).val / 10000, ht⟩ 1 * 64 + 64
    rw [e1]; omega

/-- THE ARRAY the region leaves: `finalRows` of the arrays it found. -/
theorem final_array (c : Dev nD) :
    (Gen.dat2 (F := Ideal) V c).arrAt 3 cfg2.N
      = finalRows (V c main_v35 : S100000x64.Idx → EReal) (V c main_v36 : S1x64.Idx → EReal) (V c main_v12 : S100000x1.Idx → EReal) :=
  (Gen.dat2 (F := Ideal) V c).arrAt_eq_of_cover 3 _ (fun t _ => final_flushed V c t) final_cover

end Windows

end Cert.KernelIdeal.RegionValue

end
-- ==== Proof.KValue.lean ====
/-
  The kernel program's result as one function of the argument arrays.

  Region by region: the first region leaves the rows of x·W1, each scaled by its node's factor; the host aggregates
  them (gather by source, scatter-add by destination); the second region scales the aggregate by the node factor,
  adds the bias, rectifies, multiplies by W2 and scales again; the host aggregates again; the third region scales,
  adds the bias and takes the row-wise log-softmax. The node factors are the same column in all three regions.
-/
import proofs.«101615_j360777253171_2_alg».proof.Proof.KFold
import proofs.«101615_j360777253171_2_alg».proof.Proof.RegionLinear
import proofs.«101615_j360777253171_2_alg».proof.Proof.RegionMid
import proofs.«101615_j360777253171_2_alg».proof.Proof.RegionFinal

set_option maxRecDepth 16384

noncomputable section

namespace Cert.KernelIdeal.HostValue

open Cert.KernelIdeal Cert.KernelIdeal.Gen Cert.KernelIdeal.RegionValue
open Idealize.ShloMosaic Idealize.ShloMosaic.TcCoe Idealize.ShloMosaic.Tactic
open Idealize.SL Idealize.SL.Sem

/-- The kernel program's result array, from the six argument arrays. -/
def kernelOut (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal)) : S100000x64.Idx → EReal :=
  finalRows
    (agg64 (F := Ideal) x1
      (midRows (agg128 (F := Ideal) x1 (linearRows x0 x2 (disCol (F := Ideal) x1))) (row128 (F := Ideal) x3) x4 (disCol (F := Ideal) x1)))
    (row64 (F := Ideal) x5) (disCol (F := Ideal) x1)

variable (m : (ℓ : Loc nD τ sig) → Buf (Elt Ideal) ℓ) (ρ : Dev nD → PrngReg) (c : Dev nD)

/-- After the first region its output array holds the scaled rows of the first product. -/
theorem W2_rows : W2 m ρ c (Proc.devRef .tc main_v13)
    = linearRows (m ((c : Thread nD τ).loc main_arg0)) (m ((c : Thread nD τ).loc main_arg2)) (disCol (F := Ideal) (m ((c : Thread nD τ).loc main_arg1))) :=
  (W2_arr m ρ c 3).trans ((linear_array (V1 m ρ) c).trans (by
    show linearRows (W1 m ρ c (Proc.devRef .tc main_arg0)) (W1 m ρ c (Proc.devRef .tc main_arg2)) (W1 m ρ c (Proc.devRef .tc main_v12)) = _
    rw [W1_arg m ρ c main_arg0 (Or.inl rfl), W1_arg m ρ c main_arg2 (Or.inr (Or.inl rfl)), W1_dis m ρ c]))

/-- After the second region its output array holds the scaled rows of the second product. -/
theorem W4_rows : W4 m ρ c (Proc.devRef .tc main_v25)
    = midRows (agg128 (F := Ideal) (m ((c : Thread nD τ).loc main_arg1))
          (linearRows (m ((c : Thread nD τ).loc main_arg0)) (m ((c : Thread nD τ).loc main_arg2)) (disCol (F := Ideal) (m ((c : Thread nD τ).loc main_arg1)))))
        (row128 (F := Ideal) (m ((c : Thread nD τ).loc main_arg3))) (m ((c : Thread nD τ).loc main_arg4)) (disCol (F := Ideal) (m ((c : Thread nD τ).loc main_arg1))) :=
  (W4_arr m ρ c 4).trans ((mid_array (V3 m ρ) c).trans (by
    show midRows (W3 m ρ c (Proc.devRef .tc main_v23)) (W3 m ρ c (Proc.devRef .tc main_v24)) (W3 m ρ c (Proc.devRef .tc main_arg4)) (W3 m ρ c (Proc.devRef .tc main_v12)) = _
    rw [W3_agg m ρ c, W2_rows m ρ c, W3_bias m ρ c, W3_w2 m ρ c, W3_dis m ρ c]))

/-- After the third region the result array is the kernel's function of the arguments. -/
theorem W6_result : W6 m ρ c (Proc.devRef .tc main_v37)
    = kernelOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (W6_arr m ρ c 3).trans ((final_array (V5 m ρ) c).trans (by
    show finalRows (W5 m ρ c (Proc.devRef .tc main_v35)) (W5 m ρ c (Proc.devRef .tc main_v36)) (W5 m ρ c (Proc.devRef .tc main_v12)) = _
    rw [W5_agg m ρ c, W4_rows m ρ c, W5_bias m ρ c, W5_dis m ρ c]
    rfl))

end Cert.KernelIdeal.HostValue

end
-- ==== Proof.RefRun.lean ====
/-
  The reference program's run, read in four stretches. @main is one straight line of 110 host operations; after
  it every buffer holds the fold of the operations' results over the launch contents. Read all at once, the result's
  term repeats the destination column and the degree factor at every use; read stretch by stretch, with the few
  buffers a later stretch needs (the source and destination columns, the inverse square root of the degrees, each
  layer's output) kept as the stage functions of the arguments, nothing is repeated:
    stretch 1  the two index columns with a self-loop per node, the degrees, their inverse square roots;
    stretch 2  the first layer: dense product, gather by source, scale, scatter-add by destination, bias;
    stretch 3  the rectifier and the second layer;
    stretch 4  the row-wise log-softmax.
-/
import proofs.«101615_j360777253171_2_alg».proof.Proof.RefOpsSplit
import proofs.«101615_j360777253171_2_alg».proof.Proof.RefStages

set_option maxRecDepth 16384

noncomputable section

namespace Cert.ReferenceIdeal.RefRun

open Cert.ReferenceIdeal Cert.ReferenceIdeal.Gen Cert.ReferenceIdeal.Ops Cert.ReferenceIdeal.Stage
open Idealize.ShloMosaic Idealize.ShloMosaic.TcCoe Idealize.SL.Sem Idealize.ShloMosaic.StableHlo

variable {F : FTy → Type} [FloatOps F]

/-- Running one line after another folds the second over what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Contents moved to a typed reference's own buffer type and back are unchanged: both moves are along the same
    type equation. -/
theorem ofBuf_toBuf {T : BufTy} (x : TRef sig T) (v : T.Contents (Elt F)) : x.ofBuf (x.toBuf v) = v := by
  obtain ⟨r, rfl, _, _⟩ := x
  rfl

section Reads

variable (W : Valuation τ sig (Elt F)) (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 : (⟨S128x64, .f32⟩ : BufTy).Contents (Elt F)) (x5 : (⟨S64, .f32⟩ : BufTy).Contents (Elt F))

/-! ## Stretch 1: the two index columns and the inverse square root of the degrees, from the edge list -/

theorem read1_src (h1 : W (Proc.devRef .tc main_arg1) = x1) :
    after ops1 W (Proc.devRef .tc main_v3) = val_main_v3 (F := F) x1 := by
  subst h1; after_results_simp <;> rfl
theorem read1_dst (h1 : W (Proc.devRef .tc main_arg1) = x1) :
    after ops1 W (Proc.devRef .tc main_v6) = val_main_v6 (F := F) x1 := by
  subst h1; after_results_simp <;> rfl
theorem read1_dis (h1 : W (Proc.devRef .tc main_arg1) = x1) :
    after ops1 W (Proc.devRef .tc main_v11) = val_main_v11 (F := F) x1 := by
  subst h1; after_results_simp <;> rfl
/-- Stretch 1 writes no argument. -/
theorem keep1 (b : Ref sig .tc) (hb : b = main_arg0 ∨ b = main_arg1 ∨ b = main_arg2 ∨ b = main_arg3 ∨ b = main_arg4 ∨ b = main_arg5) :
    after ops1 W (Proc.devRef .tc b) = W (Proc.devRef .tc b) := by
  rcases hb with rfl | rfl | rfl | rfl | rfl | rfl <;> (after_results_simp <;> rfl)

/-! ## Stretch 2: the first layer -/

theorem read2_layer (h3 : W (Proc.devRef .tc main_v3) = val_main_v3 (F := F) x1) (h6 : W (Proc.devRef .tc main_v6) = val_main_v6 (F := F) x1)
    (h11 : W (Proc.devRef .tc main_v11) = val_main_v11 (F := F) x1)
    (ha0 : W (Proc.devRef .tc main_arg0) = x0) (ha2 : W (Proc.devRef .tc main_arg2) = x2) (ha3 : W (Proc.devRef .tc main_arg3) = x3) :
    after ops2 W (Proc.devRef .tc main_v43) = val_main_v43 (F := F) x0 x1 x2 x3 := by
  subst ha0 ha2 ha3
  after_results_simp
  simp only [h3, h6, h11]
  rfl
/-- Stretch 2 writes neither the columns, nor the degree factor, nor an argument. -/
theorem keep2 (b : Ref sig .tc) (hb : b = main_v3 ∨ b = main_v6 ∨ b = main_v11 ∨ b = main_arg0 ∨ b = main_arg1 ∨ b = main_arg2 ∨ b = main_arg3 ∨ b = main_arg4 ∨ b = main_arg5) :
    after ops2 W (Proc.devRef .tc b) = W (Proc.devRef .tc b) := by
  rcases hb with rfl | rfl | rfl | rfl | rfl | rfl | rfl | rfl | rfl <;> (after_results_simp <;> rfl)

/-! ## Stretch 3: the rectifier and the second layer -/

theorem read3_layer (h43 : W (Proc.devRef .tc main_v43) = val_main_v43 (F := F) x0 x1 x2 x3)
    (h3 : W (Proc.devRef .tc main_v3) = val_main_v3 (F := F) x1) (h6 : W (Proc.devRef .tc main_v6) = val_main_v6 (F := F) x1)
    (h11 : W (Proc.devRef .tc main_v11) = val_main_v11 (F := F) x1)
    (ha4 : W (Proc.devRef .tc main_arg4) = x4) (ha5 : W (Proc.devRef .tc main_arg5) = x5) :
    after ops3 W (Proc.devRef .tc main_v76) = val_main_v76 (F := F) x0 x1 x2 x3 x4 x5 := by
  subst ha4 ha5
  after_results_simp
  simp only [h43, h3, h6, h11]
  rfl
/-- Stretch 3 writes no argument. -/
theorem keep3 (b : Ref sig .tc) (hb : b = main_arg0 ∨ b = main_arg1 ∨ b = main_arg2 ∨ b = main_arg3 ∨ b = main_arg4 ∨ b = main_arg5) :
    after ops3 W (Proc.devRef .tc b) = W (Proc.devRef .tc b) := by
  rcases hb with rfl | rfl | rfl | rfl | rfl | rfl <;> (after_results_simp <;> rfl)

/-! ## Stretch 4: the row-wise log-softmax -/

theorem read4_logsoftmax (h76 : W (Proc.devRef .tc main_v76) = val_main_v76 (F := F) x0 x1 x2 x3 x4 x5) :
    after ops4 W (Proc.devRef .tc main_v77) = val_main_v77 (F := F) x0 x1 x2 x3 x4 x5 := by
  after_results_simp
  simp only [h76, val_main_v77, val_main_call1_v10, val_main_call1_v9, val_main_call1_v8, val_main_call1_v7, val_main_call1_v6,
    val_main_call1_v5, val_main_call1_v4, val_main_call1_v3, val_main_call1_v2, val_main_call1_v1, val_main_call1_v0,
    val_main_call1_cst, val_main_call1_cst_0, val_main_call1_cst_1]
  generalize val_main_v76 (F := F) x0 x1 x2 x3 x4 x5 = z
  simp only [ofBuf_toBuf]
  rfl
/-- Stretch 4 writes no argument. -/
theorem keep4 (b : Ref sig .tc) (hb : b = main_arg0 ∨ b = main_arg1 ∨ b = main_arg2 ∨ b = main_arg3 ∨ b = main_arg4 ∨ b = main_arg5) :
    after ops4 W (Proc.devRef .tc b) = W (Proc.devRef .tc b) := by
  rcases hb with rfl | rfl | rfl | rfl | rfl | rfl <;> (after_results_simp <;> rfl)

end Reads

/-! ## The whole line -/

section Whole

variable (V : Valuation τ sig (Elt F)) (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 : (⟨S128x64, .f32⟩ : BufTy).Contents (Elt F)) (x5 : (⟨S64, .f32⟩ : BufTy).Contents (Elt F))

/-- The result buffer after the whole line is the last stage function of the launch contents of the arguments:
    each stretch read from what the previous one leaves. -/
theorem read_result (h0 : V (Proc.devRef .tc main_arg0) = x0) (h1 : V (Proc.devRef .tc main_arg1) = x1) (h2 : V (Proc.devRef .tc main_arg2) = x2)
    (h3 : V (Proc.devRef .tc main_arg3) = x3) (h4 : V (Proc.devRef .tc main_arg4) = x4) (h5 : V (Proc.devRef .tc main_arg5) = x5) :
    after ops V (Proc.devRef .tc main_v77) = val_main_v77 (F := F) x0 x1 x2 x3 x4 x5 := by
  rw [ops_split, after_append, after_append, after_append]
  have e3 := read1_src V x1 h1
  have e6 := read1_dst V x1 h1
  have e11 := read1_dis V x1 h1
  have a0 := (keep1 V main_arg0 (Or.inl rfl)).trans h0
  have a2 := (keep1 V main_arg2 (Or.inr (Or.inr (Or.inl rfl)))).trans h2
  have a3 := (keep1 V main_arg3 (Or.inr (Or.inr (Or.inr (Or.inl rfl))))).trans h3
  have a4 := (keep1 V main_arg4 (Or.inr (Or.inr (Or.inr (Or.inr (Or.inl rfl)))))).trans h4
  have a5 := (keep1 V main_arg5 (Or.inr (Or.inr (Or.inr (Or.inr (Or.inr (rfl))))))).trans h5
  have e43 := read2_layer (after ops1 V) x0 x1 x2 x3 e3 e6 e11 a0 a2 a3
  have e3' := (keep2 (after ops1 V) main_v3 (Or.inl rfl)).trans e3
  have e6' := (keep2 (after ops1 V) main_v6 (Or.inr (Or.inl rfl))).trans e6
  have e11' := (keep2 (after ops1 V) main_v11 (Or.inr (Or.inr (Or.inl rfl)))).trans e11
  have a4' := (keep2 (after ops1 V) main_arg4 (Or.inr (Or.inr (Or.inr (Or.inr (Or.inr (Or.inr (Or.inr (Or.inl rfl))))))))).trans a4
  have a5' := (keep2 (after ops1 V) main_arg5 (Or.inr (Or.inr (Or.inr (Or.inr (Or.inr (Or.inr (Or.inr (Or.inr (rfl)))))))))).trans a5
  have e76 := read3_layer (after ops2 (after ops1 V)) x0 x1 x2 x3 x4 x5 e43 e3' e6' e11' a4' a5'
  exact read4_logsoftmax (after ops3 (after ops2 (after ops1 V))) x0 x1 x2 x3 x4 x5 e76

/-- No operation of the line writes an argument. -/
theorem keep_all (b : Ref sig .tc) (hb : b = main_arg0 ∨ b = main_arg1 ∨ b = main_arg2 ∨ b = main_arg3 ∨ b = main_arg4 ∨ b = main_arg5) :
    after ops V (Proc.devRef .tc b) = V (Proc.devRef .tc b) := by
  rw [ops_split, after_append, after_append, after_append]
  have hb2 : b = main_v3 ∨ b = main_v6 ∨ b = main_v11 ∨ b = main_arg0 ∨ b = main_arg1 ∨ b = main_arg2 ∨ b = main_arg3 ∨ b = main_arg4 ∨ b = main_arg5 :=
    Or.inr (Or.inr (Or.inr hb))
  exact (keep4 _ b hb).trans ((keep3 _ b hb).trans ((keep2 _ b hb2).trans (keep1 V b hb)))

end Whole

/-- The reference's run: on every device, from any memory with zero counters, every weakly fair execution of @main
    terminates with the result array at the last stage function of the arguments' launch contents, the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v77) = val_main_v77 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c main_v77).trans (read_result (launchContents m c) _ _ _ _ _ _ rfl rfl rfl rfl rfl rfl),
       (h c main_arg0).trans (keep_all (launchContents m c) main_arg0 (Or.inl rfl)),
       (h c main_arg1).trans (keep_all (launchContents m c) main_arg1 (Or.inr (Or.inl rfl))),
       (h c main_arg2).trans (keep_all (launchContents m c) main_arg2 (Or.inr (Or.inr (Or.inl rfl)))),
       (h c main_arg3).trans (keep_all (launchContents m c) main_arg3 (Or.inr (Or.inr (Or.inr (Or.inl rfl))))),
       (h c main_arg4).trans (keep_all (launchContents m c) main_arg4 (Or.inr (Or.inr (Or.inr (Or.inr (Or.inl rfl)))))),
       (h c main_arg5).trans (keep_all (launchContents m c) main_arg5 (Or.inr (Or.inr (Or.inr (Or.inr (Or.inr (rfl)))))))⟩)
    (run_seq scopedRefs_eq scopedSems_eq defs main (fun _ => ops) main_eq (fun _ => ops_sub) m ρ)

end Cert.ReferenceIdeal.RefRun

end
-- ==== Proof.BridgeBase.lean ====
/-
  The kernel's host functions met with the reference's stage functions, where they are the same function.

  Both programs build the same index columns, the same degrees and the same column of node factors; the kernel keeps
  the factors as a one-column array (read at (r, 0)) where the reference keeps a vector (read at r). The kernel's first
  region leaves, at (r, q), the r-th row of x times the q-th column of W1, scaled by the factor of r: the reference's
  dense product at (r, q) times the factor of r. The kernel's aggregates are the reference's scatter-add of a gather,
  over the same zeros and the same index columns.
-/
import proofs.«101615_j360777253171_2_alg».proof.Proof.KValue
import proofs.«101615_j360777253171_2_alg».proof.Proof.RefStages
import Idealize.ShloMosaic.Lib.ValueLayout
import Idealize.ShloMosaic.Lib.Pipeline.Value

set_option maxRecDepth 16384

noncomputable section

namespace Cert.Bridge

open Idealize.ShloMosaic Idealize.ShloMosaic.ValueIdx
open Cert.KernelIdeal.HostValue Cert.KernelIdeal.RegionValue Cert.ReferenceIdeal.Stage

variable (x0 : (⟨Cert.ReferenceIdeal.S100000x128, .f32⟩ : BufTy).Contents (Elt Ideal)) (x1 : (⟨Cert.ReferenceIdeal.S2x1600000, .i32⟩ : BufTy).Contents (Elt Ideal))
  (x2 : (⟨Cert.ReferenceIdeal.S128x128, .f32⟩ : BufTy).Contents (Elt Ideal)) (x3 : (⟨Cert.ReferenceIdeal.S128, .f32⟩ : BufTy).Contents (Elt Ideal))
  (x4 : (⟨Cert.ReferenceIdeal.S128x64, .f32⟩ : BufTy).Contents (Elt Ideal)) (x5 : (⟨Cert.ReferenceIdeal.S64, .f32⟩ : BufTy).Contents (Elt Ideal))

/-- The kernel's factor column at (r, 0) is the reference's factor vector at r. -/
theorem disCol_apply (r : Fin 100000) :
    disCol (F := Ideal) x1 (ix2 r (0 : Fin 1)) = val_main_v11 (F := Ideal) x1 (ix1 r) := by
  unfold disCol
  refine (shapeCast_apply _ _ _ (ix1 r) ?_).trans rfl
  rw [Shape.rowMajor_val_one, Shape.rowMajor_val_two]
  show r.val = r.val * 1 + 0
  omega

/-- A bias laid out as a row, read at (0, k), is the bias at k. -/
theorem row128_apply (k : Fin 128) : row128 (F := Ideal) x3 (ix2 (0 : Fin 1) k) = x3 (ix1 k) := by
  unfold row128
  exact shapeCast_a_1a_apply x3 _ 0 k
theorem row64_apply (k : Fin 64) : row64 (F := Ideal) x5 (ix2 (0 : Fin 1) k) = x5 (ix1 k) := by
  unfold row64
  exact shapeCast_a_1a_apply x5 _ 0 k

/-- The first region's rows are the reference's dense product, each row scaled by its node's factor. -/
theorem linear_eq :
    linearRows x0 x2 (disCol (F := Ideal) x1)
      = fun p => val_main_v12 (F := Ideal) x0 x2 p * val_main_v11 (F := Ideal) x1 (ix1 (p 0)) := by
  funext p
  rw [val_main_v12_apply]
  show (∑ k : Fin 128, x0 (ix2 (p 0) k) * x2 (ix2 k (p 1))) * disCol (F := Ideal) x1 (ix2 (p 0) (0 : Fin 1)) = _
  rw [disCol_apply x1 (p 0)]
  have el : ∀ k : Fin 128, lidx_main_v12 p k = ix2 (p 0) k := fun k =>
    funext fun a => Fin.ext (by match a with | ⟨0, _⟩ => rfl | ⟨1, _⟩ => rfl)
  have er : ∀ k : Fin 128, ridx_main_v12 p k = ix2 k (p 1) := fun k =>
    funext fun a => Fin.ext (by match a with | ⟨0, _⟩ => rfl | ⟨1, _⟩ => rfl)
  have hs : (∑ k : Fin 128, x0 (lidx_main_v12 p k) * x2 (ridx_main_v12 p k)) = ∑ k : Fin 128, x0 (ix2 (p 0) k) * x2 (ix2 k (p 1)) :=
    Finset.sum_congr rfl fun k _ => by rw [el k, er k]; rfl
  rw [hs]

/-- The kernel's 128-wide aggregate is the reference's scatter-add (into its zeros, by its destination column) of the
    gather (by its wrapped source column) of the same rows. -/
theorem agg128_eq (h : (⟨Cert.ReferenceIdeal.S100000x128, .f32⟩ : BufTy).Contents (Elt Ideal)) :
    agg128 (F := Ideal) x1 h
      = Ideal.hostScatterAdd Cert.ReferenceIdeal.scatter_S100000x128_S1700000x1_S1700000x128_1_0_0_1 (val_main_v38 (F := Ideal)) (val_main_v39 (F := Ideal) x1)
          (Host.gather Cert.ReferenceIdeal.gather_S100000x128_S1700000x1_S1700000x128_1_0_n_n_0_1_1128 h (val_main_v33 (F := Ideal) x1)) := rfl
/-- The kernel's 64-wide aggregate, likewise. -/
theorem agg64_eq (h : (⟨Cert.ReferenceIdeal.S100000x64, .f32⟩ : BufTy).Contents (Elt Ideal)) :
    agg64 (F := Ideal) x1 h
      = Ideal.hostScatterAdd Cert.ReferenceIdeal.scatter_S100000x64_S1700000x1_S1700000x64_1_0_0_1 (val_main_v71 (F := Ideal)) (val_main_v72 (F := Ideal) x1)
          (Host.gather Cert.ReferenceIdeal.gather_S100000x64_S1700000x1_S1700000x64_1_0_n_n_0_1_164 h (val_main_v66 (F := Ideal) x1)) := rfl

end Cert.Bridge

end
-- ==== Proof.EdgeIndex.lean ====
import proofs.«101615_j360777253171_2_alg».proof.ReferenceIdeal
import proofs.«101615_j360777253171_2_alg».proof.KernelIdeal
import Idealize.ShloMosaic.Lib.ValueIdx
import Idealize.ShloMosaic.Lib.IdealHost
import Idealize.ShloMosaic.Lib.Pipeline.Value

/-!
  What the row gathers and the row scatter-adds of the two programs read and write, index by index.

  The start indices are a column `[1700000, 1]` of 32-bit words. A gather of rows of a `[100000, C]` array reads, for result
  index `(e, c)`, row `rowOf (idx (e, 0))` — the word read signed and clamped into `[0, 99999]` — at column `c`. A
  scatter-add of `[1700000, C]` updates lands update `(e, c)` at `(r, c)` exactly when the word `idx (e, 0)`, read signed, is
  the row `r` of the operand; an update whose word is negative or at least `100000` lands nowhere. The one-axis forms
  (`C` absent) are the same without the column. Every fact holds for EVERY index array.
-/

noncomputable section

namespace Cert.EdgeIndex

open Idealize.ShloMosaic Idealize.ShloMosaic.ValueIdx

/-- The signed value of a 32-bit word clamped into the row range `[0, 99999]`. -/
def rowOf (b : BitVec 32) : Fin 100000 := ⟨min b.toInt.toNat 99999, by omega⟩

/-! ## The gather of rows of a `[100000, 128]` array -/

section Gather128
variable (wf : GatherDims.WF ⟨2, ![100000, 128]⟩ ⟨2, ![1700000, 1]⟩ ⟨2, ![1700000, 128]⟩ [1] [0] [] [0] [] 1 ![1, 128])

/-- The dimension numbers of a gather of whole rows: axis 0 collapsed and indexed, axis 1 the offset axis. -/
abbrev rowGather128 : GatherDims ⟨2, ![100000, 128]⟩ ⟨2, ![1700000, 1]⟩ ⟨2, ![1700000, 128]⟩ where
  offsetDims := [1]
  collapsedSliceDims := [0]
  operandBatchingDims := []
  startIndicesBatchingDims := []
  startIndexMap := [0]
  indexVectorDim := 1
  sliceSizes := ![1, 128]
  wf := wf

variable (idx : IVec ⟨2, ![1700000, 1]⟩ 32) (j : (⟨2, ![1700000, 128]⟩ : Shape).Idx)

/-- On the row axis: the clamped start, no batching coordinate, no offset. -/
theorem rowGather128_coord0 :
    (rowGather128 wf).start j idx 0 + (rowGather128 wf).batchCoord j 0 + (rowGather128 wf).offCoord j 0
      = (rowOf (idx (ix2 (j 0) 0))).val := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather128 wf).startIndexMap from List.mem_singleton.mpr rfl)]
  have hsi : (rowGather128 wf).siIdx j ⟨List.idxOf (0 : Fin 2) (rowGather128 wf).startIndexMap,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- On the column axis: no start, no batching coordinate, the result's column as the offset. -/
theorem rowGather128_coord1 :
    (rowGather128 wf).start j idx 1 + (rowGather128 wf).batchCoord j 1 + (rowGather128 wf).offCoord j 1
      = (j 1).val := by
  rw [GatherDims.batchCoord_eq_zero _ _ _ List.not_mem_nil]
  have hs : (rowGather128 wf).start j idx 1 = 0 := by
    unfold GatherDims.start
    rw [dif_neg (show (1 : Fin 2) ∉ ([0] : List (Fin 2)) by decide)]
  rw [hs]
  simp only [Nat.add_zero, Nat.zero_add]
  unfold GatherDims.offCoord
  rw [dif_pos (show (1 : Fin 2) ∈ (⟨2, ![100000, 128]⟩ : Shape).kept ([0] ++ []) by decide)]
  rfl

/-- THE GATHER'S OPERAND INDEX: result `(e, c)` reads row `rowOf (idx (e, 0))`, column `c`. -/
theorem rowGather128_operandIdx :
    (rowGather128 wf).operandIdx j idx = ix2 (rowOf (idx (ix2 (j 0) 0))) (j 1) := by
  funext a
  refine Fin.ext ?_
  match a with
  | ⟨0, _⟩ => exact rowGather128_coord0 wf idx j
  | ⟨1, _⟩ => exact rowGather128_coord1 wf idx j

end Gather128

/-! ## The gather of rows of a `[100000, 64]` array -/

section Gather64
variable (wf : GatherDims.WF ⟨2, ![100000, 64]⟩ ⟨2, ![1700000, 1]⟩ ⟨2, ![1700000, 64]⟩ [1] [0] [] [0] [] 1 ![1, 64])

/-- The dimension numbers of a gather of whole rows: axis 0 collapsed and indexed, axis 1 the offset axis. -/
abbrev rowGather64 : GatherDims ⟨2, ![100000, 64]⟩ ⟨2, ![1700000, 1]⟩ ⟨2, ![1700000, 64]⟩ where
  offsetDims := [1]
  collapsedSliceDims := [0]
  operandBatchingDims := []
  startIndicesBatchingDims := []
  startIndexMap := [0]
  indexVectorDim := 1
  sliceSizes := ![1, 64]
  wf := wf

variable (idx : IVec ⟨2, ![1700000, 1]⟩ 32) (j : (⟨2, ![1700000, 64]⟩ : Shape).Idx)

/-- On the row axis: the clamped start, no batching coordinate, no offset. -/
theorem rowGather64_coord0 :
    (rowGather64 wf).start j idx 0 + (rowGather64 wf).batchCoord j 0 + (rowGather64 wf).offCoord j 0
      = (rowOf (idx (ix2 (j 0) 0))).val := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather64 wf).startIndexMap from List.mem_singleton.mpr rfl)]
  have hsi : (rowGather64 wf).siIdx j ⟨List.idxOf (0 : Fin 2) (rowGather64 wf).startIndexMap,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- On the column axis: no start, no batching coordinate, the result's column as the offset. -/
theorem rowGather64_coord1 :
    (rowGather64 wf).start j idx 1 + (rowGather64 wf).batchCoord j 1 + (rowGather64 wf).offCoord j 1
      = (j 1).val := by
  rw [GatherDims.batchCoord_eq_zero _ _ _ List.not_mem_nil]
  have hs : (rowGather64 wf).start j idx 1 = 0 := by
    unfold GatherDims.start
    rw [dif_neg (show (1 : Fin 2) ∉ ([0] : List (Fin 2)) by decide)]
  rw [hs]
  simp only [Nat.add_zero, Nat.zero_add]
  unfold GatherDims.offCoord
  rw [dif_pos (show (1 : Fin 2) ∈ (⟨2, ![100000, 64]⟩ : Shape).kept ([0] ++ []) by decide)]
  rfl

/-- THE GATHER'S OPERAND INDEX: result `(e, c)` reads row `rowOf (idx (e, 0))`, column `c`. -/
theorem rowGather64_operandIdx :
    (rowGather64 wf).operandIdx j idx = ix2 (rowOf (idx (ix2 (j 0) 0))) (j 1) := by
  funext a
  refine Fin.ext ?_
  match a with
  | ⟨0, _⟩ => exact rowGather64_coord0 wf idx j
  | ⟨1, _⟩ => exact rowGather64_coord1 wf idx j

end Gather64

/-! ## The scatter-add of `[1700000, 128]` updates into a `[100000, 128]` array -/

section Scatter128
variable (wf : ScatterDims.WF ⟨2, ![100000, 128]⟩ ⟨2, ![1700000, 1]⟩ ⟨2, ![1700000, 128]⟩ [1] [0] [0] 1)

/-- The dimension numbers of a scatter of whole rows: axis 0 inserted and indexed, axis 1 the window axis. -/
abbrev rowScatter128 : ScatterDims ⟨2, ![100000, 128]⟩ ⟨2, ![1700000, 1]⟩ ⟨2, ![1700000, 128]⟩ where
  updateWindowDims := [1]
  insertedWindowDims := [0]
  scatterDimsToOperandDims := [0]
  indexVectorDim := 1
  wf := wf

variable (idx : IVec ⟨2, ![1700000, 1]⟩ 32) (j : (⟨2, ![1700000, 128]⟩ : Shape).Idx)

/-- The start on the row axis is the index word read signed (not clamped). -/
theorem rowScatter128_start0 : (rowScatter128 wf).start j idx 0 = (idx (ix2 (j 0) 0)).toInt := by
  unfold ScatterDims.start
  rw [dif_pos (show (0 : Fin 2) ∈ ([0] : List (Fin 2)) from List.mem_singleton.mpr rfl)]
  have hsi : (rowScatter128 wf).siIdx j ⟨List.idxOf (0 : Fin 2) (rowScatter128 wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  exact congrArg (fun k => (idx k).toInt) hsi

/-- The column axis is not indexed: its start is `0`. -/
theorem rowScatter128_start1 : (rowScatter128 wf).start j idx 1 = 0 := by
  unfold ScatterDims.start
  rw [dif_neg (show (1 : Fin 2) ∉ ([0] : List (Fin 2)) by decide)]

/-- The row axis is inserted: no window coordinate. -/
theorem rowScatter128_window0 : (rowScatter128 wf).window j 0 = 0 := by
  unfold ScatterDims.window
  rw [dif_neg (show (0 : Fin 2) ∉ (⟨2, ![100000, 128]⟩ : Shape).kept [0] by decide)]

/-- The window coordinate on the column axis is the update's column. -/
theorem rowScatter128_window1 : (rowScatter128 wf).window j 1 = (j 1).val := by
  unfold ScatterDims.window
  rw [dif_pos (show (1 : Fin 2) ∈ (⟨2, ![100000, 128]⟩ : Shape).kept [0] by decide)]
  rfl

/-- WHERE AN UPDATE LANDS: update `(e, c)` lands at `i` exactly when the word `idx (e, 0)`, read signed, is a row of the
    operand, `i`'s row is that row and `i`'s column is `c`. -/
theorem rowScatter128_resultIdx?_eq_some (i : (⟨2, ![100000, 128]⟩ : Shape).Idx) :
    (rowScatter128 wf).resultIdx? j idx = some i ↔
      (0 ≤ (idx (ix2 (j 0) 0)).toInt ∧ (idx (ix2 (j 0) 0)).toInt < 100000 ∧
        ((i 0 : Fin 100000) : ℤ) = (idx (ix2 (j 0) 0)).toInt ∧ i 1 = j 1) := by
  have h0 := rowScatter128_start0 wf idx j
  have h1 := rowScatter128_start1 wf idx j
  have w0 := rowScatter128_window0 wf j
  have w1 := rowScatter128_window1 wf j
  have hj1 : (j 1).val < 128 := (j 1).isLt
  unfold ScatterDims.resultIdx?
  split
  · rename_i h
    have hh0 : 0 ≤ (idx (ix2 (j 0) 0)).toInt + ((0 : ℕ) : ℤ) ∧
        (idx (ix2 (j 0) 0)).toInt + ((0 : ℕ) : ℤ) < ((100000 : ℕ) : ℤ) := by
      have := h 0
      rw [h0, w0] at this
      exact this
    constructor
    · intro he
      have he' := Option.some.inj he
      subst he'
      refine ⟨by omega, by omega, ?_, ?_⟩
      · show (((rowScatter128 wf).start j idx 0 + ((rowScatter128 wf).window j 0 : ℤ)).toNat : ℤ) = _
        rw [h0, w0]; omega
      · refine Fin.ext ?_
        show ((rowScatter128 wf).start j idx 1 + ((rowScatter128 wf).window j 1 : ℤ)).toNat = (j 1).val
        rw [h1, w1]; omega
    · rintro ⟨_, _, hi0, hi1⟩
      congr 1
      funext a
      refine Fin.ext ?_
      match a with
      | ⟨0, _⟩ =>
        show ((rowScatter128 wf).start j idx 0 + ((rowScatter128 wf).window j 0 : ℤ)).toNat = (i 0).val
        rw [h0, w0]; omega
      | ⟨1, _⟩ =>
        show ((rowScatter128 wf).start j idx 1 + ((rowScatter128 wf).window j 1 : ℤ)).toNat = (i 1).val
        rw [h1, w1, hi1]; omega
  · rename_i h
    constructor
    · intro he; cases he
    · rintro ⟨hlo, hhi, _, _⟩
      exfalso; apply h
      intro a
      match a with
      | ⟨0, _⟩ =>
        show 0 ≤ (rowScatter128 wf).start j idx 0 + ((rowScatter128 wf).window j 0 : ℤ) ∧
          (rowScatter128 wf).start j idx 0 + ((rowScatter128 wf).window j 0 : ℤ) < ((100000 : ℕ) : ℤ)
        rw [h0, w0]; omega
      | ⟨1, _⟩ =>
        show 0 ≤ (rowScatter128 wf).start j idx 1 + ((rowScatter128 wf).window j 1 : ℤ) ∧
          (rowScatter128 wf).start j idx 1 + ((rowScatter128 wf).window j 1 : ℤ) < ((128 : ℕ) : ℤ)
        rw [h1, w1]; omega

/-- The witness form: an update whose index word reads, signed, as the row `d` lands in row `d` at its own column. -/
theorem rowScatter128_resultIdx?_of_toInt_eq (d : ℕ) (hd : d < 100000) (hb : (idx (ix2 (j 0) 0)).toInt = (d : ℤ)) :
    (rowScatter128 wf).resultIdx? j idx = some (ix2 ⟨d, hd⟩ (j 1)) :=
  (rowScatter128_resultIdx?_eq_some wf idx j _).mpr ⟨by omega, by omega, hb.symm, rfl⟩

end Scatter128

/-! ## The scatter-add of `[1700000, 64]` updates into a `[100000, 64]` array -/

section Scatter64
variable (wf : ScatterDims.WF ⟨2, ![100000, 64]⟩ ⟨2, ![1700000, 1]⟩ ⟨2, ![1700000, 64]⟩ [1] [0] [0] 1)

/-- The dimension numbers of a scatter of whole rows: axis 0 inserted and indexed, axis 1 the window axis. -/
abbrev rowScatter64 : ScatterDims ⟨2, ![100000, 64]⟩ ⟨2, ![1700000, 1]⟩ ⟨2, ![1700000, 64]⟩ where
  updateWindowDims := [1]
  insertedWindowDims := [0]
  scatterDimsToOperandDims := [0]
  indexVectorDim := 1
  wf := wf

variable (idx : IVec ⟨2, ![1700000, 1]⟩ 32) (j : (⟨2, ![1700000, 64]⟩ : Shape).Idx)

/-- The start on the row axis is the index word read signed (not clamped). -/
theorem rowScatter64_start0 : (rowScatter64 wf).start j idx 0 = (idx (ix2 (j 0) 0)).toInt := by
  unfold ScatterDims.start
  rw [dif_pos (show (0 : Fin 2) ∈ ([0] : List (Fin 2)) from List.mem_singleton.mpr rfl)]
  have hsi : (rowScatter64 wf).siIdx j ⟨List.idxOf (0 : Fin 2) (rowScatter64 wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  exact congrArg (fun k => (idx k).toInt) hsi

/-- The column axis is not indexed: its start is `0`. -/
theorem rowScatter64_start1 : (rowScatter64 wf).start j idx 1 = 0 := by
  unfold ScatterDims.start
  rw [dif_neg (show (1 : Fin 2) ∉ ([0] : List (Fin 2)) by decide)]

/-- The row axis is inserted: no window coordinate. -/
theorem rowScatter64_window0 : (rowScatter64 wf).window j 0 = 0 := by
  unfold ScatterDims.window
  rw [dif_neg (show (0 : Fin 2) ∉ (⟨2, ![100000, 64]⟩ : Shape).kept [0] by decide)]

/-- The window coordinate on the column axis is the update's column. -/
theorem rowScatter64_window1 : (rowScatter64 wf).window j 1 = (j 1).val := by
  unfold ScatterDims.window
  rw [dif_pos (show (1 : Fin 2) ∈ (⟨2, ![100000, 64]⟩ : Shape).kept [0] by decide)]
  rfl

/-- WHERE AN UPDATE LANDS: update `(e, c)` lands at `i` exactly when the word `idx (e, 0)`, read signed, is a row of the
    operand, `i`'s row is that row and `i`'s column is `c`. -/
theorem rowScatter64_resultIdx?_eq_some (i : (⟨2, ![100000, 64]⟩ : Shape).Idx) :
    (rowScatter64 wf).resultIdx? j idx = some i ↔
      (0 ≤ (idx (ix2 (j 0) 0)).toInt ∧ (idx (ix2 (j 0) 0)).toInt < 100000 ∧
        ((i 0 : Fin 100000) : ℤ) = (idx (ix2 (j 0) 0)).toInt ∧ i 1 = j 1) := by
  have h0 := rowScatter64_start0 wf idx j
  have h1 := rowScatter64_start1 wf idx j
  have w0 := rowScatter64_window0 wf j
  have w1 := rowScatter64_window1 wf j
  have hj1 : (j 1).val < 64 := (j 1).isLt
  unfold ScatterDims.resultIdx?
  split
  · rename_i h
    have hh0 : 0 ≤ (idx (ix2 (j 0) 0)).toInt + ((0 : ℕ) : ℤ) ∧
        (idx (ix2 (j 0) 0)).toInt + ((0 : ℕ) : ℤ) < ((100000 : ℕ) : ℤ) := by
      have := h 0
      rw [h0, w0] at this
      exact this
    constructor
    · intro he
      have he' := Option.some.inj he
      subst he'
      refine ⟨by omega, by omega, ?_, ?_⟩
      · show (((rowScatter64 wf).start j idx 0 + ((rowScatter64 wf).window j 0 : ℤ)).toNat : ℤ) = _
        rw [h0, w0]; omega
      · refine Fin.ext ?_
        show ((rowScatter64 wf).start j idx 1 + ((rowScatter64 wf).window j 1 : ℤ)).toNat = (j 1).val
        rw [h1, w1]; omega
    · rintro ⟨_, _, hi0, hi1⟩
      congr 1
      funext a
      refine Fin.ext ?_
      match a with
      | ⟨0, _⟩ =>
        show ((rowScatter64 wf).start j idx 0 + ((rowScatter64 wf).window j 0 : ℤ)).toNat = (i 0).val
        rw [h0, w0]; omega
      | ⟨1, _⟩ =>
        show ((rowScatter64 wf).start j idx 1 + ((rowScatter64 wf).window j 1 : ℤ)).toNat = (i 1).val
        rw [h1, w1, hi1]; omega
  · rename_i h
    constructor
    · intro he; cases he
    · rintro ⟨hlo, hhi, _, _⟩
      exfalso; apply h
      intro a
      match a with
      | ⟨0, _⟩ =>
        show 0 ≤ (rowScatter64 wf).start j idx 0 + ((rowScatter64 wf).window j 0 : ℤ) ∧
          (rowScatter64 wf).start j idx 0 + ((rowScatter64 wf).window j 0 : ℤ) < ((100000 : ℕ) : ℤ)
        rw [h0, w0]; omega
      | ⟨1, _⟩ =>
        show 0 ≤ (rowScatter64 wf).start j idx 1 + ((rowScatter64 wf).window j 1 : ℤ) ∧
          (rowScatter64 wf).start j idx 1 + ((rowScatter64 wf).window j 1 : ℤ) < ((64 : ℕ) : ℤ)
        rw [h1, w1]; omega

/-- The witness form: an update whose index word reads, signed, as the row `d` lands in row `d` at its own column. -/
theorem rowScatter64_resultIdx?_of_toInt_eq (d : ℕ) (hd : d < 100000) (hb : (idx (ix2 (j 0) 0)).toInt = (d : ℤ)) :
    (rowScatter64 wf).resultIdx? j idx = some (ix2 ⟨d, hd⟩ (j 1)) :=
  (rowScatter64_resultIdx?_eq_some wf idx j _).mpr ⟨by omega, by omega, hb.symm, rfl⟩

end Scatter64

/-! ## The gather of elements of a `[100000]` array -/

section Gather1
variable (wf : GatherDims.WF ⟨1, ![100000]⟩ ⟨2, ![1700000, 1]⟩ ⟨1, ![1700000]⟩ [] [0] [] [0] [] 1 ![1])

/-- The dimension numbers of a gather of single elements of a one-axis array. -/
abbrev eltGather : GatherDims ⟨1, ![100000]⟩ ⟨2, ![1700000, 1]⟩ ⟨1, ![1700000]⟩ where
  offsetDims := []
  collapsedSliceDims := [0]
  operandBatchingDims := []
  startIndicesBatchingDims := []
  startIndexMap := [0]
  indexVectorDim := 1
  sliceSizes := ![1]
  wf := wf

variable (idx : IVec ⟨2, ![1700000, 1]⟩ 32) (j : (⟨1, ![1700000]⟩ : Shape).Idx)

/-- On the one axis: the clamped start, no batching coordinate, no offset. -/
theorem eltGather_coord0 :
    (eltGather wf).start j idx 0 + (eltGather wf).batchCoord j 0 + (eltGather wf).offCoord j 0
      = (rowOf (idx (ix2 (j 0) 0))).val := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (eltGather wf).startIndexMap from List.mem_singleton.mpr rfl)]
  have hsi : (eltGather wf).siIdx j ⟨List.idxOf (0 : Fin 1) (eltGather wf).startIndexMap,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- THE GATHER'S OPERAND INDEX: result `e` reads element `rowOf (idx (e, 0))`. -/
theorem eltGather_operandIdx :
    (eltGather wf).operandIdx j idx = ix1 (rowOf (idx (ix2 (j 0) 0))) := by
  funext a
  refine Fin.ext ?_
  match a with
  | ⟨0, _⟩ => exact eltGather_coord0 wf idx j

end Gather1

/-! ## The scatter-add of `[1700000]` updates into a `[100000]` array -/

section Scatter1
variable (wf : ScatterDims.WF ⟨1, ![100000]⟩ ⟨2, ![1700000, 1]⟩ ⟨1, ![1700000]⟩ [] [0] [0] 1)

/-- The dimension numbers of a scatter of single elements into a one-axis array. -/
abbrev eltScatter : ScatterDims ⟨1, ![100000]⟩ ⟨2, ![1700000, 1]⟩ ⟨1, ![1700000]⟩ where
  updateWindowDims := []
  insertedWindowDims := [0]
  scatterDimsToOperandDims := [0]
  indexVectorDim := 1
  wf := wf

variable (idx : IVec ⟨2, ![1700000, 1]⟩ 32) (j : (⟨1, ![1700000]⟩ : Shape).Idx)

/-- The start on the one axis is the index word read signed (not clamped). -/
theorem eltScatter_start0 : (eltScatter wf).start j idx 0 = (idx (ix2 (j 0) 0)).toInt := by
  unfold ScatterDims.start
  rw [dif_pos (show (0 : Fin 1) ∈ ([0] : List (Fin 1)) from List.mem_singleton.mpr rfl)]
  have hsi : (eltScatter wf).siIdx j ⟨List.idxOf (0 : Fin 1) (eltScatter wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  exact congrArg (fun k => (idx k).toInt) hsi

/-- The one axis is inserted: no window coordinate. -/
theorem eltScatter_window0 : (eltScatter wf).window j 0 = 0 := by
  unfold ScatterDims.window
  rw [dif_neg (show (0 : Fin 1) ∉ (⟨1, ![100000]⟩ : Shape).kept [0] by decide)]

/-- WHERE AN UPDATE LANDS: update `e` lands at `i` exactly when the word `idx (e, 0)`, read signed, is an index of the
    operand and `i` is that index. -/
theorem eltScatter_resultIdx?_eq_some (i : (⟨1, ![100000]⟩ : Shape).Idx) :
    (eltScatter wf).resultIdx? j idx = some i ↔
      (0 ≤ (idx (ix2 (j 0) 0)).toInt ∧ (idx (ix2 (j 0) 0)).toInt < 100000 ∧
        ((i 0 : Fin 100000) : ℤ) = (idx (ix2 (j 0) 0)).toInt) := by
  have h0 := eltScatter_start0 wf idx j
  have w0 := eltScatter_window0 wf j
  unfold ScatterDims.resultIdx?
  split
  · rename_i h
    have hh0 : 0 ≤ (idx (ix2 (j 0) 0)).toInt + ((0 : ℕ) : ℤ) ∧
        (idx (ix2 (j 0) 0)).toInt + ((0 : ℕ) : ℤ) < ((100000 : ℕ) : ℤ) := by
      have := h 0
      rw [h0, w0] at this
      exact this
    constructor
    · intro he
      have he' := Option.some.inj he
      subst he'
      refine ⟨by omega, by omega, ?_⟩
      show (((eltScatter wf).start j idx 0 + ((eltScatter wf).window j 0 : ℤ)).toNat : ℤ) = _
      rw [h0, w0]; omega
    · rintro ⟨_, _, hi0⟩
      congr 1
      funext a
      refine Fin.ext ?_
      match a with
      | ⟨0, _⟩ =>
        show ((eltScatter wf).start j idx 0 + ((eltScatter wf).window j 0 : ℤ)).toNat = (i 0).val
        rw [h0, w0]; omega
  · rename_i h
    constructor
    · intro he; cases he
    · rintro ⟨hlo, hhi, _⟩
      exfalso; apply h
      intro a
      match a with
      | ⟨0, _⟩ =>
        show 0 ≤ (eltScatter wf).start j idx 0 + ((eltScatter wf).window j 0 : ℤ) ∧
          (eltScatter wf).start j idx 0 + ((eltScatter wf).window j 0 : ℤ) < ((100000 : ℕ) : ℤ)
        rw [h0, w0]; omega

/-- The witness form: an update whose index word reads, signed, as `d` lands at `d`. -/
theorem eltScatter_resultIdx?_of_toInt_eq (d : ℕ) (hd : d < 100000) (hb : (idx (ix2 (j 0) 0)).toInt = (d : ℤ)) :
    (eltScatter wf).resultIdx? j idx = some (ix1 ⟨d, hd⟩) :=
  (eltScatter_resultIdx?_eq_some wf idx j _).mpr ⟨by omega, by omega, hb.symm⟩

end Scatter1

/-! ## The two programs' records -/

section Named

/-- The reference's gather of rows of a `[100000, 128]` array reads row `rowOf (idx (e, 0))`, column `c`. -/
theorem ref_gather128_operandIdx [Cert.ReferenceIdeal.Facts₀] (idx : IVec Cert.ReferenceIdeal.S1700000x1 32)
    (j : Cert.ReferenceIdeal.S1700000x128.Idx) :
    Cert.ReferenceIdeal.gather_S100000x128_S1700000x1_S1700000x128_1_0_n_n_0_1_1128.operandIdx j idx = ix2 (rowOf (idx (ix2 (j 0) 0))) (j 1) :=
  rowGather128_operandIdx _ idx j

/-- The kernel program's gather is the same record, so reads the same. -/
theorem ker_gather128_operandIdx [Cert.KernelIdeal.Facts₀] (idx : IVec Cert.KernelIdeal.S1700000x1 32)
    (j : Cert.KernelIdeal.S1700000x128.Idx) :
    Cert.KernelIdeal.gather_S100000x128_S1700000x1_S1700000x128_1_0_n_n_0_1_1128.operandIdx j idx = ix2 (rowOf (idx (ix2 (j 0) 0))) (j 1) :=
  rowGather128_operandIdx _ idx j

theorem ker_gather128_eq_ref [Cert.KernelIdeal.Facts₀] [Cert.ReferenceIdeal.Facts₀] :
    Cert.KernelIdeal.gather_S100000x128_S1700000x1_S1700000x128_1_0_n_n_0_1_1128 = Cert.ReferenceIdeal.gather_S100000x128_S1700000x1_S1700000x128_1_0_n_n_0_1_1128 := rfl

/-- The reference's scatter-add of `[1700000, 128]` updates: where update `j` lands. -/
theorem ref_scatter128_resultIdx?_eq_some [Cert.ReferenceIdeal.Facts₀] (idx : IVec Cert.ReferenceIdeal.S1700000x1 32)
    (j : Cert.ReferenceIdeal.S1700000x128.Idx) (i : Cert.ReferenceIdeal.S100000x128.Idx) :
    Cert.ReferenceIdeal.scatter_S100000x128_S1700000x1_S1700000x128_1_0_0_1.resultIdx? j idx = some i ↔
      (0 ≤ (idx (ix2 (j 0) 0)).toInt ∧ (idx (ix2 (j 0) 0)).toInt < 100000 ∧
        ((i 0 : Fin 100000) : ℤ) = (idx (ix2 (j 0) 0)).toInt ∧ i 1 = j 1) :=
  rowScatter128_resultIdx?_eq_some _ idx j i

/-- The kernel program's scatter-add is the same record. -/
theorem ker_scatter128_resultIdx?_eq_some [Cert.KernelIdeal.Facts₀] (idx : IVec Cert.KernelIdeal.S1700000x1 32)
    (j : Cert.KernelIdeal.S1700000x128.Idx) (i : Cert.KernelIdeal.S100000x128.Idx) :
    Cert.KernelIdeal.scatter_S100000x128_S1700000x1_S1700000x128_1_0_0_1.resultIdx? j idx = some i ↔
      (0 ≤ (idx (ix2 (j 0) 0)).toInt ∧ (idx (ix2 (j 0) 0)).toInt < 100000 ∧
        ((i 0 : Fin 100000) : ℤ) = (idx (ix2 (j 0) 0)).toInt ∧ i 1 = j 1) :=
  rowScatter128_resultIdx?_eq_some _ idx j i

theorem ker_scatter128_eq_ref [Cert.KernelIdeal.Facts₀] [Cert.ReferenceIdeal.Facts₀] :
    Cert.KernelIdeal.scatter_S100000x128_S1700000x1_S1700000x128_1_0_0_1 = Cert.ReferenceIdeal.scatter_S100000x128_S1700000x1_S1700000x128_1_0_0_1 := rfl

/-- The reference's gather of rows of a `[100000, 64]` array reads row `rowOf (idx (e, 0))`, column `c`. -/
theorem ref_gather64_operandIdx [Cert.ReferenceIdeal.Facts₀] (idx : IVec Cert.ReferenceIdeal.S1700000x1 32)
    (j : Cert.ReferenceIdeal.S1700000x64.Idx) :
    Cert.ReferenceIdeal.gather_S100000x64_S1700000x1_S1700000x64_1_0_n_n_0_1_164.operandIdx j idx = ix2 (rowOf (idx (ix2 (j 0) 0))) (j 1) :=
  rowGather64_operandIdx _ idx j

/-- The kernel program's gather is the same record, so reads the same. -/
theorem ker_gather64_operandIdx [Cert.KernelIdeal.Facts₀] (idx : IVec Cert.KernelIdeal.S1700000x1 32)
    (j : Cert.KernelIdeal.S1700000x64.Idx) :
    Cert.KernelIdeal.gather_S100000x64_S1700000x1_S1700000x64_1_0_n_n_0_1_164.operandIdx j idx = ix2 (rowOf (idx (ix2 (j 0) 0))) (j 1) :=
  rowGather64_operandIdx _ idx j

theorem ker_gather64_eq_ref [Cert.KernelIdeal.Facts₀] [Cert.ReferenceIdeal.Facts₀] :
    Cert.KernelIdeal.gather_S100000x64_S1700000x1_S1700000x64_1_0_n_n_0_1_164 = Cert.ReferenceIdeal.gather_S100000x64_S1700000x1_S1700000x64_1_0_n_n_0_1_164 := rfl

/-- The reference's scatter-add of `[1700000, 64]` updates: where update `j` lands. -/
theorem ref_scatter64_resultIdx?_eq_some [Cert.ReferenceIdeal.Facts₀] (idx : IVec Cert.ReferenceIdeal.S1700000x1 32)
    (j : Cert.ReferenceIdeal.S1700000x64.Idx) (i : Cert.ReferenceIdeal.S100000x64.Idx) :
    Cert.ReferenceIdeal.scatter_S100000x64_S1700000x1_S1700000x64_1_0_0_1.resultIdx? j idx = some i ↔
      (0 ≤ (idx (ix2 (j 0) 0)).toInt ∧ (idx (ix2 (j 0) 0)).toInt < 100000 ∧
        ((i 0 : Fin 100000) : ℤ) = (idx (ix2 (j 0) 0)).toInt ∧ i 1 = j 1) :=
  rowScatter64_resultIdx?_eq_some _ idx j i

/-- The kernel program's scatter-add is the same record. -/
theorem ker_scatter64_resultIdx?_eq_some [Cert.KernelIdeal.Facts₀] (idx : IVec Cert.KernelIdeal.S1700000x1 32)
    (j : Cert.KernelIdeal.S1700000x64.Idx) (i : Cert.KernelIdeal.S100000x64.Idx) :
    Cert.KernelIdeal.scatter_S100000x64_S1700000x1_S1700000x64_1_0_0_1.resultIdx? j idx = some i ↔
      (0 ≤ (idx (ix2 (j 0) 0)).toInt ∧ (idx (ix2 (j 0) 0)).toInt < 100000 ∧
        ((i 0 : Fin 100000) : ℤ) = (idx (ix2 (j 0) 0)).toInt ∧ i 1 = j 1) :=
  rowScatter64_resultIdx?_eq_some _ idx j i

theorem ker_scatter64_eq_ref [Cert.KernelIdeal.Facts₀] [Cert.ReferenceIdeal.Facts₀] :
    Cert.KernelIdeal.scatter_S100000x64_S1700000x1_S1700000x64_1_0_0_1 = Cert.ReferenceIdeal.scatter_S100000x64_S1700000x1_S1700000x64_1_0_0_1 := rfl

/-- The reference's gather of elements of a `[100000]` array reads element `rowOf (idx (e, 0))`. -/
theorem ref_gather1_operandIdx [Cert.ReferenceIdeal.Facts₀] (idx : IVec Cert.ReferenceIdeal.S1700000x1 32)
    (j : Cert.ReferenceIdeal.S1700000.Idx) :
    Cert.ReferenceIdeal.gather_S100000_S1700000x1_S1700000_n_0_n_n_0_1_1.operandIdx j idx
      = ix1 (rowOf (idx (ix2 (j 0) 0))) :=
  eltGather_operandIdx _ idx j

/-- The reference's scatter-add of `[1700000]` updates into a `[100000]` array: where update `j` lands. -/
theorem ref_scatter1_resultIdx?_eq_some [Cert.ReferenceIdeal.Facts₀] (idx : IVec Cert.ReferenceIdeal.S1700000x1 32)
    (j : Cert.ReferenceIdeal.S1700000.Idx) (i : Cert.ReferenceIdeal.S100000.Idx) :
    Cert.ReferenceIdeal.scatter_S100000_S1700000x1_S1700000_n_0_0_1.resultIdx? j idx = some i ↔
      (0 ≤ (idx (ix2 (j 0) 0)).toInt ∧ (idx (ix2 (j 0) 0)).toInt < 100000 ∧
        ((i 0 : Fin 100000) : ℤ) = (idx (ix2 (j 0) 0)).toInt) :=
  eltScatter_resultIdx?_eq_some _ idx j i

/-- The kernel program's one-axis scatter-add is the same record. -/
theorem ker_scatter1_resultIdx?_eq_some [Cert.KernelIdeal.Facts₀] (idx : IVec Cert.KernelIdeal.S1700000x1 32)
    (j : Cert.KernelIdeal.S1700000.Idx) (i : Cert.KernelIdeal.S100000.Idx) :
    Cert.KernelIdeal.scatter_S100000_S1700000x1_S1700000_n_0_0_1.resultIdx? j idx = some i ↔
      (0 ≤ (idx (ix2 (j 0) 0)).toInt ∧ (idx (ix2 (j 0) 0)).toInt < 100000 ∧
        ((i 0 : Fin 100000) : ℤ) = (idx (ix2 (j 0) 0)).toInt) :=
  eltScatter_resultIdx?_eq_some _ idx j i

theorem ker_scatter1_eq_ref [Cert.KernelIdeal.Facts₀] [Cert.ReferenceIdeal.Facts₀] :
    Cert.KernelIdeal.scatter_S100000_S1700000x1_S1700000_n_0_0_1
      = Cert.ReferenceIdeal.scatter_S100000_S1700000x1_S1700000_n_0_0_1 := rfl

end Named

/-! ## The wrap of a negative index, and `rowOf` on a word that is a row -/

section Wrap

/-- A word whose signed value is not negative is not below zero in the signed order. -/
theorem slt_zero_of_nonneg (b : BitVec 32) (hb : 0 ≤ b.toInt) : IntOp.cmpi .slt b 0#32 = 0#1 := by
  have hs : b.slt 0#32 = false := by
    unfold BitVec.slt
    exact decide_eq_false (by rw [BitVec.toInt_zero]; omega)
  show BitVec.ofBool (b.slt 0#32) = 0#1
  rw [hs]; rfl

/-- A word whose signed value is negative is below zero in the signed order. -/
theorem slt_zero_of_neg (b : BitVec 32) (hb : b.toInt < 0) : IntOp.cmpi .slt b 0#32 = 1#1 := by
  have hs : b.slt 0#32 = true := by
    unfold BitVec.slt
    exact decide_eq_true (by rw [BitVec.toInt_zero]; exact hb)
  show BitVec.ofBool (b.slt 0#32) = 1#1
  rw [hs]; rfl

variable (h0 : (⟨0, ![]⟩ : Shape).BroadcastsInDim ⟨1, ![1700000]⟩ (![] : Fin 0 → Fin 1))
  (x : IVec ⟨1, ![1700000]⟩ 32) (e : (⟨1, ![1700000]⟩ : Shape).Idx)

/-- THE WRAP AT AN INDEX whose word is not negative: "add `100000` where the index is below zero" leaves it alone. -/
theorem wrap_apply_of_nonneg (hx : 0 ≤ (x e).toInt) :
    select (cmpi .slt x (broadcastInDim ⟨1, ![1700000]⟩ ![] h0 (constantI ⟨0, ![]⟩ 32 0#32)))
      (addi x (broadcastInDim ⟨1, ![1700000]⟩ ![] h0 (constantI ⟨0, ![]⟩ 32 100000#32))) x e = x e := by
  show Scalar.select (IntOp.cmpi .slt (x e) 0#32) (IntOp.addi (x e) 100000#32) (x e) = x e
  rw [slt_zero_of_nonneg _ hx]
  exact select_zero _ _

/-- The wrap at an index whose word is negative adds `100000`. -/
theorem wrap_apply_of_neg (hx : (x e).toInt < 0) :
    select (cmpi .slt x (broadcastInDim ⟨1, ![1700000]⟩ ![] h0 (constantI ⟨0, ![]⟩ 32 0#32)))
      (addi x (broadcastInDim ⟨1, ![1700000]⟩ ![] h0 (constantI ⟨0, ![]⟩ 32 100000#32))) x e = x e + 100000#32 := by
  show Scalar.select (IntOp.cmpi .slt (x e) 0#32) (IntOp.addi (x e) 100000#32) (x e) = x e + 100000#32
  rw [slt_zero_of_neg _ hx]
  exact select_one _ _

/-- On a word that is a row, `rowOf` is that row … -/
theorem rowOf_eq_of_inRange (b : BitVec 32) (hlo : 0 ≤ b.toInt) (hhi : b.toInt < 100000) :
    rowOf b = ⟨b.toInt.toNat, by omega⟩ := by
  refine Fin.ext ?_
  show min b.toInt.toNat 99999 = b.toInt.toNat
  omega

/-- … so as an integer it is the word's signed value. -/
theorem rowOf_cast_of_inRange (b : BitVec 32) (hlo : 0 ≤ b.toInt) (hhi : b.toInt < 100000) :
    ((rowOf b : Fin 100000) : ℤ) = b.toInt := by
  show ((min b.toInt.toNat 99999 : ℕ) : ℤ) = b.toInt
  omega

end Wrap

/-! ## The self-loops: the last `100000` entries of an index list are `0, 1, …, 99999` -/

section SelfLoop

/-- The 32-bit word of a number below `100000` reads back, signed, as that number. -/
theorem toInt_ofNat_of_lt (d : ℕ) (hd : d < 100000) : (BitVec.ofNat 32 d).toInt = (d : ℤ) := by
  rw [BitVec.toInt_eq_toNat_cond, BitVec.toNat_ofNat, Nat.mod_eq_of_lt (by omega)]
  rw [if_pos (by omega)]

/-- A list of `1600000` words with the iota of length `100000` behind it reads, at position `1600000 + d`, the word of `d`. -/
theorem concatenate_iota_apply
    (h : Shape.Concatenates [(⟨1, ![1600000]⟩ : Shape), (⟨1, ![100000]⟩ : Shape)] ⟨1, ![1700000]⟩ 0)
    (a : IVec ⟨1, ![1600000]⟩ 32) (d : ℕ) (hd : d < 100000) :
    concatenate ⟨1, ![1700000]⟩ 0 [⟨⟨1, ![1600000]⟩, a⟩, ⟨⟨1, ![100000]⟩, iotaInDim ⟨1, ![100000]⟩ 32 0⟩] h
      (ix1 ⟨1600000 + d, by omega⟩) = BitVec.ofNat 32 d := by
  refine (concatenate_pair_apply_right (0 : Fin 1) a (iotaInDim ⟨1, ![100000]⟩ 32 0) h (ix1 ⟨1600000 + d, by omega⟩)
    rfl rfl (ix1 ⟨d, hd⟩) ?_ ?_).trans ?_
  · intro b hb
    exact absurd (Subsingleton.elim _ _) hb
  · show d + 1600000 = 1600000 + d
    omega
  · rfl

/-- In front of position `1600000` the list reads its first piece. -/
theorem concatenate_front_apply
    (h : Shape.Concatenates [(⟨1, ![1600000]⟩ : Shape), (⟨1, ![100000]⟩ : Shape)] ⟨1, ![1700000]⟩ 0)
    (a : IVec ⟨1, ![1600000]⟩ 32) (b : IVec ⟨1, ![100000]⟩ 32) (n : ℕ) (hn : n < 1600000) :
    concatenate ⟨1, ![1700000]⟩ 0 [⟨⟨1, ![1600000]⟩, a⟩, ⟨⟨1, ![100000]⟩, b⟩] h
      (ix1 ⟨n, by omega⟩) = a (ix1 ⟨n, hn⟩) := by
  refine concatenate_pair_apply_left (t := ⟨1, ![1700000]⟩) (0 : Fin 1) a b h (ix1 ⟨n, by omega⟩) rfl (ix1 ⟨n, hn⟩) ?_
  intro c
  match c with
  | ⟨0, _⟩ => rfl

/-- A list of `1700000` words as a one-column array reads the list's entry. -/
theorem column_apply {α : Type}
    (h : (⟨1, ![1700000]⟩ : Shape).BroadcastsInDim ⟨2, ![1700000, 1]⟩ (![0] : Fin 1 → Fin 2))
    (x : (⟨1, ![1700000]⟩ : Shape).Idx → α) (e : Fin 1700000) :
    broadcastInDim ⟨2, ![1700000, 1]⟩ ![0] h x (ix2 e 0) = x (ix1 e) :=
  broadcastInDim_apply _ h x (ix2 e 0) (ix1 e) (fun a => match a with | ⟨0, _⟩ => rfl)

end SelfLoop

end Cert.EdgeIndex

end
-- ==== Proof.LibScaleSum.lean ====
/-
  Extended-real algebra for sums scaled by a node factor.

  The extended reals are not distributive in general (a product cannot be moved across a sum when the sum mixes
  the two infinities), but multiplication by a non-negative REAL distributes over every sum. A graph convolution
  scales each incoming message by the factor of its source and of its destination; since every message landing on
  a node shares that node's factor, the destination factor comes out of the sum.
-/
import Idealize.ShloMosaic.PureOps.Ideal
import Idealize.ShloMosaic.Lib.IdealHost

noncomputable section

namespace Cert.ScaleSum

open Idealize.ShloMosaic

/-- A non-negative real factor distributes over a finite sum of extended reals (on the right). -/
theorem sum_mul_of_nonneg_of_ne_top {ι : Type*} (s : Finset ι) (f : ι → EReal) {x : EReal} (h0 : 0 ≤ x) (ht : x ≠ ⊤) :
    (∑ u ∈ s, f u) * x = ∑ u ∈ s, f u * x := by
  classical
  induction s using Finset.induction_on with
  | empty => simp
  | insert a s ha ih =>
    rw [Finset.sum_insert ha, Finset.sum_insert ha, EReal.right_distrib_of_nonneg_of_ne_top h0 ht, ih]

/-- The layer law. Every term of the left sum carries the factor `τ u`, which on the summation set is the one
    non-negative real `D`; so the sum of `a u · (σ u · τ u)` is `D` times the sum of `a u · σ u`. The zeros
    are the accumulator the sums are added to. -/
theorem scale_out {ι : Type*} (s : Finset ι) (a σ τ : ι → EReal) {D : EReal} (h0 : 0 ≤ D) (ht : D ≠ ⊤)
    (hτ : ∀ u ∈ s, τ u = D) :
    (0 : EReal) + ∑ u ∈ s, a u * (σ u * τ u) = D * (0 + ∑ u ∈ s, a u * σ u) := by
  rw [zero_add, zero_add, mul_comm D, sum_mul_of_nonneg_of_ne_top s _ h0 ht]
  exact Finset.sum_congr rfl (fun u hu => by rw [hτ u hu, mul_assoc])

/-- A sum of ones is the number of terms, a real. -/
theorem sum_ones {ι : Type*} (s : Finset ι) : ∑ _u ∈ s, (1 : EReal) = ((s.card : ℝ) : EReal) := by
  classical
  induction s using Finset.induction_on with
  | empty => simp
  | insert a s ha ih =>
    rw [Finset.sum_insert ha, ih, Finset.card_insert_of_notMem ha, Nat.cast_succ, EReal.coe_add, EReal.coe_one, add_comm]

/-- The inverse square root of a real that is at least one is a non-negative real. -/
theorem rsqrt_of_one_le {r : ℝ} (hr : 1 ≤ r) :
    0 ≤ Ideal.rsqrt (r : EReal) ∧ Ideal.rsqrt (r : EReal) ≠ ⊤ := by
  rw [Ideal.rsqrt_coe, if_neg (by linarith), if_neg (by linarith)]
  exact ⟨EReal.coe_nonneg.mpr (inv_nonneg.mpr (Real.sqrt_nonneg r)), EReal.coe_ne_top _⟩

/-- The inverse square root of a count with at least one member (zero accumulator plus a one per member) is a
    non-negative real: a node's degree counts its own self-loop. -/
theorem rsqrt_count {ι : Type*} (s : Finset ι) (hs : s.Nonempty) :
    0 ≤ Ideal.rsqrt ((0 : EReal) + ∑ _u ∈ s, (1 : EReal)) ∧ Ideal.rsqrt ((0 : EReal) + ∑ _u ∈ s, (1 : EReal)) ≠ ⊤ := by
  rw [zero_add, sum_ones]
  exact rsqrt_of_one_le (by exact_mod_cast Finset.card_pos.mpr hs)

end Cert.ScaleSum

end
-- ==== Proof.LayerLaw.lean ====
import proofs.«101615_j360777253171_2_alg».proof.Proof.EdgeIndex
import proofs.«101615_j360777253171_2_alg».proof.Proof.LibScaleSum
import proofs.«101615_j360777253171_2_alg».proof.Proof.RefStages
import Idealize.ShloMosaic.Lib.IdealHost

/-!
  The layer law of the reference's normalized aggregation.

  Every node's degree counts its own self-loop, so its degree factor (the inverse square root of the degree) is a
  non-negative real. An aggregation lands at node `d` the messages of the edges whose destination is `d`, each scaled by
  the factors of its source and of its destination; the destination factor is the same for all of them, so it comes out
  of the sum: the aggregate is the factor of `d` times the scatter-add of the rows of the array scaled row by row.
-/

noncomputable section

namespace Cert.LayerLaw

open Idealize.ShloMosaic Idealize.ShloMosaic.ValueIdx Cert.EdgeIndex Cert.ReferenceIdeal Cert.ReferenceIdeal.Gen
open Cert.ReferenceIdeal.Facts₀
open scoped BigOperators

/-- A scatter-add into zeros whose updates all carry, where they land at `i`, one non-negative real factor: the factor
    comes out of the sum. -/
theorem hostScatterAdd_scale {s si su : Shape} (d : ScatterDims s si su) {w : Nat} (x : s.Idx → EReal) (idx : IVec si w)
    (a σ τ : su.Idx → EReal) (i : s.Idx) {D : EReal} (h0 : 0 ≤ D) (ht : D ≠ ⊤) (hx : x i = 0)
    (hτ : ∀ j, d.resultIdx? j idx = some i → τ j = D) :
    Ideal.hostScatterAdd d x idx (fun j => a j * (σ j * τ j)) i
      = D * Ideal.hostScatterAdd d x idx (fun j => a j * σ j) i := by
  unfold Ideal.hostScatterAdd
  rw [hx]
  exact Cert.ScaleSum.scale_out _ a σ τ h0 ht (fun u hu => hτ u (Finset.mem_filter.mp hu).2)

/-- At the ideal values the host's accumulating scatter is the exact sum. -/
theorem Host_scatterAdd_eq {s si u : Shape} {w : Nat} {φ : FTy} (d : ScatterDims s si u) (x : FVec Ideal s φ) (idx : IVec si w)
    (upd : FVec Ideal u φ) : Host.scatterAdd d x idx upd = Ideal.hostScatterAdd d x idx upd := rfl

/-! ## The index lists at an index -/

section Lists
variable (x1 : (⟨S2x1600000, .i32⟩ : BufTy).Contents (Elt Ideal))

/-- The destination list ends in the self-loops: position `1600000 + d` holds the word of `d`. -/
theorem dst_selfLoop (d : ℕ) (hd : d < 100000) :
    Stage.val_main_v6 (F := Ideal) x1 (ix1 ⟨1600000 + d, by omega⟩) = BitVec.ofNat 32 d := by
  unfold Stage.val_main_v6 Stage.val_main_v0
  exact concatenate_iota_apply _ _ d hd

/-- The degree scatter's index column reads the destination list. -/
theorem v9_col (e : Fin 1700000) :
    Stage.val_main_v9 (F := Ideal) x1 (ix2 e 0) = Stage.val_main_v6 (F := Ideal) x1 (ix1 e) := by
  unfold Stage.val_main_v9
  exact column_apply _ _ e

end Lists

/-! ## The degree factor is a non-negative real -/

section Degree
variable (x1 : (⟨S2x1600000, .i32⟩ : BufTy).Contents (Elt Ideal))

/-- The self-loop of node `d` reads, in the index column, the word of `d`. -/
theorem selfLoop_word (d : ℕ) (hd : d < 100000) :
    (Stage.val_main_v9 (F := Ideal) x1 (ix2 ⟨1600000 + d, by omega⟩ 0)).toInt = (d : ℤ) := by
  rw [v9_col, dst_selfLoop x1 d hd, toInt_ofNat_of_lt d hd]

/-- The self-loop of node `d` lands its update on `d`. -/
theorem selfLoop_lands (d : ℕ) (hd : d < 100000) :
    scatter_S100000_S1700000x1_S1700000_n_0_0_1.resultIdx? (ix1 ⟨1600000 + d, by omega⟩)
      (Stage.val_main_v9 (F := Ideal) x1) = some (ix1 ⟨d, hd⟩) :=
  eltScatter_resultIdx?_of_toInt_eq _ (Stage.val_main_v9 (F := Ideal) x1)
    (ix1 ⟨1600000 + d, by omega⟩) d hd (selfLoop_word x1 d hd)

/-- The degree scatter's zeros … -/
theorem zeros1_apply (d : S100000.Idx) : Stage.val_main_v8 (F := Ideal) d = 0 := by
  rw [Stage.val_main_v8_apply, Stage.val_main_cst_0_apply, Ideal.ofBits_def, Ideal.ofBits_zero_f32]

/-- … and its ones. -/
theorem ones_apply (j : S1700000.Idx) : Stage.val_main_v7 (F := Ideal) j = 1 := by
  rw [Stage.val_main_v7_apply, Stage.val_main_cst_apply, Ideal.ofBits_def, Ideal.ofBits_one_f32]

end Degree

/-- A scatter-add of ones into a zero that some update lands on: its inverse square root is a non-negative real. -/
theorem hostScatterAdd_count {s si su : Shape} (d : ScatterDims s si su) {w : Nat} (x : s.Idx → EReal) (idx : IVec si w)
    (upd : su.Idx → EReal) (i : s.Idx) (hx : x i = 0) (hu : ∀ j, upd j = 1) (j0 : su.Idx)
    (hj0 : d.resultIdx? j0 idx = some i) :
    0 ≤ Ideal.rsqrt (Ideal.hostScatterAdd d x idx upd i) ∧ Ideal.rsqrt (Ideal.hostScatterAdd d x idx upd i) ≠ ⊤ := by
  unfold Ideal.hostScatterAdd
  rw [hx, Finset.sum_congr rfl (fun j _ => hu j)]
  exact Cert.ScaleSum.rsqrt_count _ ⟨j0, Finset.mem_filter.mpr ⟨Finset.mem_univ _, hj0⟩⟩

/-- The degree array is the scatter-add of the ones into the zeros along the destination column. -/
theorem v10_eq (x1 : (⟨S2x1600000, .i32⟩ : BufTy).Contents (Elt Ideal)) :
    Stage.val_main_v10 (F := Ideal) x1
      = Host.scatterAdd (F := Ideal) (φ := .f32) scatter_S100000_S1700000x1_S1700000_n_0_0_1 (Stage.val_main_v8 (F := Ideal))
          (Stage.val_main_v9 (F := Ideal) x1) (Stage.val_main_v7 (F := Ideal)) := rfl

/-- THE DEGREE FACTOR: every node's degree counts its self-loop, so its inverse square root is a non-negative real. -/
theorem dis_nonneg_real (x1 : (⟨S2x1600000, .i32⟩ : BufTy).Contents (Elt Ideal)) (d : S100000.Idx) :
    0 ≤ Stage.val_main_v11 (F := Ideal) x1 d ∧ Stage.val_main_v11 (F := Ideal) x1 d ≠ ⊤ := by
  have hd : (d 0).val < 100000 := (d 0).isLt
  have hdd : ix1 ⟨(d 0).val, hd⟩ = d := by
    funext a; match a with | ⟨0, _⟩ => rfl
  rw [Stage.val_main_v11_apply, Ideal.hostUnary_rsqrt_def, v10_eq, Host_scatterAdd_eq]
  exact hostScatterAdd_count _ _ _ _ d (zeros1_apply d) ones_apply _
    ((selfLoop_lands x1 (d 0).val hd).trans (congrArg some hdd))

/-! ## Layer 1: the aggregation into `[100000, 128]` -/

section Layer1
variable (x1 : (⟨S2x1600000, .i32⟩ : BufTy).Contents (Elt Ideal))

/-- The index columns of this layer read their lists. -/
theorem v18_col (e : Fin 1700000) :
    Stage.val_main_v18 (F := Ideal) x1 (ix2 e 0) = Stage.val_main_v17 (F := Ideal) x1 (ix1 e) := by
  unfold Stage.val_main_v18
  exact column_apply _ _ e
theorem v25_col (e : Fin 1700000) :
    Stage.val_main_v25 (F := Ideal) x1 (ix2 e 0) = Stage.val_main_v24 (F := Ideal) x1 (ix1 e) := by
  unfold Stage.val_main_v25
  exact column_apply _ _ e
theorem v33_col (e : Fin 1700000) :
    Stage.val_main_v33 (F := Ideal) x1 (ix2 e 0) = Stage.val_main_v32 (F := Ideal) x1 (ix1 e) := by
  unfold Stage.val_main_v33
  exact column_apply _ _ e
theorem v39_col (e : Fin 1700000) :
    Stage.val_main_v39 (F := Ideal) x1 (ix2 e 0) = Stage.val_main_v6 (F := Ideal) x1 (ix1 e) := by
  unfold Stage.val_main_v39
  exact column_apply _ _ e

/-- The two wrapped source lists of this layer are one list. -/
theorem src_wrap_eq1 (e : S1700000.Idx) :
    Stage.val_main_v17 (F := Ideal) x1 e = Stage.val_main_v32 (F := Ideal) x1 e := by
  rw [Stage.val_main_v17_apply, Stage.val_main_v32_apply, Stage.val_main_v14_apply, Stage.val_main_v29_apply,
    Stage.val_main_v16_apply, Stage.val_main_v31_apply, Stage.val_main_v13_apply, Stage.val_main_v28_apply,
    Stage.val_main_v15_apply, Stage.val_main_v30_apply]
  rfl

/-- Where the destination word is not negative, the wrapped destination is the word itself. -/
theorem dst_wrap_of_nonneg1 (e : S1700000.Idx) (h : 0 ≤ (Stage.val_main_v6 (F := Ideal) x1 e).toInt) :
    Stage.val_main_v24 (F := Ideal) x1 e = Stage.val_main_v6 (F := Ideal) x1 e := by
  rw [Stage.val_main_v24_apply, Stage.val_main_v21_apply, Stage.val_main_v20_apply, Stage.val_main_c_2_apply,
    slt_zero_of_nonneg _ h]
  exact select_zero _ _

/-- The source factors are the gather of the degree factors along the wrapped source column … -/
theorem v19_eq :
    Stage.val_main_v19 (F := Ideal) x1
      = Host.gather gather_S100000_S1700000x1_S1700000_n_0_n_n_0_1_1 (Stage.val_main_v11 (F := Ideal) x1)
          (Stage.val_main_v18 (F := Ideal) x1) := rfl
/-- … and the destination factors along the wrapped destination column. -/
theorem v26_eq :
    Stage.val_main_v26 (F := Ideal) x1
      = Host.gather gather_S100000_S1700000x1_S1700000_n_0_n_n_0_1_1 (Stage.val_main_v11 (F := Ideal) x1)
          (Stage.val_main_v25 (F := Ideal) x1) := rfl

/-- The source factor of edge `e`: the degree factor of its clamped wrapped source. -/
theorem v19_apply (e : Fin 1700000) :
    Stage.val_main_v19 (F := Ideal) x1 (ix1 e)
      = Stage.val_main_v11 (F := Ideal) x1 (ix1 (rowOf (Stage.val_main_v17 (F := Ideal) x1 (ix1 e)))) := by
  rw [v19_eq]
  show Stage.val_main_v11 (F := Ideal) x1 (gather_S100000_S1700000x1_S1700000_n_0_n_n_0_1_1.operandIdx (ix1 e)
    (Stage.val_main_v18 (F := Ideal) x1)) = _
  rw [ref_gather1_operandIdx]
  exact congrArg (fun b => Stage.val_main_v11 (F := Ideal) x1 (ix1 (rowOf b))) (v18_col x1 e)

/-- The destination factor of edge `e`: the degree factor of its clamped wrapped destination. -/
theorem v26_apply (e : Fin 1700000) :
    Stage.val_main_v26 (F := Ideal) x1 (ix1 e)
      = Stage.val_main_v11 (F := Ideal) x1 (ix1 (rowOf (Stage.val_main_v24 (F := Ideal) x1 (ix1 e)))) := by
  rw [v26_eq]
  show Stage.val_main_v11 (F := Ideal) x1 (gather_S100000_S1700000x1_S1700000_n_0_n_n_0_1_1.operandIdx (ix1 e)
    (Stage.val_main_v25 (F := Ideal) x1)) = _
  rw [ref_gather1_operandIdx]
  exact congrArg (fun b => Stage.val_main_v11 (F := Ideal) x1 (ix1 (rowOf b))) (v25_col x1 e)

/-- The row the feature gather reads for update `j`. -/
theorem gather128_row (j : S1700000x128.Idx) :
    gather_S100000x128_S1700000x1_S1700000x128_1_0_n_n_0_1_1128.operandIdx j (Stage.val_main_v33 (F := Ideal) x1)
      = ix2 (rowOf (Stage.val_main_v32 (F := Ideal) x1 (ix1 (j 0)))) (j 1) := by
  rw [ref_gather128_operandIdx]
  exact congrArg (fun b => ix2 (rowOf b) (j 1)) (v33_col x1 (j 0))

/-- Where update `j` lands at `i`, its destination factor is the degree factor of `i`'s row. -/
theorem dst_factor_of_lands1 (j : S1700000x128.Idx) (i : S100000x128.Idx)
    (hj : scatter_S100000x128_S1700000x1_S1700000x128_1_0_0_1.resultIdx? j (Stage.val_main_v39 (F := Ideal) x1) = some i) :
    Stage.val_main_v26 (F := Ideal) x1 (ix1 (j 0)) = Stage.val_main_v11 (F := Ideal) x1 (ix1 (i 0)) := by
  obtain ⟨hlo, hhi, hi0, _⟩ := (ref_scatter128_resultIdx?_eq_some _ j i).mp hj
  have hb : (Stage.val_main_v39 (F := Ideal) x1 (ix2 (n0 := 1700000) (n1 := 1) (j 0) 0)).toInt
      = (Stage.val_main_v6 (F := Ideal) x1 (ix1 (n := 1700000) (j 0))).toInt :=
    congrArg BitVec.toInt (v39_col x1 (j 0))
  have hlo' : 0 ≤ (Stage.val_main_v6 (F := Ideal) x1 (ix1 (n := 1700000) (j 0))).toInt := le_of_le_of_eq hlo hb
  have hhi' : (Stage.val_main_v6 (F := Ideal) x1 (ix1 (n := 1700000) (j 0))).toInt < 100000 := lt_of_eq_of_lt hb.symm hhi
  have hi0' : ((i 0 : Fin 100000) : ℤ) = (Stage.val_main_v6 (F := Ideal) x1 (ix1 (n := 1700000) (j 0))).toInt :=
    hi0.trans hb
  have hw : Stage.val_main_v24 (F := Ideal) x1 (ix1 (n := 1700000) (j 0))
      = Stage.val_main_v6 (F := Ideal) x1 (ix1 (n := 1700000) (j 0)) := dst_wrap_of_nonneg1 x1 _ hlo'
  have hrow : rowOf (Stage.val_main_v24 (F := Ideal) x1 (ix1 (n := 1700000) (j 0))) = (i 0 : Fin 100000) := by
    rw [hw]
    have hc := rowOf_cast_of_inRange _ hlo' hhi'
    refine Fin.ext ?_
    have h2 : ((rowOf (Stage.val_main_v6 (F := Ideal) x1 (ix1 (n := 1700000) (j 0))) : Fin 100000) : ℤ)
        = ((i 0 : Fin 100000) : ℤ) := hc.trans hi0'.symm
    exact_mod_cast h2
  exact (v26_apply x1 (j 0)).trans (congrArg (fun r : Fin 100000 => Stage.val_main_v11 (F := Ideal) x1 (ix1 r)) hrow)

/-- The accumulator of this layer's scatter-add is zero. -/
theorem zeros128_apply (i : S100000x128.Idx) : Stage.val_main_v38 (F := Ideal) i = 0 := by
  rw [Stage.val_main_v38_apply, Stage.val_main_cst_6_apply, Ideal.ofBits_def, Ideal.ofBits_zero_f32]

end Layer1

/-- The gathered messages of this layer are the gather of the transformed features along the wrapped source column. -/
theorem v34_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) :
    Stage.val_main_v34 (F := Ideal) x0 x1 x2
      = Host.gather gather_S100000x128_S1700000x1_S1700000x128_1_0_n_n_0_1_1128 (Stage.val_main_v12 (F := Ideal) x0 x2)
          (Stage.val_main_v33 (F := Ideal) x1) := rfl

/-- The aggregate of this layer is the scatter-add of the updates into the zeros along the destination column. -/
theorem v40_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) :
    Stage.val_main_v40 (F := Ideal) x0 x1 x2
      = Host.scatterAdd (F := Ideal) (φ := .f32) scatter_S100000x128_S1700000x1_S1700000x128_1_0_0_1 (Stage.val_main_v38 (F := Ideal))
          (Stage.val_main_v39 (F := Ideal) x1) (Stage.val_main_v37 (F := Ideal) x0 x1 x2) := rfl

/-- Update `j` of this layer: the gathered message times (source factor times destination factor). -/
theorem v37_split (x0 : (⟨S100000x128, .f32⟩ : BufTy).Contents (Elt Ideal)) (x1 : (⟨S2x1600000, .i32⟩ : BufTy).Contents (Elt Ideal)) (x2 : (⟨S128x128, .f32⟩ : BufTy).Contents (Elt Ideal)) (j : S1700000x128.Idx) :
    Stage.val_main_v37 (F := Ideal) x0 x1 x2 j
      = Stage.val_main_v12 (F := Ideal) x0 x2 (gather_S100000x128_S1700000x1_S1700000x128_1_0_n_n_0_1_1128.operandIdx j (Stage.val_main_v33 (F := Ideal) x1)) *
        (Stage.val_main_v11 (F := Ideal) x1
            (ix1 ((gather_S100000x128_S1700000x1_S1700000x128_1_0_n_n_0_1_1128.operandIdx j (Stage.val_main_v33 (F := Ideal) x1)) 0)) *
          Stage.val_main_v26 (F := Ideal) x1 (ix1 (j 0))) := by
  have he : Stage.idx_main_v35 (Stage.idx_main_v36 j) = ix1 (n := 1700000) (j 0) := by
    funext a; match a with | ⟨0, _⟩ => rfl
  have hσ : Stage.val_main_v19 (F := Ideal) x1 (ix1 (n := 1700000) (j 0))
      = Stage.val_main_v11 (F := Ideal) x1
          (ix1 ((gather_S100000x128_S1700000x1_S1700000x128_1_0_n_n_0_1_1128.operandIdx j (Stage.val_main_v33 (F := Ideal) x1)) 0)) := by
    refine (v19_apply x1 (j 0)).trans ?_
    rewrite [gather128_row, src_wrap_eq1]
    rfl
  rw [Stage.val_main_v37_apply, Stage.val_main_v36_apply, Stage.val_main_v35_apply, Stage.val_main_v27_apply, he, hσ,
    Ideal.mulf_def, Ideal.mulf_def, v34_eq]
  rfl

/-- THE LAYER LAW: the aggregate at `(d, c)` is the degree factor of `d` times the scatter-add of the gathered rows of the
    array scaled row by row by the degree factors. -/
theorem layer1_law (x0 : (⟨S100000x128, .f32⟩ : BufTy).Contents (Elt Ideal)) (x1 : (⟨S2x1600000, .i32⟩ : BufTy).Contents (Elt Ideal)) (x2 : (⟨S128x128, .f32⟩ : BufTy).Contents (Elt Ideal)) (i : S100000x128.Idx) :
    Stage.val_main_v40 (F := Ideal) x0 x1 x2 i
      = Stage.val_main_v11 (F := Ideal) x1 (ix1 (i 0)) *
        Ideal.hostScatterAdd scatter_S100000x128_S1700000x1_S1700000x128_1_0_0_1 (Stage.val_main_v38 (F := Ideal))
          (Stage.val_main_v39 (F := Ideal) x1)
          (Host.gather gather_S100000x128_S1700000x1_S1700000x128_1_0_n_n_0_1_1128
            (fun r => Stage.val_main_v12 (F := Ideal) x0 x2 r * Stage.val_main_v11 (F := Ideal) x1 (ix1 (r 0)))
            (Stage.val_main_v33 (F := Ideal) x1)) i := by
  have hP := dis_nonneg_real x1 (ix1 (i 0))
  have hupd : Stage.val_main_v37 (F := Ideal) x0 x1 x2 = fun j =>
      Stage.val_main_v12 (F := Ideal) x0 x2 (gather_S100000x128_S1700000x1_S1700000x128_1_0_n_n_0_1_1128.operandIdx j (Stage.val_main_v33 (F := Ideal) x1)) *
        (Stage.val_main_v11 (F := Ideal) x1
            (ix1 ((gather_S100000x128_S1700000x1_S1700000x128_1_0_n_n_0_1_1128.operandIdx j (Stage.val_main_v33 (F := Ideal) x1)) 0)) *
          Stage.val_main_v26 (F := Ideal) x1 (ix1 (j 0))) :=
    funext (v37_split x0 x1 x2)
  rw [v40_eq, Host_scatterAdd_eq, hupd]
  exact hostScatterAdd_scale scatter_S100000x128_S1700000x1_S1700000x128_1_0_0_1 (Stage.val_main_v38 (F := Ideal))
    (Stage.val_main_v39 (F := Ideal) x1) _ _ _ i hP.1 hP.2 (zeros128_apply i)
    (fun j hj => dst_factor_of_lands1 x1 j i hj)

/-! ## Layer 2: the aggregation into `[100000, 64]` -/

section Layer2
variable (x1 : (⟨S2x1600000, .i32⟩ : BufTy).Contents (Elt Ideal))

/-- The index columns of this layer read their lists. -/
theorem v51_col (e : Fin 1700000) :
    Stage.val_main_v51 (F := Ideal) x1 (ix2 e 0) = Stage.val_main_v50 (F := Ideal) x1 (ix1 e) := by
  unfold Stage.val_main_v51
  exact column_apply _ _ e
theorem v58_col (e : Fin 1700000) :
    Stage.val_main_v58 (F := Ideal) x1 (ix2 e 0) = Stage.val_main_v57 (F := Ideal) x1 (ix1 e) := by
  unfold Stage.val_main_v58
  exact column_apply _ _ e
theorem v66_col (e : Fin 1700000) :
    Stage.val_main_v66 (F := Ideal) x1 (ix2 e 0) = Stage.val_main_v65 (F := Ideal) x1 (ix1 e) := by
  unfold Stage.val_main_v66
  exact column_apply _ _ e
theorem v72_col (e : Fin 1700000) :
    Stage.val_main_v72 (F := Ideal) x1 (ix2 e 0) = Stage.val_main_v6 (F := Ideal) x1 (ix1 e) := by
  unfold Stage.val_main_v72
  exact column_apply _ _ e

/-- The two wrapped source lists of this layer are one list. -/
theorem src_wrap_eq2 (e : S1700000.Idx) :
    Stage.val_main_v50 (F := Ideal) x1 e = Stage.val_main_v65 (F := Ideal) x1 e := by
  rw [Stage.val_main_v50_apply, Stage.val_main_v65_apply, Stage.val_main_v47_apply, Stage.val_main_v62_apply,
    Stage.val_main_v49_apply, Stage.val_main_v64_apply, Stage.val_main_v46_apply, Stage.val_main_v61_apply,
    Stage.val_main_v48_apply, Stage.val_main_v63_apply]
  rfl

/-- Where the destination word is not negative, the wrapped destination is the word itself. -/
theorem dst_wrap_of_nonneg2 (e : S1700000.Idx) (h : 0 ≤ (Stage.val_main_v6 (F := Ideal) x1 e).toInt) :
    Stage.val_main_v57 (F := Ideal) x1 e = Stage.val_main_v6 (F := Ideal) x1 e := by
  rw [Stage.val_main_v57_apply, Stage.val_main_v54_apply, Stage.val_main_v53_apply, Stage.val_main_c_9_apply,
    slt_zero_of_nonneg _ h]
  exact select_zero _ _

/-- The source factors are the gather of the degree factors along the wrapped source column … -/
theorem v52_eq :
    Stage.val_main_v52 (F := Ideal) x1
      = Host.gather gather_S100000_S1700000x1_S1700000_n_0_n_n_0_1_1 (Stage.val_main_v11 (F := Ideal) x1)
          (Stage.val_main_v51 (F := Ideal) x1) := rfl
/-- … and the destination factors along the wrapped destination column. -/
theorem v59_eq :
    Stage.val_main_v59 (F := Ideal) x1
      = Host.gather gather_S100000_S1700000x1_S1700000_n_0_n_n_0_1_1 (Stage.val_main_v11 (F := Ideal) x1)
          (Stage.val_main_v58 (F := Ideal) x1) := rfl

/-- The source factor of edge `e`: the degree factor of its clamped wrapped source. -/
theorem v52_apply (e : Fin 1700000) :
    Stage.val_main_v52 (F := Ideal) x1 (ix1 e)
      = Stage.val_main_v11 (F := Ideal) x1 (ix1 (rowOf (Stage.val_main_v50 (F := Ideal) x1 (ix1 e)))) := by
  rw [v52_eq]
  show Stage.val_main_v11 (F := Ideal) x1 (gather_S100000_S1700000x1_S1700000_n_0_n_n_0_1_1.operandIdx (ix1 e)
    (Stage.val_main_v51 (F := Ideal) x1)) = _
  rw [ref_gather1_operandIdx]
  exact congrArg (fun b => Stage.val_main_v11 (F := Ideal) x1 (ix1 (rowOf b))) (v51_col x1 e)

/-- The destination factor of edge `e`: the degree factor of its clamped wrapped destination. -/
theorem v59_apply (e : Fin 1700000) :
    Stage.val_main_v59 (F := Ideal) x1 (ix1 e)
      = Stage.val_main_v11 (F := Ideal) x1 (ix1 (rowOf (Stage.val_main_v57 (F := Ideal) x1 (ix1 e)))) := by
  rw [v59_eq]
  show Stage.val_main_v11 (F := Ideal) x1 (gather_S100000_S1700000x1_S1700000_n_0_n_n_0_1_1.operandIdx (ix1 e)
    (Stage.val_main_v58 (F := Ideal) x1)) = _
  rw [ref_gather1_operandIdx]
  exact congrArg (fun b => Stage.val_main_v11 (F := Ideal) x1 (ix1 (rowOf b))) (v58_col x1 e)

/-- The row the feature gather reads for update `j`. -/
theorem gather64_row (j : S1700000x64.Idx) :
    gather_S100000x64_S1700000x1_S1700000x64_1_0_n_n_0_1_164.operandIdx j (Stage.val_main_v66 (F := Ideal) x1)
      = ix2 (rowOf (Stage.val_main_v65 (F := Ideal) x1 (ix1 (j 0)))) (j 1) := by
  rw [ref_gather64_operandIdx]
  exact congrArg (fun b => ix2 (rowOf b) (j 1)) (v66_col x1 (j 0))

/-- Where update `j` lands at `i`, its destination factor is the degree factor of `i`'s row. -/
theorem dst_factor_of_lands2 (j : S1700000x64.Idx) (i : S100000x64.Idx)
    (hj : scatter_S100000x64_S1700000x1_S1700000x64_1_0_0_1.resultIdx? j (Stage.val_main_v72 (F := Ideal) x1) = some i) :
    Stage.val_main_v59 (F := Ideal) x1 (ix1 (j 0)) = Stage.val_main_v11 (F := Ideal) x1 (ix1 (i 0)) := by
  obtain ⟨hlo, hhi, hi0, _⟩ := (ref_scatter64_resultIdx?_eq_some _ j i).mp hj
  have hb : (Stage.val_main_v72 (F := Ideal) x1 (ix2 (n0 := 1700000) (n1 := 1) (j 0) 0)).toInt
      = (Stage.val_main_v6 (F := Ideal) x1 (ix1 (n := 1700000) (j 0))).toInt :=
    congrArg BitVec.toInt (v72_col x1 (j 0))
  have hlo' : 0 ≤ (Stage.val_main_v6 (F := Ideal) x1 (ix1 (n := 1700000) (j 0))).toInt := le_of_le_of_eq hlo hb
  have hhi' : (Stage.val_main_v6 (F := Ideal) x1 (ix1 (n := 1700000) (j 0))).toInt < 100000 := lt_of_eq_of_lt hb.symm hhi
  have hi0' : ((i 0 : Fin 100000) : ℤ) = (Stage.val_main_v6 (F := Ideal) x1 (ix1 (n := 1700000) (j 0))).toInt :=
    hi0.trans hb
  have hw : Stage.val_main_v57 (F := Ideal) x1 (ix1 (n := 1700000) (j 0))
      = Stage.val_main_v6 (F := Ideal) x1 (ix1 (n := 1700000) (j 0)) := dst_wrap_of_nonneg2 x1 _ hlo'
  have hrow : rowOf (Stage.val_main_v57 (F := Ideal) x1 (ix1 (n := 1700000) (j 0))) = (i 0 : Fin 100000) := by
    rw [hw]
    have hc := rowOf_cast_of_inRange _ hlo' hhi'
    refine Fin.ext ?_
    have h2 : ((rowOf (Stage.val_main_v6 (F := Ideal) x1 (ix1 (n := 1700000) (j 0))) : Fin 100000) : ℤ)
        = ((i 0 : Fin 100000) : ℤ) := hc.trans hi0'.symm
    exact_mod_cast h2
  exact (v59_apply x1 (j 0)).trans (congrArg (fun r : Fin 100000 => Stage.val_main_v11 (F := Ideal) x1 (ix1 r)) hrow)

/-- The accumulator of this layer's scatter-add is zero. -/
theorem zeros64_apply (i : S100000x64.Idx) : Stage.val_main_v71 (F := Ideal) i = 0 := by
  rw [Stage.val_main_v71_apply, Stage.val_main_cst_13_apply, Ideal.ofBits_def, Ideal.ofBits_zero_f32]

end Layer2

/-- The gathered messages of this layer are the gather of the transformed features along the wrapped source column. -/
theorem v67_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) :
    Stage.val_main_v67 (F := Ideal) x0 x1 x2 x3 x4
      = Host.gather gather_S100000x64_S1700000x1_S1700000x64_1_0_n_n_0_1_164 (Stage.val_main_v45 (F := Ideal) x0 x1 x2 x3 x4)
          (Stage.val_main_v66 (F := Ideal) x1) := rfl

/-- The aggregate of this layer is the scatter-add of the updates into the zeros along the destination column. -/
theorem v73_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) :
    Stage.val_main_v73 (F := Ideal) x0 x1 x2 x3 x4
      = Host.scatterAdd (F := Ideal) (φ := .f32) scatter_S100000x64_S1700000x1_S1700000x64_1_0_0_1 (Stage.val_main_v71 (F := Ideal))
          (Stage.val_main_v72 (F := Ideal) x1) (Stage.val_main_v70 (F := Ideal) x0 x1 x2 x3 x4) := rfl

/-- Update `j` of this layer: the gathered message times (source factor times destination factor). -/
theorem v70_split (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (j : S1700000x64.Idx) :
    Stage.val_main_v70 (F := Ideal) x0 x1 x2 x3 x4 j
      = Stage.val_main_v45 (F := Ideal) x0 x1 x2 x3 x4 (gather_S100000x64_S1700000x1_S1700000x64_1_0_n_n_0_1_164.operandIdx j (Stage.val_main_v66 (F := Ideal) x1)) *
        (Stage.val_main_v11 (F := Ideal) x1
            (ix1 ((gather_S100000x64_S1700000x1_S1700000x64_1_0_n_n_0_1_164.operandIdx j (Stage.val_main_v66 (F := Ideal) x1)) 0)) *
          Stage.val_main_v59 (F := Ideal) x1 (ix1 (j 0))) := by
  have he : Stage.idx_main_v68 (Stage.idx_main_v69 j) = ix1 (n := 1700000) (j 0) := by
    funext a; match a with | ⟨0, _⟩ => rfl
  have hσ : Stage.val_main_v52 (F := Ideal) x1 (ix1 (n := 1700000) (j 0))
      = Stage.val_main_v11 (F := Ideal) x1
          (ix1 ((gather_S100000x64_S1700000x1_S1700000x64_1_0_n_n_0_1_164.operandIdx j (Stage.val_main_v66 (F := Ideal) x1)) 0)) := by
    refine (v52_apply x1 (j 0)).trans ?_
    rewrite [gather64_row, src_wrap_eq2]
    rfl
  rw [Stage.val_main_v70_apply, Stage.val_main_v69_apply, Stage.val_main_v68_apply, Stage.val_main_v60_apply, he, hσ,
    Ideal.mulf_def, Ideal.mulf_def, v67_eq]
  rfl

/-- THE LAYER LAW: the aggregate at `(d, c)` is the degree factor of `d` times the scatter-add of the gathered rows of the
    array scaled row by row by the degree factors. -/
theorem layer2_law (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (i : S100000x64.Idx) :
    Stage.val_main_v73 (F := Ideal) x0 x1 x2 x3 x4 i
      = Stage.val_main_v11 (F := Ideal) x1 (ix1 (i 0)) *
        Ideal.hostScatterAdd scatter_S100000x64_S1700000x1_S1700000x64_1_0_0_1 (Stage.val_main_v71 (F := Ideal))
          (Stage.val_main_v72 (F := Ideal) x1)
          (Host.gather gather_S100000x64_S1700000x1_S1700000x64_1_0_n_n_0_1_164
            (fun r => Stage.val_main_v45 (F := Ideal) x0 x1 x2 x3 x4 r * Stage.val_main_v11 (F := Ideal) x1 (ix1 (r 0)))
            (Stage.val_main_v66 (F := Ideal) x1)) i := by
  have hP := dis_nonneg_real x1 (ix1 (i 0))
  have hupd : Stage.val_main_v70 (F := Ideal) x0 x1 x2 x3 x4 = fun j =>
      Stage.val_main_v45 (F := Ideal) x0 x1 x2 x3 x4 (gather_S100000x64_S1700000x1_S1700000x64_1_0_n_n_0_1_164.operandIdx j (Stage.val_main_v66 (F := Ideal) x1)) *
        (Stage.val_main_v11 (F := Ideal) x1
            (ix1 ((gather_S100000x64_S1700000x1_S1700000x64_1_0_n_n_0_1_164.operandIdx j (Stage.val_main_v66 (F := Ideal) x1)) 0)) *
          Stage.val_main_v59 (F := Ideal) x1 (ix1 (j 0))) :=
    funext (v70_split x0 x1 x2 x3 x4)
  rw [v73_eq, Host_scatterAdd_eq, hupd]
  exact hostScatterAdd_scale scatter_S100000x64_S1700000x1_S1700000x64_1_0_0_1 (Stage.val_main_v71 (F := Ideal))
    (Stage.val_main_v72 (F := Ideal) x1) _ _ _ i hP.1 hP.2 (zeros64_apply i)
    (fun j hj => dst_factor_of_lands2 x1 j i hj)

end Cert.LayerLaw

end
-- ==== Proof.RefLogSoftmax.lean ====
/-
  The reference's row-wise log-softmax (its last stage) read at an index: at `(r, q)` it is the log-softmax of row `r`
  of the logits at lane `q`, the row's maximum the fold of `max` over the row from `-∞`'s word — the maximum with `-∞`
  that the reference takes of that fold changes nothing.
-/
import proofs.«101615_j360777253171_2_alg».proof.Proof.RefStages
import proofs.«101615_j360777253171_2_alg».proof.Proof.RegionFinal

noncomputable section

namespace Cert.RefLogSoftmax

open Cert.ReferenceIdeal Cert.ReferenceIdeal.Gen Idealize.ShloMosaic Idealize.ShloMosaic.TcCoe Idealize.SL.Sem
open Idealize.ShloMosaic.ValueIdx
open scoped BigOperators

/-! ## The row maximum -/

/-- The start value of the row maximum, `-∞`'s word, is the least extended real. -/
theorem ofBits_neg_inf : Ideal.ofBits .f32 0xFF800000#32 = ⊥ := by simp [Ideal.ofBits, Ideal.ieee]

/-- A fold does not depend on how its operation is spelt. -/
private theorem fold_congr_op {ι α : Type} {op op' : α → α → α} [Std.Commutative op] [Std.Associative op]
    [Std.Commutative op'] [Std.Associative op'] (h : op = op') (s : Finset ι) (b : α) (f : ι → α) :
    s.fold op b f = s.fold op' b f := by
  subst h; rfl

/-- The ideal instance's maximum is the extended reals' `max`. -/
private theorem maximumf_eq_max : (FloatOps.maximumf (F := Ideal) (φ := .f32)) = (max : EReal → EReal → EReal) :=
  funext fun _ => funext fun _ => rfl

/-- The index a reduction along the rows reads at row `r`, lane `k`, is `(r, k)`. -/
private theorem lift_row (h : S100000x64.Reduces [1] S100000) (r : Fin 100000) (k : Fin 64) :
    h.lift (ix1 r) k = ix2 r k :=
  funext fun a => Fin.ext (by match a with | ⟨0, _⟩ => rfl | ⟨1, _⟩ => rfl)

/-- A host reduction by the maximum along the rows of any `[100000, 64]` array, read at row `r`: the fold of `max` over
    the row's 64 entries from the start value. -/
private theorem reduce_max_row (z : S100000x64.Idx → EReal) (init : S_.Idx → EReal) (h' : S100000x64.ReducesTo [1] S100000)
    (hu : 0 < S_.numel) (r : Fin 100000) :
    Host.reduce (FloatOps.maximumf (F := Ideal) (φ := .f32)) z init h' hu (ix1 r)
      = (Finset.univ : Finset (Fin 64)).fold max (init (Shape.Idx.first hu)) (fun k => z (ix2 r k)) := by
  have h : S100000x64.Reduces [1] S100000 := by decide
  refine (Host.reduce_eq_fold_single (FloatOps.maximumf (F := Ideal) (φ := .f32)) z init h' h hu (ix1 r)).trans ?_
  refine (fold_congr_op maximumf_eq_max _ _ _).trans ?_
  exact congrArg (fun f : Fin 64 → EReal => (Finset.univ : Finset (Fin 64)).fold max (init (Shape.Idx.first hu)) f)
    (funext fun k => congrArg z (lift_row h r k))

/-- The reference's maximum over a row of the logits, read at row `r`: the fold of `max` over the row's 64 entries
    from `-∞`'s word. -/
theorem host_reduceMax_apply (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (r : Fin 100000) :
    Stage.val_main_call1_v0 (F := Ideal) x0 x1 x2 x3 x4 x5 (ix1 r)
      = Cert.KernelIdeal.RegionValue.rowMax64 (fun j : Fin 64 => Stage.val_main_v76 (F := Ideal) x0 x1 x2 x3 x4 x5 (ix2 r j)) := by
  unfold Stage.val_main_call1_v0
  generalize Stage.val_main_v76 (F := Ideal) x0 x1 x2 x3 x4 x5 = z
  refine (reduce_max_row z (Stage.val_main_call1_cst (F := Ideal)) reducesTo_S100000x64_S100000_d1 h_S_ r).trans ?_
  rw [Stage.val_main_call1_cst_apply, Ideal.ofBits_def]
  rfl

/-- The maximum of `-∞` and that row maximum, which the reference takes next, is the row maximum. -/
theorem host_rowMax_apply (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (r : Fin 100000) :
    Stage.val_main_call1_v2 (F := Ideal) x0 x1 x2 x3 x4 x5 (ix1 r)
      = Cert.KernelIdeal.RegionValue.rowMax64 (fun j : Fin 64 => Stage.val_main_v76 (F := Ideal) x0 x1 x2 x3 x4 x5 (ix2 r j)) := by
  refine (Stage.val_main_call1_v2_apply x0 x1 x2 x3 x4 x5 (ix1 r)).trans ?_
  rw [Ideal.maximumf_def, Stage.val_main_call1_v1_apply, Stage.val_main_call1_cst_0_apply, Ideal.ofBits_def,
    host_reduceMax_apply, ofBits_neg_inf]
  exact max_eq_right bot_le

/-! ## The log-softmax -/

/-- A logit less its row's maximum, as the reference computes it at `(r, j)`. -/
theorem host_shifted_apply (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (r : Fin 100000) (j : Fin 64) :
    Stage.val_main_call1_v5 (F := Ideal) x0 x1 x2 x3 x4 x5 (ix2 r j)
      = Stage.val_main_v76 (F := Ideal) x0 x1 x2 x3 x4 x5 (ix2 r j)
        - Cert.KernelIdeal.RegionValue.rowMax64 (fun k : Fin 64 => Stage.val_main_v76 (F := Ideal) x0 x1 x2 x3 x4 x5 (ix2 r k)) := by
  refine (Stage.val_main_call1_v5_apply x0 x1 x2 x3 x4 x5 (ix2 r j)).trans ?_
  rw [Ideal.subf_def]
  refine congrArg (Stage.val_main_v76 (F := Ideal) x0 x1 x2 x3 x4 x5 (ix2 r j) - ·) ?_
  refine (Stage.val_main_call1_v4_apply x0 x1 x2 x3 x4 x5 (ix2 r j)).trans ((Stage.val_main_call1_v3_apply x0 x1 x2 x3 x4 x5 _).trans ?_)
  have hidx : Stage.idx_main_call1_v3 (Stage.idx_main_call1_v4 (ix2 r j)) = ix1 r :=
    funext fun a => Fin.ext (by match a with | ⟨0, _⟩ => rfl)
  rw [hidx]
  exact host_rowMax_apply x0 x1 x2 x3 x4 x5 r

/-- THE REFERENCE'S LOG-SOFTMAX AT AN INDEX: the log-softmax of the row of logits, at the index's column. -/
theorem host_logsoftmax_apply (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (i : S100000x64.Idx) :
    Stage.val_main_v77 (F := Ideal) x0 x1 x2 x3 x4 x5 i
      = Cert.KernelIdeal.RegionValue.logSoftmax64 (fun j : Fin 64 => Stage.val_main_v76 (F := Ideal) x0 x1 x2 x3 x4 x5 (ix2 (i 0 : Fin 100000) j)) (i 1 : Fin 64) := by
  obtain ⟨r, q, rfl⟩ : ∃ (r : Fin 100000) (q : Fin 64), i = ix2 r q := ⟨i 0, i 1, eq_ix2 i⟩
  show _ = Cert.KernelIdeal.RegionValue.logSoftmax64 (fun j : Fin 64 => Stage.val_main_v76 (F := Ideal) x0 x1 x2 x3 x4 x5 (ix2 r j)) q
  refine (Stage.val_main_v77_apply x0 x1 x2 x3 x4 x5 (ix2 r q)).trans ?_
  rw [Ideal.subf_def]
  unfold Cert.KernelIdeal.RegionValue.logSoftmax64
  refine congrArg₂ (· - ·) (host_shifted_apply x0 x1 x2 x3 x4 x5 r q) ?_
  refine (Stage.val_main_call1_v10_apply x0 x1 x2 x3 x4 x5 (ix2 r q)).trans ((Stage.val_main_call1_v9_apply x0 x1 x2 x3 x4 x5 _).trans ?_)
  rw [Ideal.hostUnary_log_def]
  refine congrArg Ideal.log ((Stage.val_main_call1_v8_apply x0 x1 x2 x3 x4 x5 _).trans ((Stage.val_main_call1_v7_apply x0 x1 x2 x3 x4 x5 _).trans ?_))
  rw [Stage.val_main_call1_cst_1_apply, Ideal.ofBits_def, Ideal.ofBits_zero_f32, zero_add]
  refine Finset.sum_congr rfl fun j _ => ?_
  have hidx : Stage.idx_main_call1_v7 (Stage.idx_main_call1_v8 (Stage.idx_main_call1_v10 (ix2 r q))) j = ix2 r j :=
    funext fun a => Fin.ext (by match a with | ⟨0, _⟩ => rfl | ⟨1, _⟩ => rfl)
  rw [hidx]
  refine (Stage.val_main_call1_v6_apply x0 x1 x2 x3 x4 x5 (ix2 r j)).trans ?_
  rw [Ideal.hostUnary_exp_def]
  exact congrArg Ideal.exp (host_shifted_apply x0 x1 x2 x3 x4 x5 r j)

end Cert.RefLogSoftmax

end
-- ==== Proof.Bridge.lean ====
/-
  The kernel's function of the arguments is the reference's.

  A graph-convolution layer sends to node d the sum, over the edges e arriving at d, of the source row h[src e]
  scaled by the factors of both ends, dis[src e] · dis[d]. The reference computes exactly that. The kernel scales
  every row by its own node's factor BEFORE the aggregation (h[r] · dis[r]) and scales the aggregate of node d by
  dis[d] AFTER it. Every edge arriving at d carries the same factor dis[d], a non-negative real (the degree of d
  counts d's own self-loop, so it is at least one), and a non-negative real factor comes out of any sum of
  extended reals: the two are equal entry by entry, whatever the rows hold. Around the two layers both programs
  apply the same dense products, the same bias, the same rectifier and the same row-wise log-softmax.
-/
import proofs.«101615_j360777253171_2_alg».proof.Proof.BridgeBase
import proofs.«101615_j360777253171_2_alg».proof.Proof.LayerLaw
import proofs.«101615_j360777253171_2_alg».proof.Proof.RefLogSoftmax

set_option maxRecDepth 16384

noncomputable section

namespace Cert.Bridge

open Idealize.ShloMosaic Idealize.ShloMosaic.ValueIdx
open Cert.KernelIdeal.HostValue Cert.KernelIdeal.RegionValue Cert.ReferenceIdeal.Stage

variable (x0 : (⟨Cert.ReferenceIdeal.S100000x128, .f32⟩ : BufTy).Contents (Elt Ideal)) (x1 : (⟨Cert.ReferenceIdeal.S2x1600000, .i32⟩ : BufTy).Contents (Elt Ideal))
  (x2 : (⟨Cert.ReferenceIdeal.S128x128, .f32⟩ : BufTy).Contents (Elt Ideal)) (x3 : (⟨Cert.ReferenceIdeal.S128, .f32⟩ : BufTy).Contents (Elt Ideal))
  (x4 : (⟨Cert.ReferenceIdeal.S128x64, .f32⟩ : BufTy).Contents (Elt Ideal)) (x5 : (⟨Cert.ReferenceIdeal.S64, .f32⟩ : BufTy).Contents (Elt Ideal))

/-- First layer: the reference's aggregate at (d, q) is the factor of d times the kernel's aggregate of the
    pre-scaled rows. -/
theorem layer1 (i : Cert.ReferenceIdeal.S100000x128.Idx) :
    val_main_v40 (F := Ideal) x0 x1 x2 i
      = val_main_v11 (F := Ideal) x1 (ix1 (i 0)) * agg128 (F := Ideal) x1 (linearRows x0 x2 (disCol (F := Ideal) x1)) i := by
  rw [Cert.LayerLaw.layer1_law, agg128_eq, linear_eq]

/-- The reference's rectified first-layer output at (r, k): the factor of r times the kernel's aggregate, plus the bias,
    rectified. -/
theorem relu_stage_apply (r : Fin 100000) (k : Fin 128) :
    val_main_v44 (F := Ideal) x0 x1 x2 x3 (ix2 r k)
      = max (val_main_v11 (F := Ideal) x1 (ix1 r)
          * agg128 (F := Ideal) x1 (linearRows x0 x2 (disCol (F := Ideal) x1)) (ix2 r k) + x3 (ix1 k)) 0 := by
  have eb : idx_main_v41 (idx_main_v42 (ix2 r k)) = ix1 k := funext fun a => Fin.ext (by match a with | ⟨0, _⟩ => rfl)
  rw [val_main_v44_apply, val_main_v43_apply, val_main_call0_v0_apply, val_main_call0_cst_apply, val_main_v42_apply,
    val_main_v41_apply, eb, layer1 x0 x1 x2 (ix2 r k)]
  simp only [Ideal.ofBits_def, Ideal.ofBits_zero_f32]
  rfl

/-- The second region's rows are the reference's second dense product, each row scaled by its node's factor: inside,
    factor × aggregate + bias is the reference's first layer output, rectified. -/
theorem mid_eq :
    midRows (agg128 (F := Ideal) x1 (linearRows x0 x2 (disCol (F := Ideal) x1))) (row128 (F := Ideal) x3) x4 (disCol (F := Ideal) x1)
      = fun q => val_main_v45 (F := Ideal) x0 x1 x2 x3 x4 q * val_main_v11 (F := Ideal) x1 (ix1 (q 0)) := by
  funext q
  rw [val_main_v45_apply]
  show (∑ k : Fin 128, max (disCol (F := Ideal) x1 (ix2 (q 0) (0 : Fin 1))
            * agg128 (F := Ideal) x1 (linearRows x0 x2 (disCol (F := Ideal) x1)) (ix2 (q 0) k) + row128 (F := Ideal) x3 (ix2 (0 : Fin 1) k)) 0
          * x4 (ix2 k (q 1))) * disCol (F := Ideal) x1 (ix2 (q 0) (0 : Fin 1)) = _
  rw [disCol_apply x1 (q 0)]
  have el : ∀ k : Fin 128, lidx_main_v45 q k = ix2 (q 0) k := fun k =>
    funext fun a => Fin.ext (by match a with | ⟨0, _⟩ => rfl | ⟨1, _⟩ => rfl)
  have er : ∀ k : Fin 128, ridx_main_v45 q k = ix2 k (q 1) := fun k =>
    funext fun a => Fin.ext (by match a with | ⟨0, _⟩ => rfl | ⟨1, _⟩ => rfl)
  have hs : (∑ k : Fin 128, (val_main_v44 (F := Ideal) x0 x1 x2 x3) (lidx_main_v45 q k) * x4 (ridx_main_v45 q k))
      = ∑ k : Fin 128, max (val_main_v11 (F := Ideal) x1 (ix1 (q 0))
            * agg128 (F := Ideal) x1 (linearRows x0 x2 (disCol (F := Ideal) x1)) (ix2 (q 0) k) + row128 (F := Ideal) x3 (ix2 (0 : Fin 1) k)) 0
          * x4 (ix2 k (q 1)) :=
    Finset.sum_congr rfl fun k _ => by
      rw [el k, er k]
      exact congrArg (· * x4 (ix2 k (q 1))) ((relu_stage_apply x0 x1 x2 x3 (q 0) k).trans (by rw [row128_apply x3 k]))
  rw [hs]

/-- Second layer: the reference's aggregate at (d, j) is the factor of d times the kernel's aggregate of the second
    region's rows. -/
theorem layer2 (i : Cert.ReferenceIdeal.S100000x64.Idx) :
    val_main_v73 (F := Ideal) x0 x1 x2 x3 x4 i
      = val_main_v11 (F := Ideal) x1 (ix1 (i 0))
        * agg64 (F := Ideal) x1 (midRows (agg128 (F := Ideal) x1 (linearRows x0 x2 (disCol (F := Ideal) x1))) (row128 (F := Ideal) x3) x4 (disCol (F := Ideal) x1)) i := by
  rw [Cert.LayerLaw.layer2_law, agg64_eq, mid_eq]

/-- The reference's logits at (r, j): the factor of r times the kernel's second aggregate, plus the bias. -/
theorem logits_apply (r : Fin 100000) (j : Fin 64) :
    val_main_v76 (F := Ideal) x0 x1 x2 x3 x4 x5 (ix2 r j)
      = val_main_v11 (F := Ideal) x1 (ix1 r)
        * agg64 (F := Ideal) x1 (midRows (agg128 (F := Ideal) x1 (linearRows x0 x2 (disCol (F := Ideal) x1))) (row128 (F := Ideal) x3) x4 (disCol (F := Ideal) x1)) (ix2 r j)
        + x5 (ix1 j) := by
  have eb : idx_main_v74 (idx_main_v75 (ix2 r j)) = ix1 j := funext fun a => Fin.ext (by match a with | ⟨0, _⟩ => rfl)
  rw [val_main_v76_apply, val_main_v75_apply, val_main_v74_apply, eb, layer2 x0 x1 x2 x3 x4 (ix2 r j)]
  rfl

/-- The kernel's result is the reference's, entry by entry: the same row-wise log-softmax of the same rows. -/
theorem kernel_eq_reference : kernelOut x0 x1 x2 x3 x4 x5 = val_main_v77 (F := Ideal) x0 x1 x2 x3 x4 x5 := by
  funext i
  rw [Cert.RefLogSoftmax.host_logsoftmax_apply]
  show logSoftmax64 (fun j : Fin 64 => disCol (F := Ideal) x1 (ix2 (i 0) (0 : Fin 1))
        * agg64 (F := Ideal) x1 (midRows (agg128 (F := Ideal) x1 (linearRows x0 x2 (disCol (F := Ideal) x1))) (row128 (F := Ideal) x3) x4 (disCol (F := Ideal) x1)) (ix2 (i 0) j)
        + row64 (F := Ideal) x5 (ix2 (0 : Fin 1) j)) (i 1) = _
  have hz : (fun j : Fin 64 => val_main_v76 (F := Ideal) x0 x1 x2 x3 x4 x5 (ix2 (i 0) j))
      = fun j : Fin 64 => disCol (F := Ideal) x1 (ix2 (i 0) (0 : Fin 1))
        * agg64 (F := Ideal) x1 (midRows (agg128 (F := Ideal) x1 (linearRows x0 x2 (disCol (F := Ideal) x1))) (row128 (F := Ideal) x3) x4 (disCol (F := Ideal) x1)) (ix2 (i 0) j)
        + row64 (F := Ideal) x5 (ix2 (0 : Fin 1) j) :=
    funext fun j => (logits_apply x0 x1 x2 x3 x4 x5 (i 0) j).trans (by rw [disCol_apply x1 (i 0), row64_apply x5 j])
  rw [hz]

end Cert.Bridge

end
-- ==== Proof.lean ====
/-
  Two-layer graph convolution with self-loops and symmetric degree normalisation, followed by a row-wise log-softmax:
  the Pallas kernel program against its jnp reference, over the extended reals.

  The reference computes, per layer, out[d] = Σ over edges e arriving at d of h[src e] · (dis[src e] · dis[d]) + b,
  with h the dense product of the layer's input and weights and dis the inverse square root of the degree (the
  degree counts each node's own self-loop). The kernel program folds the factor of the source into the region that
  produces the rows (each row times its node's factor), aggregates the scaled rows on the host (gather by source,
  scatter-add by destination), and folds the factor of the destination into the region that consumes the aggregate.
  Since dis[d] is a non-negative real for every node and every edge list, it distributes over the sum of extended
  reals landing on d, and the two programs agree entry by entry; no finiteness of the float inputs is used.

  The three frames: the kernel programs' are the generated frame certificates; the reference's is its run with the
  result dropped. The idealisation rewrote no operation, so `preserves` is `True`.
-/
import proofs.«101615_j360777253171_2_alg».proof.Defs
import proofs.«101615_j360777253171_2_alg».proof.Proof.Gen.Kernel
import proofs.«101615_j360777253171_2_alg».proof.Proof.Gen.Kernel.Skeleton
import proofs.«101615_j360777253171_2_alg».proof.Proof.Gen.Kernel.Launch
import proofs.«101615_j360777253171_2_alg».proof.Proof.Gen.Kernel.Points
import proofs.«101615_j360777253171_2_alg».proof.Proof.Gen.Kernel.Frame
import proofs.«101615_j360777253171_2_alg».proof.Proof.Gen.KernelIdeal
import proofs.«101615_j360777253171_2_alg».proof.Proof.Gen.KernelIdeal.Skeleton
import proofs.«101615_j360777253171_2_alg».proof.Proof.Gen.KernelIdeal.Launch
import proofs.«101615_j360777253171_2_alg».proof.Proof.Gen.KernelIdeal.Points
import proofs.«101615_j360777253171_2_alg».proof.Proof.Gen.KernelIdeal.Frame
import proofs.«101615_j360777253171_2_alg».proof.Proof.Gen.ReferenceIdeal
import proofs.«101615_j360777253171_2_alg».proof.Proof.Gen.Pre_finite_inputs
import proofs.«101615_j360777253171_2_alg».proof.Proof.KRun
import proofs.«101615_j360777253171_2_alg».proof.Proof.KValue
import proofs.«101615_j360777253171_2_alg».proof.Proof.RefRun
import proofs.«101615_j360777253171_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments unchanged: the generated frame certificate. -/
theorem frame_kernel : Cert.frame_Kernel := fun m ρ _ => Cert.Kernel.Gen.frame m ρ
/-- The idealized kernel program, likewise. -/
theorem frame_kernelIdeal : Cert.frame_KernelIdeal := fun m ρ _ => Cert.KernelIdeal.Gen.frame m ρ
/-- The reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealisation rewrote nothing. -/
theorem preserves : Cert.preserves_Kernel_KernelIdeal := trivial

/-- From memories agreeing on the arguments both programs end with the same result array: the kernel program's is
    its function of the arguments, the reference's its last stage function, and the two are one function. -/
theorem algebraic : Cert.algebraic_KernelIdeal_ReferenceIdeal := by
  intro m ρ m' ρ' _ hagree
  refine ⟨fun c => Cert.KernelIdeal.HostValue.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.HostValue.W6_result m ρ c), (h c).2⟩)
      (Cert.KernelIdeal.RunValue.run_named (F := Ideal) m ρ)
  · refine (θ_run Cert.ReferenceIdeal.defs _ _).mono (fun _ h c => ⟨(h c).1.trans ?_, (h c).2⟩)
      (Cert.ReferenceIdeal.RefRun.run (F := Ideal) m' ρ')
    rw [(hagree c).1, (hagree c).2.1, (hagree c).2.2.1, (hagree c).2.2.2.1, (hagree c).2.2.2.2.1, (hagree c).2.2.2.2.2]
    exact (Cert.Bridge.kernel_eq_reference _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
